-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768 : Shape := ⟨1, ![32768]⟩
abbrev S8x512x512 : Shape := ⟨3, ![8, 512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x512 .f32) (main_arg1 : IVec S32768 32) (main_arg2 : FVec F S8x512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg1 main_v9
  let main_c_3 : IVec S_ 32 := constantI S_ 32 8#32
  let main_v11 : IVec S32768 32 := broadcastInDim S32768 ![] bcast_S_S32768 main_c_3
  let main_v12 : IVec S32768 1 := cmpi .slt main_arg1 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768x512 : Shape := ⟨2, ![32768, 512]⟩
abbrev S32768 : Shape := ⟨1, ![32768]⟩
abbrev S8x512x512 : Shape := ⟨3, ![8, 512, 512]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S32768x1x1 : Shape := ⟨3, ![32768, 1, 1]⟩
abbrev S1 : Shape := ⟨1, ![1]⟩
abbrev S1x1x1 : Shape := ⟨3, ![1, 1, 1]⟩
abbrev S7 : Shape := ⟨1, ![7]⟩
abbrev S40 : Shape := ⟨1, ![40]⟩
abbrev S40x1 : Shape := ⟨2, ![40, 1]⟩
abbrev S40x8 : Shape := ⟨2, ![40, 8]⟩
abbrev S40960x512 : Shape := ⟨2, ![40960, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 138
  | .vmem => 6
  | .smem => 1
  | _ => 0

abbrev hbmTy0_0 (i : Nat) : BufTy := match i % 128 with
  | 0 => ⟨S32768x512, .f32⟩
  | 1 => ⟨S32768, .i32⟩
  | 2 => ⟨S8x512x512, .f32⟩
  | 3 => ⟨S32768x1, .i32⟩
  | 4 => ⟨S8, .i32⟩
  | 5 => ⟨S1x8, .i32⟩
  | 6 => ⟨S32768x8, .i32⟩
  | 7 => ⟨S32768x8, .i32⟩
  | 8 => ⟨S32768x8, .i1⟩
  | 9 => ⟨S32768x8, .i32⟩
  | 10 => ⟨S_, .i32⟩
  | 11 => ⟨S_, .i32⟩
  | 12 => ⟨S32768x8, .i32⟩
  | 13 => ⟨S1x8, .i32⟩
  | 14 => ⟨S8, .i32⟩
  | 15 => ⟨S32768x1, .i32⟩
  | 16 => ⟨S_, .i32⟩
  | 17 => ⟨S32768x1, .i32⟩
  | 18 => ⟨S32768x1, .i1⟩
  | 19 => ⟨S_, .i32⟩
  | 20 => ⟨S32768x1, .i32⟩
  | 21 => ⟨S32768x1, .i32⟩
  | 22 => ⟨S32768x1, .i32⟩
  | 23 => ⟨S32768x1x1, .i32⟩
  | 24 => ⟨S1, .i32⟩
  | 25 => ⟨S_, .i32⟩
  | 26 => ⟨S32768x1x1, .i32⟩
  | 27 => ⟨S32768x1x1, .i1⟩
  | 28 => ⟨S1x1x1, .i32⟩
  | 29 => ⟨S32768x1x1, .i32⟩
  | 30 => ⟨S32768x1x1, .i1⟩
  | 31 => ⟨S32768x1x1, .i1⟩
  | 32 => ⟨S_, .i1⟩
  | 33 => ⟨S32768x1, .i1⟩
  | 34 => ⟨S32768x1, .i32⟩
  | 35 => ⟨S_, .i32⟩
  | 36 => ⟨S32768x1, .i32⟩
  | 37 => ⟨S32768x1, .i32⟩
  | 38 => ⟨S32768, .i32⟩
  | 39 => ⟨S_, .i32⟩
  | 40 => ⟨S32768, .i32⟩
  | 41 => ⟨S32768, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S8, .i32⟩
  | 53 => ⟨S_, .i32⟩
  | 54 => ⟨S8, .i32⟩
  | 55 => ⟨S8, .i1⟩
  | 56 => ⟨S8, .i32⟩
  | 57 => ⟨S8, .i32⟩
  | 58 => ⟨S_, .i32⟩
  | 59 => ⟨S8, .i32⟩
  | 60 => ⟨S8, .i1⟩
  | 61 => ⟨S8, .i1⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S1, .i32⟩
  | 71 => ⟨S_, .i32⟩
  | 72 => ⟨S_, .i32⟩
  | 73 => ⟨S8, .i32⟩
  | 74 => ⟨S7, .i32⟩
  | 75 => ⟨S8, .i32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S32768x1, .i32⟩
  | 84 => ⟨S32768, .i32⟩
  | 85 => ⟨S32768, .i32⟩
  | 86 => ⟨S_, .i32⟩
  | 87 => ⟨S_, .i32⟩
  | 88 => ⟨S8, .i32⟩
  | 89 => ⟨S8, .i32⟩
  | 90 => ⟨S8, .i32⟩
  | 91 => ⟨S_, .i32⟩
  | 92 => ⟨S8, .i32⟩
  | 93 => ⟨S8, .i1⟩
  | 94 => ⟨S8, .i32⟩
  | 95 => ⟨S8, .i32⟩
  | 96 => ⟨S_, .i32⟩
  | 97 => ⟨S8, .i32⟩
  | 98 => ⟨S8, .i1⟩
  | 99 => ⟨S8, .i1⟩
  | 100 => ⟨S_, .i32⟩
  | 101 => ⟨S8, .i32⟩
  | 102 => ⟨S8, .i32⟩
  | 103 => ⟨S8, .i32⟩
  | 104 => ⟨S40, .i32⟩
  | 105 => ⟨S40x1, .i32⟩
  | 106 => ⟨S1x8, .i32⟩
  | 107 => ⟨S40x8, .i32⟩
  | 108 => ⟨S40x8, .i32⟩
  | 109 => ⟨S40x8, .i1⟩
  | 110 => ⟨S40x8, .i32⟩
  | 111 => ⟨S_, .i32⟩
  | 112 => ⟨S40, .i32⟩
  | 113 => ⟨S_, .i32⟩
  | 114 => ⟨S40, .i32⟩
  | 115 => ⟨S8x512x512, .bf16⟩
  | 116 => ⟨S32768x512, .bf16⟩
  | 117 => ⟨S_, .bf16⟩
  | 118 => ⟨S40960x512, .bf16⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S40960x512, .bf16⟩
  | _ => ⟨S32768x512, .f32⟩

abbrev hbmTy0_1 (i : Nat) : BufTy := match i % 128 with
  | 0 => ⟨S40960x512, .f32⟩
  | 1 => ⟨S_, .i32⟩
  | 2 => ⟨S32768, .i32⟩
  | 3 => ⟨S32768, .i1⟩
  | 4 => ⟨S_, .i32⟩
  | 5 => ⟨S32768, .i32⟩
  | 6 => ⟨S32768, .i32⟩
  | 7 => ⟨S32768, .i32⟩
  | 8 => ⟨S32768x1, .i32⟩
  | 9 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .smem, ⟨0, _⟩ => ⟨S40, .i32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_c_4 : Ref sig .tc := ⟨.hbm, 35, rfl⟩
abbrev main_call1_v14 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v19 : Ref sig .tc := ⟨.hbm, 65, rfl⟩
abbrev main_c_3 : Ref sig .tc := ⟨.hbm, 66, rfl⟩
abbrev main_v20 : Ref sig .tc := ⟨.hbm, 67, rfl⟩
abbrev main_v21 : Ref sig .tc := ⟨.hbm, 68, rfl⟩
abbrev main_c_4 : Ref sig .tc := ⟨.hbm, 69, rfl⟩
abbrev main_v22 : Ref sig .tc := ⟨.hbm, 70, rfl⟩
abbrev main_call3_call0_c : Ref sig .tc := ⟨.hbm, 71, rfl⟩
abbrev main_call3_call0_v0 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_c_6 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_c : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_0 : Ref sig .tc := ⟨.hbm, 100, rfl⟩
abbrev main_call4_v12 : Ref sig .tc := ⟨.hbm, 101, rfl⟩
abbrev main_call4_v13 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_c_8 : Ref sig .tc := ⟨.hbm, 111, rfl⟩
abbrev main_v42 : Ref sig .tc := ⟨.hbm, 112, rfl⟩
abbrev main_c_9 : Ref sig .tc := ⟨.hbm, 113, rfl⟩
abbrev main_v43 : Ref sig .tc := ⟨.hbm, 114, rfl⟩
abbrev main_v45 : Ref sig .tc := ⟨.hbm, 115, rfl⟩
abbrev main_v46 : Ref sig .tc := ⟨.hbm, 116, rfl⟩
abbrev main_cst : Ref sig .tc := ⟨.hbm, 117, rfl⟩
abbrev main_v47 : Ref sig .tc := ⟨.hbm, 118, rfl⟩
abbrev main_c_10 : Ref sig .tc := ⟨.hbm, 119, rfl⟩
abbrev main_v48 : Ref sig .tc := ⟨.hbm, 120, rfl⟩
abbrev main_v49 : Ref sig .tc := ⟨.hbm, 121, rfl⟩
abbrev main_c_11 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_c_12 : Ref sig .tc := ⟨.hbm, 129, rfl⟩
abbrev main_v56 : Ref sig .tc := ⟨.hbm, 130, rfl⟩
abbrev main_v57 : Ref sig .tc := ⟨.hbm, 131, rfl⟩
abbrev main_c_13 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32768_S32768x1_0 : S32768.BroadcastsInDim S32768x1 (![0] : Fin 1 → Fin S32768x1.rank)
  bcast_S8_S1x8_1 : S8.BroadcastsInDim S1x8 (![1] : Fin 1 → Fin S1x8.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  bcast_S_S_ : S_.BroadcastsInDim S_ (![] : Fin 0 → Fin S_.rank)
  reduceWindows_S32768x8_S32768x8_w32768s1p32767_0_w1s1p0_0 : S32768x8.ReduceWindows (![32768, 1] : Fin 2 → Nat) ![1, 1] ![32767, 0] ![0, 0] S32768x8
  h_S_ : 0 < S_.numel
  slices_S32768x8_S1x8_32767_0 : S32768x8.Slices ![32767, 0] S1x8
  shapeCasts_S1x8_S8 : S1x8.ShapeCasts S8
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  bcast_S_S32768 : S_.BroadcastsInDim S32768 (![] : Fin 0 → Fin S32768.rank)
  bcast_S_S8 : S_.BroadcastsInDim S8 (![] : Fin 0 → Fin S8.rank)
  bcast_S_S1 : S_.BroadcastsInDim S1 (![] : Fin 0 → Fin S1.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S40_S40x1_0 : S40.BroadcastsInDim S40x1 (![0] : Fin 1 → Fin S40x1.rank)
  bcast_S40x1_S40x8_0_1 : S40x1.BroadcastsInDim S40x8 (![0, 1] : Fin 2 → Fin S40x8.rank)
  bcast_S1x8_S40x8_0_1 : S1x8.BroadcastsInDim S40x8 (![0, 1] : Fin 2 → Fin S40x8.rank)
  reducesTo_S40x8_S40_d1 : S40x8.ReducesTo [1] S40
  bcast_S_S40 : S_.BroadcastsInDim S40 (![] : Fin 0 → Fin S40.rank)
  bitsLt_bf16_f32 : FTy.bits .bf16 < FTy.bits .f32
  bcast_S_S40960x512 : S_.BroadcastsInDim S40960x512 (![] : Fin 0 → Fin S40960x512.rank)
  numel1_S1 : S1.numel = 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  gather_S32768x8_S32768x1x1_S32768x1_n_1_0_0_1_2_11_wf : GatherDims.WF S32768x8 S32768x1x1 S32768x1 [] [1] [0] [1] [0] 2 ![1, 1]
  gather_S8_S32768x1_S32768_n_0_n_n_0_1_1_wf : GatherDims.WF S8 S32768x1 S32768 [] [0] [] [0] [] 1 ![1]
  scatter_S40960x512_S32768x1_S32768x512_1_0_0_1_wf : ScatterDims.WF S40960x512 S32768x1 S32768x512 [1] [0] [0] 1
  dot_S1024x512_S512x512_S1024x512_1_0_0_1_n_n_wf : DotDims.WF S1024x512 S512x512 S1024x512 [1] [0] [0] [1] [] []
  gather_S40960x512_S32768x1_S32768x512_1_0_n_n_0_1_1512_wf : GatherDims.WF S40960x512 S32768x1 S32768x512 [1] [0] [] [0] [] 1 ![1, 512]
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S40960x512.size a
  hwx0_0 : ∀ i : grid0.Coords, EltTy.bits .bf16 = 32 ∨ (Rect.block (s := S40960x512) S1024x512.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S40960x512.size a
  hwx0_2 : ∀ i : grid0.Coords, EltTy.bits .f32 = 32 ∨ (Rect.block (s := S40960x512) S1024x512.size (cc0_transform_2 i) (hinb0_2 i)).WholeWords (EltTy.packing .f32)

variable [Facts₀]

def gather_S32768x8_S32768x1x1_S32768x1_n_1_0_0_1_2_11 : GatherDims S32768x8 S32768x1x1 S32768x1 where
  offsetDims := []
  collapsedSliceDims := [1]
  operandBatchingDims := [0]
  startIndicesBatchingDims := [0]
  startIndexMap := [1]
  indexVectorDim := 2
  sliceSizes := ![1, 1]
  wf := gather_S32768x8_S32768x1x1_S32768x1_n_1_0_0_1_2_11_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def scatter_S40960x512_S32768x1_S32768x512_1_0_0_1 : ScatterDims S40960x512 S32768x1 S32768x512 where
  updateWindowDims := [1]
  insertedWindowDims := [0]
  scatterDimsToOperandDims := [0]
  indexVectorDim := 1
  wf := scatter_S40960x512_S32768x1_S32768x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S40960x512_S32768x1_S32768x512_1_0_n_n_0_1_1512 : GatherDims S40960x512 S32768x1 S32768x512 where
  offsetDims := [1]
  collapsedSliceDims := [0]
  operandBatchingDims := []
  startIndicesBatchingDims := []
  startIndexMap := [0]
  indexVectorDim := 1
  sliceSizes := ![1, 512]
  wf := gather_S40960x512_S32768x1_S32768x512_1_0_n_n_0_1_1512_wf

abbrev spec0_0 : Pipeline.WinSpec sig grid0.rank :=
  Pipeline.WinSpec.ofSpec (Memref.whole main_v54) S1024x512.size reads0_0 false false 2 stage0_0 sem0_0 nbuf0_0 hstage0_0

abbrev spec0_1 : Pipeline.WinSpec sig grid0.rank :=
  Pipeline.WinSpec.ofSpec (Memref.whole main_v45) S1x512x512.size reads0_1 false false 2 stage0_1 sem0_1 nbuf0_1 hstage0_1

abbrev spec0_2 : Pipeline.WinSpec sig grid0.rank :=
  Pipeline.WinSpec.ofSpec (Memref.whole main_v55) S1024x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x512.size a ≤ S8x512x512.size a), EltTy.bits .bf16 = 32 ∨ (Rect.block (s := S8x512x512) S1x512x512.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32768x512 : Shape := ⟨2, ![32768, 512]⟩
abbrev S32768 : Shape := ⟨1, ![32768]⟩
abbrev S8x512x512 : Shape := ⟨3, ![8, 512, 512]⟩
abbrev S_ : Shape := ⟨0, ![]⟩
abbrev S32768x1 : Shape := ⟨2, ![32768, 1]⟩
abbrev S1x512x512 : Shape := ⟨3, ![1, 512, 512]⟩
abbrev S512x512 : Shape := ⟨2, ![512, 512]⟩

abbrev nBuf : Space → Nat
  | .hbm => 101
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S8x512x512, .f32⟩
  | .hbm, ⟨3, _⟩ => ⟨S_, .f32⟩
  | .hbm, ⟨4, _⟩ => ⟨S32768x512, .f32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S32768x1, .i1⟩
  | .hbm, ⟨9, _⟩ => ⟨S1x512x512, .f32⟩
  | .hbm, ⟨10, _⟩ => ⟨S512x512, .f32⟩
  | .hbm, ⟨11, _⟩ => ⟨S32768x512, .f32⟩
  | .hbm, ⟨12, _⟩ => ⟨S_, .f32⟩
  | .hbm, ⟨13, _⟩ => ⟨S32768x512, .i1⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S32768x1, .i1⟩
  | .hbm, ⟨21, _⟩ => ⟨S1x512x512, .f32⟩
  | .hbm, ⟨22, _⟩ => ⟨S512x512, .f32⟩
  | .hbm, ⟨23, _⟩ => ⟨S32768x512, .f32⟩
  | .hbm, ⟨24, _⟩ => ⟨S_, .f32⟩
  | .hbm, ⟨25, _⟩ => ⟨S32768x512, .i1⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S32768x1, .i1⟩
  | .hbm, ⟨33, _⟩ => ⟨S1x512x512, .f32⟩
  | .hbm, ⟨34, _⟩ => ⟨S512x512, .f32⟩
  | .hbm, ⟨35, _⟩ => ⟨S32768x512, .f32⟩
  | .hbm, ⟨36, _⟩ => ⟨S_, .f32⟩
  | .hbm, ⟨37, _⟩ => ⟨S32768x512, .i1⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S32768x1, .i1⟩
  | .hbm, ⟨45, _⟩ => ⟨S1x512x512, .f32⟩
  | .hbm, ⟨46, _⟩ => ⟨S512x512, .f32⟩
  | .hbm, ⟨47, _⟩ => ⟨S32768x512, .f32⟩
  | .hbm, ⟨48, _⟩ => ⟨S_, .f32⟩
  | .hbm, ⟨49, _⟩ => ⟨S32768x512, .i1⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S_, .i32⟩
  | .hbm, ⟨54, _⟩ => ⟨S32768, .i32⟩
  | .hbm, ⟨55, _⟩ => ⟨S32768, .i1⟩
  | .hbm, ⟨56, _⟩ => ⟨S32768x1, .i1⟩
  | .hbm, ⟨57, _⟩ => ⟨S1x512x512, .f32⟩
  | .hbm, ⟨58, _⟩ => ⟨S512x512, .f32⟩
  | .hbm, ⟨59, _⟩ => ⟨S32768x512, .f32⟩
  | .hbm, ⟨60, _⟩ => ⟨S_, .f32⟩
  | .hbm, ⟨61, _⟩ => ⟨S32768x512, .i1⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S32768x1, .i1⟩
  | .hbm, ⟨69, _⟩ => ⟨S1x512x512, .f32⟩
  | .hbm, ⟨70, _⟩ => ⟨S512x512, .f32⟩
  | .hbm, ⟨71, _⟩ => ⟨S32768x512, .f32⟩
  | .hbm, ⟨72, _⟩ => ⟨S_, .f32⟩
  | .hbm, ⟨73, _⟩ => ⟨S32768x512, .i1⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S_, .i32⟩
  | .hbm, ⟨78, _⟩ => ⟨S32768, .i32⟩
  | .hbm, ⟨79, _⟩ => ⟨S32768, .i1⟩
  | .hbm, ⟨80, _⟩ => ⟨S32768x1, .i1⟩
  | .hbm, ⟨81, _⟩ => ⟨S1x512x512, .f32⟩
  | .hbm, ⟨82, _⟩ => ⟨S512x512, .f32⟩
  | .hbm, ⟨83, _⟩ => ⟨S32768x512, .f32⟩
  | .hbm, ⟨84, _⟩ => ⟨S_, .f32⟩
  | .hbm, ⟨85, _⟩ => ⟨S32768x512, .i1⟩
  | .hbm, ⟨86, _⟩ => ⟨S32768x512, .f32⟩
  | .hbm, ⟨87, _⟩ => ⟨S32768x512, .f32⟩
  | .hbm, ⟨88, _⟩ => ⟨S32768x512, .f32⟩
  | .hbm, ⟨89, _⟩ => ⟨S_, .i32⟩
  | .hbm, ⟨90, _⟩ => ⟨S32768, .i32⟩
  | .hbm, ⟨91, _⟩ => ⟨S32768, .i1⟩
  | .hbm, ⟨92, _⟩ => ⟨S32768x1, .i1⟩
  | .hbm, ⟨93, _⟩ => ⟨S1x512x512, .f32⟩
  | .hbm, ⟨94, _⟩ => ⟨S512x512, .f32⟩
  | .hbm, ⟨95, _⟩ => ⟨S32768x512, .f32⟩
  | .hbm, ⟨96, _⟩ => ⟨S_, .f32⟩
  | .hbm, ⟨97, _⟩ => ⟨S32768x512, .i1⟩
  | .hbm, ⟨98, _⟩ => ⟨S32768x512, .f32⟩
  | .hbm, ⟨99, _⟩ => ⟨S32768x512, .f32⟩
  | .hbm, ⟨100, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_call3_v0 : Ref sig .tc := ⟨.hbm, 49, rfl⟩
abbrev main_call3_v1 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_call4_v0 : Ref sig .tc := ⟨.hbm, 61, rfl⟩
abbrev main_call4_v1 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_call5_v0 : Ref sig .tc := ⟨.hbm, 73, rfl⟩
abbrev main_call5_v1 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_call6_v0 : Ref sig .tc := ⟨.hbm, 85, rfl⟩
abbrev main_call6_v1 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_call7_v0 : Ref sig .tc := ⟨.hbm, 97, rfl⟩
abbrev main_call7_v1 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]

class Facts₀ : Prop where
  bcast_S_S32768x512 : S_.BroadcastsInDim S32768x512 (![] : Fin 0 → Fin S32768x512.rank)
  bcast_S_S32768 : S_.BroadcastsInDim S32768 (![] : Fin 0 → Fin S32768.rank)
  bcast_S32768_S32768x1_0 : S32768.BroadcastsInDim S32768x1 (![0] : Fin 1 → Fin S32768x1.rank)
  slices_S8x512x512_S1x512x512_0_0_0 : S8x512x512.Slices ![0, 0, 0] S1x512x512
  shapeCasts_S1x512x512_S512x512 : S1x512x512.ShapeCasts S512x512
  bcast_S32768x1_S32768x512_0_1 : S32768x1.BroadcastsInDim S32768x512 (![0, 1] : Fin 2 → Fin S32768x512.rank)
  slices_S8x512x512_S1x512x512_1_0_0 : S8x512x512.Slices ![1, 0, 0] S1x512x512
  slices_S8x512x512_S1x512x512_2_0_0 : S8x512x512.Slices ![2, 0, 0] S1x512x512
  slices_S8x512x512_S1x512x512_3_0_0 : S8x512x512.Slices ![3, 0, 0] S1x512x512
  slices_S8x512x512_S1x512x512_4_0_0 : S8x512x512.Slices ![4, 0, 0] S1x512x512
  slices_S8x512x512_S1x512x512_5_0_0 : S8x512x512.Slices ![5, 0, 0] S1x512x512
  slices_S8x512x512_S1x512x512_6_0_0 : S8x512x512.Slices ![6, 0, 0] S1x512x512
  slices_S8x512x512_S1x512x512_7_0_0 : S8x512x512.Slices ![7, 0, 0] S1x512x512
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  What both programs compute: the typed linear layer.

  Row r of x carries a label ty r in 0..7, and the result's row r is row r of x times the weight matrix of that
  label:  out[r, o] = Σ_k x[r, k] · W[ty r, k, o].
-/
import Idealize.ShloMosaic.PureOps.Ideal
import Idealize.ShloMosaic.Lib.ValueIdx

noncomputable section

namespace Cert.Spec

open Idealize.ShloMosaic Idealize.ShloMosaic.ValueIdx

/-- The label of row r as an index of the 8 weight matrices (a label is in 0..7 under the precondition; reduced
    modulo 8 so that the index is total). -/
def lab (ty : (⟨1, ![32768]⟩ : Shape).Idx → BitVec 32) (r : Fin 32768) : Fin 8 :=
  ⟨(ty (ix1 r)).toNat % 8, Nat.mod_lt _ (by decide)⟩

/-- The typed linear layer: entry (r, o) is the sum over k of x[r, k] · W[label of r, k, o], on the extended reals. -/
def G (X : (⟨2, ![32768, 512]⟩ : Shape).Idx → EReal) (ty : (⟨1, ![32768]⟩ : Shape).Idx → BitVec 32)
    (W : (⟨3, ![8, 512, 512]⟩ : Shape).Idx → EReal) : (⟨2, ![32768, 512]⟩ : Shape).Idx → EReal :=
  fun i => ∑ k : Fin 512, X (ix2 (⟨(i 0).val, idx2_lt0 i⟩ : Fin 32768) k)
    * W (ix3 (lab ty ⟨(i 0).val, idx2_lt0 i⟩) k (⟨(i 1).val, idx2_lt1 i⟩ : Fin 512))

theorem G_apply (X : (⟨2, ![32768, 512]⟩ : Shape).Idx → EReal) (ty : (⟨1, ![32768]⟩ : Shape).Idx → BitVec 32)
    (W : (⟨3, ![8, 512, 512]⟩ : Shape).Idx → EReal) (r : Fin 32768) (o : Fin 512) :
    G X ty W (ix2 r o) = ∑ k : Fin 512, X (ix2 r k) * W (ix3 (lab ty r) k o) := rfl

/-- The label of tile j of the padded array, read off a table of 40 words (reduced modulo 8, as above). -/
def tileLab (tt : (⟨1, ![40]⟩ : Shape).Idx → BitVec 32) (j : Fin 40) : Fin 8 :=
  ⟨(tt (ix1 j)).toNat % 8, Nat.mod_lt _ (by decide)⟩

/-- The grouped product on the padded array: rows 1024·j … 1024·j + 1023 (tile j) are multiplied by the weight matrix
    of tile j's label:  entry (r, o) is Σ_k P[r, k] · Wb[label of tile r/1024, k, o]. -/
def MM (P : (⟨2, ![40960, 512]⟩ : Shape).Idx → EReal) (Wb : (⟨3, ![8, 512, 512]⟩ : Shape).Idx → EReal)
    (tt : (⟨1, ![40]⟩ : Shape).Idx → BitVec 32) : (⟨2, ![40960, 512]⟩ : Shape).Idx → EReal :=
  fun i => ∑ k : Fin 512, P (ix2 (⟨(i 0).val, idx2_lt0 i⟩ : Fin 40960) k)
    * Wb (ix3 (tileLab tt ⟨(i 0).val / 1024, by have := idx2_lt0 i; omega⟩) k (⟨(i 1).val, idx2_lt1 i⟩ : Fin 512))

theorem MM_apply (P : (⟨2, ![40960, 512]⟩ : Shape).Idx → EReal) (Wb : (⟨3, ![8, 512, 512]⟩ : Shape).Idx → EReal)
    (tt : (⟨1, ![40]⟩ : Shape).Idx → BitVec 32) (r : Fin 40960) (o : Fin 512) :
    MM P Wb tt (ix2 r o) = ∑ k : Fin 512, P (ix2 r k) * Wb (ix3 (tileLab tt ⟨r.val / 1024, by omega⟩) k o) := rfl

end Cert.Spec

end
-- ==== Proof.RefTerms.lean ====
/-
  The reference's eight label terms, each read at an index.

  The reference adds, over the labels t = 0, …, 7, the array whose row r is row r of x times the weight matrix t where
  the label of row r is t, and zero elsewhere. Here each of the eight arrays is read at (r, o): the broadcast comparison
  reads the label of row r, the slice and reshape of W read W[t, k, o], and the product is the sum over k.
-/
import proofs.«123552_j1236950581828_2_alg».proof.Proof.Gen.ReferenceIdeal.Read
import Idealize.ShloMosaic.Lib.Affine

noncomputable section

namespace Cert.RefValue

open Idealize.ShloMosaic Idealize.ShloMosaic.ValueIdx Idealize.SL.Sem
open Cert.ReferenceIdeal Cert.ReferenceIdeal.Gen

/-- A comparison word selects: the selected value is the first when the compared words are equal, the second otherwise. -/
theorem select_cmpi_eq {α : Type} (x y : BitVec 32) (a b : α) :
    Scalar.select (IntOp.cmpi .eq x y) a b = if x = y then a else b := by
  by_cases h : x = y
  · exact (if_pos (IntOp.cmpi_eq.2 h)).trans (if_pos h).symm
  · exact (if_neg (fun hc => h (IntOp.cmpi_eq.1 hc))).trans (if_neg h).symm

/-- The term of label 0, read at (r, o): the row's product with the weight matrix 0 where the row's label is 0, else zero. -/
theorem s0_apply (X : FVec Ideal S32768x512 .f32) (ty : IVec S32768 32) (W : FVec Ideal S8x512x512 .f32)
    (r : Fin 32768) (o : Fin 512) :
    Read.val_main_v7 (F := Ideal) X ty W (ix2 r o)
      = if ty (ix1 r) = 0#32 then ∑ k : Fin 512, X (ix2 r k) * W (ix3 (⟨0, by decide⟩ : Fin 8) k o) else 0 := by
  have e1 : Read.idx_main_v3 (Read.idx_main_call0_v0 (ix2 r o)) = ix1 r :=
    funext fun a => Fin.ext (by match a with | ⟨0, _⟩ => rfl)
  have e2 : ∀ k : Fin 512, Read.lidx_main_v6 (ix2 r o) k = ix2 r k := fun k =>
    funext fun a => Fin.ext (by match a with | ⟨0, _⟩ => rfl | ⟨1, _⟩ => rfl)
  have e3 : ∀ k : Fin 512, Read.idx_main_v4 (Read.idx_main_v5 (Read.ridx_main_v6 (ix2 r o) k)) = ix3 (⟨0, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v7_apply, Read.val_main_call0_v0_apply, Read.val_main_v3_apply, Read.val_main_v2_apply,
    Read.val_main_v1_apply, Read.val_main_c_apply, Read.val_main_v6_apply, Read.val_main_call0_v1_apply,
    Read.val_main_cst_0_apply, e1, select_cmpi_eq, Ideal.ofBits_def, Ideal.ofBits_zero_f32]
  refine if_congr Iff.rfl (Finset.sum_congr rfl fun k _ => ?_) rfl
  rw [Read.val_main_v5_apply, Read.val_main_v4_apply, e2, e3]

/-- The term of label 1, read at (r, o): the row's product with the weight matrix 1 where the row's label is 1, else zero. -/
theorem s1_apply (X : FVec Ideal S32768x512 .f32) (ty : IVec S32768 32) (W : FVec Ideal S8x512x512 .f32)
    (r : Fin 32768) (o : Fin 512) :
    Read.val_main_v15 (F := Ideal) X ty W (ix2 r o)
      = if ty (ix1 r) = 1#32 then ∑ k : Fin 512, X (ix2 r k) * W (ix3 (⟨1, by decide⟩ : Fin 8) k o) else 0 := by
  have e1 : Read.idx_main_v11 (Read.idx_main_call1_v0 (ix2 r o)) = ix1 r :=
    funext fun a => Fin.ext (by match a with | ⟨0, _⟩ => rfl)
  have e2 : ∀ k : Fin 512, Read.lidx_main_v14 (ix2 r o) k = ix2 r k := fun k =>
    funext fun a => Fin.ext (by match a with | ⟨0, _⟩ => rfl | ⟨1, _⟩ => rfl)
  have e3 : ∀ k : Fin 512, Read.idx_main_v12 (Read.idx_main_v13 (Read.ridx_main_v14 (ix2 r o) k)) = ix3 (⟨1, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v15_apply, Read.val_main_call1_v0_apply, Read.val_main_v11_apply, Read.val_main_v10_apply,
    Read.val_main_v9_apply, Read.val_main_c_1_apply, Read.val_main_v14_apply, Read.val_main_call1_v1_apply,
    Read.val_main_cst_2_apply, e1, select_cmpi_eq, Ideal.ofBits_def, Ideal.ofBits_zero_f32]
  refine if_congr Iff.rfl (Finset.sum_congr rfl fun k _ => ?_) rfl
  rw [Read.val_main_v13_apply, Read.val_main_v12_apply, e2, e3]

/-- The term of label 2, read at (r, o): the row's product with the weight matrix 2 where the row's label is 2, else zero. -/
theorem s2_apply (X : FVec Ideal S32768x512 .f32) (ty : IVec S32768 32) (W : FVec Ideal S8x512x512 .f32)
    (r : Fin 32768) (o : Fin 512) :
    Read.val_main_v23 (F := Ideal) X ty W (ix2 r o)
      = if ty (ix1 r) = 2#32 then ∑ k : Fin 512, X (ix2 r k) * W (ix3 (⟨2, by decide⟩ : Fin 8) k o) else 0 := by
  have e1 : Read.idx_main_v19 (Read.idx_main_call2_v0 (ix2 r o)) = ix1 r :=
    funext fun a => Fin.ext (by match a with | ⟨0, _⟩ => rfl)
  have e2 : ∀ k : Fin 512, Read.lidx_main_v22 (ix2 r o) k = ix2 r k := fun k =>
    funext fun a => Fin.ext (by match a with | ⟨0, _⟩ => rfl | ⟨1, _⟩ => rfl)
  have e3 : ∀ k : Fin 512, Read.idx_main_v20 (Read.idx_main_v21 (Read.ridx_main_v22 (ix2 r o) k)) = ix3 (⟨2, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v23_apply, Read.val_main_call2_v0_apply, Read.val_main_v19_apply, Read.val_main_v18_apply,
    Read.val_main_v17_apply, Read.val_main_c_3_apply, Read.val_main_v22_apply, Read.val_main_call2_v1_apply,
    Read.val_main_cst_4_apply, e1, select_cmpi_eq, Ideal.ofBits_def, Ideal.ofBits_zero_f32]
  refine if_congr Iff.rfl (Finset.sum_congr rfl fun k _ => ?_) rfl
  rw [Read.val_main_v21_apply, Read.val_main_v20_apply, e2, e3]

/-- The term of label 3, read at (r, o): the row's product with the weight matrix 3 where the row's label is 3, else zero. -/
theorem s3_apply (X : FVec Ideal S32768x512 .f32) (ty : IVec S32768 32) (W : FVec Ideal S8x512x512 .f32)
    (r : Fin 32768) (o : Fin 512) :
    Read.val_main_v31 (F := Ideal) X ty W (ix2 r o)
      = if ty (ix1 r) = 3#32 then ∑ k : Fin 512, X (ix2 r k) * W (ix3 (⟨3, by decide⟩ : Fin 8) k o) else 0 := by
  have e1 : Read.idx_main_v27 (Read.idx_main_call3_v0 (ix2 r o)) = ix1 r :=
    funext fun a => Fin.ext (by match a with | ⟨0, _⟩ => rfl)
  have e2 : ∀ k : Fin 512, Read.lidx_main_v30 (ix2 r o) k = ix2 r k := fun k =>
    funext fun a => Fin.ext (by match a with | ⟨0, _⟩ => rfl | ⟨1, _⟩ => rfl)
  have e3 : ∀ k : Fin 512, Read.idx_main_v28 (Read.idx_main_v29 (Read.ridx_main_v30 (ix2 r o) k)) = ix3 (⟨3, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v31_apply, Read.val_main_call3_v0_apply, Read.val_main_v27_apply, Read.val_main_v26_apply,
    Read.val_main_v25_apply, Read.val_main_c_5_apply, Read.val_main_v30_apply, Read.val_main_call3_v1_apply,
    Read.val_main_cst_6_apply, e1, select_cmpi_eq, Ideal.ofBits_def, Ideal.ofBits_zero_f32]
  refine if_congr Iff.rfl (Finset.sum_congr rfl fun k _ => ?_) rfl
  rw [Read.val_main_v29_apply, Read.val_main_v28_apply, e2, e3]

/-- The term of label 4, read at (r, o): the row's product with the weight matrix 4 where the row's label is 4, else zero. -/
theorem s4_apply (X : FVec Ideal S32768x512 .f32) (ty : IVec S32768 32) (W : FVec Ideal S8x512x512 .f32)
    (r : Fin 32768) (o : Fin 512) :
    Read.val_main_v39 (F := Ideal) X ty W (ix2 r o)
      = if ty (ix1 r) = 4#32 then ∑ k : Fin 512, X (ix2 r k) * W (ix3 (⟨4, by decide⟩ : Fin 8) k o) else 0 := by
  have e1 : Read.idx_main_v35 (Read.idx_main_call4_v0 (ix2 r o)) = ix1 r :=
    funext fun a => Fin.ext (by match a with | ⟨0, _⟩ => rfl)
  have e2 : ∀ k : Fin 512, Read.lidx_main_v38 (ix2 r o) k = ix2 r k := fun k =>
    funext fun a => Fin.ext (by match a with | ⟨0, _⟩ => rfl | ⟨1, _⟩ => rfl)
  have e3 : ∀ k : Fin 512, Read.idx_main_v36 (Read.idx_main_v37 (Read.ridx_main_v38 (ix2 r o) k)) = ix3 (⟨4, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v39_apply, Read.val_main_call4_v0_apply, Read.val_main_v35_apply, Read.val_main_v34_apply,
    Read.val_main_v33_apply, Read.val_main_c_7_apply, Read.val_main_v38_apply, Read.val_main_call4_v1_apply,
    Read.val_main_cst_8_apply, e1, select_cmpi_eq, Ideal.ofBits_def, Ideal.ofBits_zero_f32]
  refine if_congr Iff.rfl (Finset.sum_congr rfl fun k _ => ?_) rfl
  rw [Read.val_main_v37_apply, Read.val_main_v36_apply, e2, e3]

/-- The term of label 5, read at (r, o): the row's product with the weight matrix 5 where the row's label is 5, else zero. -/
theorem s5_apply (X : FVec Ideal S32768x512 .f32) (ty : IVec S32768 32) (W : FVec Ideal S8x512x512 .f32)
    (r : Fin 32768) (o : Fin 512) :
    Read.val_main_v47 (F := Ideal) X ty W (ix2 r o)
      = if ty (ix1 r) = 5#32 then ∑ k : Fin 512, X (ix2 r k) * W (ix3 (⟨5, by decide⟩ : Fin 8) k o) else 0 := by
  have e1 : Read.idx_main_v43 (Read.idx_main_call5_v0 (ix2 r o)) = ix1 r :=
    funext fun a => Fin.ext (by match a with | ⟨0, _⟩ => rfl)
  have e2 : ∀ k : Fin 512, Read.lidx_main_v46 (ix2 r o) k = ix2 r k := fun k =>
    funext fun a => Fin.ext (by match a with | ⟨0, _⟩ => rfl | ⟨1, _⟩ => rfl)
  have e3 : ∀ k : Fin 512, Read.idx_main_v44 (Read.idx_main_v45 (Read.ridx_main_v46 (ix2 r o) k)) = ix3 (⟨5, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v47_apply, Read.val_main_call5_v0_apply, Read.val_main_v43_apply, Read.val_main_v42_apply,
    Read.val_main_v41_apply, Read.val_main_c_9_apply, Read.val_main_v46_apply, Read.val_main_call5_v1_apply,
    Read.val_main_cst_10_apply, e1, select_cmpi_eq, Ideal.ofBits_def, Ideal.ofBits_zero_f32]
  refine if_congr Iff.rfl (Finset.sum_congr rfl fun k _ => ?_) rfl
  rw [Read.val_main_v45_apply, Read.val_main_v44_apply, e2, e3]

/-- The term of label 6, read at (r, o): the row's product with the weight matrix 6 where the row's label is 6, else zero. -/
theorem s6_apply (X : FVec Ideal S32768x512 .f32) (ty : IVec S32768 32) (W : FVec Ideal S8x512x512 .f32)
    (r : Fin 32768) (o : Fin 512) :
    Read.val_main_v55 (F := Ideal) X ty W (ix2 r o)
      = if ty (ix1 r) = 6#32 then ∑ k : Fin 512, X (ix2 r k) * W (ix3 (⟨6, by decide⟩ : Fin 8) k o) else 0 := by
  have e1 : Read.idx_main_v51 (Read.idx_main_call6_v0 (ix2 r o)) = ix1 r :=
    funext fun a => Fin.ext (by match a with | ⟨0, _⟩ => rfl)
  have e2 : ∀ k : Fin 512, Read.lidx_main_v54 (ix2 r o) k = ix2 r k := fun k =>
    funext fun a => Fin.ext (by match a with | ⟨0, _⟩ => rfl | ⟨1, _⟩ => rfl)
  have e3 : ∀ k : Fin 512, Read.idx_main_v52 (Read.idx_main_v53 (Read.ridx_main_v54 (ix2 r o) k)) = ix3 (⟨6, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v55_apply, Read.val_main_call6_v0_apply, Read.val_main_v51_apply, Read.val_main_v50_apply,
    Read.val_main_v49_apply, Read.val_main_c_11_apply, Read.val_main_v54_apply, Read.val_main_call6_v1_apply,
    Read.val_main_cst_12_apply, e1, select_cmpi_eq, Ideal.ofBits_def, Ideal.ofBits_zero_f32]
  refine if_congr Iff.rfl (Finset.sum_congr rfl fun k _ => ?_) rfl
  rw [Read.val_main_v53_apply, Read.val_main_v52_apply, e2, e3]

/-- The term of label 7, read at (r, o): the row's product with the weight matrix 7 where the row's label is 7, else zero. -/
theorem s7_apply (X : FVec Ideal S32768x512 .f32) (ty : IVec S32768 32) (W : FVec Ideal S8x512x512 .f32)
    (r : Fin 32768) (o : Fin 512) :
    Read.val_main_v63 (F := Ideal) X ty W (ix2 r o)
      = if ty (ix1 r) = 7#32 then ∑ k : Fin 512, X (ix2 r k) * W (ix3 (⟨7, by decide⟩ : Fin 8) k o) else 0 := by
  have e1 : Read.idx_main_v59 (Read.idx_main_call7_v0 (ix2 r o)) = ix1 r :=
    funext fun a => Fin.ext (by match a with | ⟨0, _⟩ => rfl)
  have e2 : ∀ k : Fin 512, Read.lidx_main_v62 (ix2 r o) k = ix2 r k := fun k =>
    funext fun a => Fin.ext (by match a with | ⟨0, _⟩ => rfl | ⟨1, _⟩ => rfl)
  have e3 : ∀ k : Fin 512, Read.idx_main_v60 (Read.idx_main_v61 (Read.ridx_main_v62 (ix2 r o) k)) = ix3 (⟨7, by decide⟩ : Fin 8) k o := fun k =>
    funext fun a => Fin.ext (by
      match a with
      | ⟨0, _⟩ => rfl
      | ⟨1, _⟩ => show (k.val * 512 + o.val) / 512 % 512 = k.val; omega
      | ⟨2, _⟩ => show (k.val * 512 + o.val) % 512 = o.val; omega)
  rw [Read.val_main_v63_apply, Read.val_main_call7_v0_apply, Read.val_main_v59_apply, Read.val_main_v58_apply,
    Read.val_main_v57_apply, Read.val_main_c_13_apply, Read.val_main_v62_apply, Read.val_main_call7_v1_apply,
    Read.val_main_cst_14_apply, e1, select_cmpi_eq, Ideal.ofBits_def, Ideal.ofBits_zero_f32]
  refine if_congr Iff.rfl (Finset.sum_congr rfl fun k _ => ?_) rfl
  rw [Read.val_main_v61_apply, Read.val_main_v60_apply, e2, e3]

end Cert.RefValue

end
-- ==== Proof.RefValue.lean ====
/-
  The reference computes the typed linear layer.

  The reference's result is ((…((0 + s_0) + s_1) + …) + s_7), where s_t at (r, o) is the sum over k of x[r, k] · W[t, k, o]
  if the label of row r is t, and zero otherwise. When the label of row r is a number below 8, exactly one term
  survives, the one of that label; on the extended reals 0 + a = a and a + 0 = a for every a, so the result at (r, o) is
  the sum over k of x[r, k] · W[label of r, k, o]: the specification G.
-/
import proofs.«123552_j1236950581828_2_alg».proof.Defs
import proofs.«123552_j1236950581828_2_alg».proof.Proof.Gen.ReferenceIdeal.Read
import proofs.«123552_j1236950581828_2_alg».proof.Proof.Spec
import proofs.«123552_j1236950581828_2_alg».proof.Proof.RefTerms

noncomputable section

namespace Cert.RefValue

open Idealize.ShloMosaic Idealize.ShloMosaic.ValueIdx Idealize.SL.Sem
open Cert.ReferenceIdeal Cert.ReferenceIdeal.Gen

/-- A word whose value is below 8 is one of the eight words 0, …, 7. -/
theorem word_cases (v : BitVec 32) (hv : v.toNat < 8) :
    v = 0#32 ∨ v = 1#32 ∨ v = 2#32 ∨ v = 3#32 ∨ v = 4#32 ∨ v = 5#32 ∨ v = 6#32 ∨ v = 7#32 := by
  have hw : ∀ n : Nat, v.toNat = n → n < 8 → v = BitVec.ofNat 32 n := fun n hn hlt =>
    BitVec.eq_of_toNat_eq (by rw [BitVec.toNat_ofNat, hn]; omega)
  have h8 : v.toNat = 0 ∨ v.toNat = 1 ∨ v.toNat = 2 ∨ v.toNat = 3 ∨ v.toNat = 4 ∨ v.toNat = 5 ∨ v.toNat = 6 ∨ v.toNat = 7 := by
    omega
  rcases h8 with h | h | h | h | h | h | h | h
  · exact Or.inl (hw 0 h (by decide))
  · exact Or.inr (Or.inl (hw 1 h (by decide)))
  · exact Or.inr (Or.inr (Or.inl (hw 2 h (by decide))))
  · exact Or.inr (Or.inr (Or.inr (Or.inl (hw 3 h (by decide)))))
  · exact Or.inr (Or.inr (Or.inr (Or.inr (Or.inl (hw 4 h (by decide))))))
  · exact Or.inr (Or.inr (Or.inr (Or.inr (Or.inr (Or.inl (hw 5 h (by decide)))))))
  · exact Or.inr (Or.inr (Or.inr (Or.inr (Or.inr (Or.inr (Or.inl (hw 6 h (by decide))))))))
  · exact Or.inr (Or.inr (Or.inr (Or.inr (Or.inr (Or.inr (Or.inr (hw 7 h (by decide))))))))

/-- Of eight terms, each present only where the word is its label, the sum from zero is the term of the word's label. -/
theorem sum8 (v : BitVec 32) (hv : v.toNat < 8) (S : Fin 8 → EReal) :
    0 + (if v = 0#32 then S ⟨0, by decide⟩ else 0)
      + (if v = 1#32 then S ⟨1, by decide⟩ else 0)
      + (if v = 2#32 then S ⟨2, by decide⟩ else 0)
      + (if v = 3#32 then S ⟨3, by decide⟩ else 0)
      + (if v = 4#32 then S ⟨4, by decide⟩ else 0)
      + (if v = 5#32 then S ⟨5, by decide⟩ else 0)
      + (if v = 6#32 then S ⟨6, by decide⟩ else 0)
      + (if v = 7#32 then S ⟨7, by decide⟩ else 0)
      = S ⟨v.toNat, hv⟩ := by
  rcases word_cases v hv with rfl | rfl | rfl | rfl | rfl | rfl | rfl | rfl
  · rw [if_pos (rfl : (0#32 : BitVec 32) = 0#32),
      if_neg (show ¬((0#32 : BitVec 32) = 1#32) by decide),
      if_neg (show ¬((0#32 : BitVec 32) = 2#32) by decide),
      if_neg (show ¬((0#32 : BitVec 32) = 3#32) by decide),
      if_neg (show ¬((0#32 : BitVec 32) = 4#32) by decide),
      if_neg (show ¬((0#32 : BitVec 32) = 5#32) by decide),
      if_neg (show ¬((0#32 : BitVec 32) = 6#32) by decide),
      if_neg (show ¬((0#32 : BitVec 32) = 7#32) by decide)]
    simp only [zero_add, add_zero]
    rfl
  · rw [if_neg (show ¬((1#32 : BitVec 32) = 0#32) by decide),
      if_pos (rfl : (1#32 : BitVec 32) = 1#32),
      if_neg (show ¬((1#32 : BitVec 32) = 2#32) by decide),
      if_neg (show ¬((1#32 : BitVec 32) = 3#32) by decide),
      if_neg (show ¬((1#32 : BitVec 32) = 4#32) by decide),
      if_neg (show ¬((1#32 : BitVec 32) = 5#32) by decide),
      if_neg (show ¬((1#32 : BitVec 32) = 6#32) by decide),
      if_neg (show ¬((1#32 : BitVec 32) = 7#32) by decide)]
    simp only [zero_add, add_zero]
    rfl
  · rw [if_neg (show ¬((2#32 : BitVec 32) = 0#32) by decide),
      if_neg (show ¬((2#32 : BitVec 32) = 1#32) by decide),
      if_pos (rfl : (2#32 : BitVec 32) = 2#32),
      if_neg (show ¬((2#32 : BitVec 32) = 3#32) by decide),
      if_neg (show ¬((2#32 : BitVec 32) = 4#32) by decide),
      if_neg (show ¬((2#32 : BitVec 32) = 5#32) by decide),
      if_neg (show ¬((2#32 : BitVec 32) = 6#32) by decide),
      if_neg (show ¬((2#32 : BitVec 32) = 7#32) by decide)]
    simp only [zero_add, add_zero]
    rfl
  · rw [if_neg (show ¬((3#32 : BitVec 32) = 0#32) by decide),
      if_neg (show ¬((3#32 : BitVec 32) = 1#32) by decide),
      if_neg (show ¬((3#32 : BitVec 32) = 2#32) by decide),
      if_pos (rfl : (3#32 : BitVec 32) = 3#32),
      if_neg (show ¬((3#32 : BitVec 32) = 4#32) by decide),
      if_neg (show ¬((3#32 : BitVec 32) = 5#32) by decide),
      if_neg (show ¬((3#32 : BitVec 32) = 6#32) by decide),
      if_neg (show ¬((3#32 : BitVec 32) = 7#32) by decide)]
    simp only [zero_add, add_zero]
    rfl
  · rw [if_neg (show ¬((4#32 : BitVec 32) = 0#32) by decide),
      if_neg (show ¬((4#32 : BitVec 32) = 1#32) by decide),
      if_neg (show ¬((4#32 : BitVec 32) = 2#32) by decide),
      if_neg (show ¬((4#32 : BitVec 32) = 3#32) by decide),
      if_pos (rfl : (4#32 : BitVec 32) = 4#32),
      if_neg (show ¬((4#32 : BitVec 32) = 5#32) by decide),
      if_neg (show ¬((4#32 : BitVec 32) = 6#32) by decide),
      if_neg (show ¬((4#32 : BitVec 32) = 7#32) by decide)]
    simp only [zero_add, add_zero]
    rfl
  · rw [if_neg (show ¬((5#32 : BitVec 32) = 0#32) by decide),
      if_neg (show ¬((5#32 : BitVec 32) = 1#32) by decide),
      if_neg (show ¬((5#32 : BitVec 32) = 2#32) by decide),
      if_neg (show ¬((5#32 : BitVec 32) = 3#32) by decide),
      if_neg (show ¬((5#32 : BitVec 32) = 4#32) by decide),
      if_pos (rfl : (5#32 : BitVec 32) = 5#32),
      if_neg (show ¬((5#32 : BitVec 32) = 6#32) by decide),
      if_neg (show ¬((5#32 : BitVec 32) = 7#32) by decide)]
    simp only [zero_add, add_zero]
    rfl
  · rw [if_neg (show ¬((6#32 : BitVec 32) = 0#32) by decide),
      if_neg (show ¬((6#32 : BitVec 32) = 1#32) by decide),
      if_neg (show ¬((6#32 : BitVec 32) = 2#32) by decide),
      if_neg (show ¬((6#32 : BitVec 32) = 3#32) by decide),
      if_neg (show ¬((6#32 : BitVec 32) = 4#32) by decide),
      if_neg (show ¬((6#32 : BitVec 32) = 5#32) by decide),
      if_pos (rfl : (6#32 : BitVec 32) = 6#32),
      if_neg (show ¬((6#32 : BitVec 32) = 7#32) by decide)]
    simp only [zero_add, add_zero]
    rfl
  · rw [if_neg (show ¬((7#32 : BitVec 32) = 0#32) by decide),
      if_neg (show ¬((7#32 : BitVec 32) = 1#32) by decide),
      if_neg (show ¬((7#32 : BitVec 32) = 2#32) by decide),
      if_neg (show ¬((7#32 : BitVec 32) = 3#32) by decide),
      if_neg (show ¬((7#32 : BitVec 32) = 4#32) by decide),
      if_neg (show ¬((7#32 : BitVec 32) = 5#32) by decide),
      if_neg (show ¬((7#32 : BitVec 32) = 6#32) by decide),
      if_pos (rfl : (7#32 : BitVec 32) = 7#32)]
    simp only [zero_add, add_zero]
    rfl

/-- The reference's result, as a function of the arguments, is the specification when every label is below 8. -/
theorem ref_value (X : FVec Ideal S32768x512 .f32) (ty : IVec S32768 32) (W : FVec Ideal S8x512x512 .f32)
    (h : ∀ r : Fin 32768, (ty (ix1 r)).toNat < 8) :
    Read.val_main_v64 (F := Ideal) X ty W = Cert.Spec.G X ty W := by
  funext i
  obtain ⟨r, o, rfl⟩ : ∃ (r : Fin 32768) (o : Fin 512), i = ix2 r o := ⟨i 0, i 1, eq_ix2 i⟩
  have hlab : Cert.Spec.lab ty r = ⟨(ty (ix1 r)).toNat, h r⟩ := Fin.ext (Nat.mod_eq_of_lt (h r))
  rw [Read.val_main_v64_apply, Read.val_main_v56_apply, Read.val_main_v48_apply, Read.val_main_v40_apply,
    Read.val_main_v32_apply, Read.val_main_v24_apply, Read.val_main_v16_apply, Read.val_main_v8_apply,
    Read.val_main_v0_apply, Read.val_main_cst_apply, Ideal.ofBits_def, Ideal.ofBits_zero_f32,
    s0_apply, s1_apply, s2_apply, s3_apply, s4_apply, s5_apply, s6_apply, s7_apply, Cert.Spec.G_apply, hlab]
  exact sum8 (ty (ix1 r)) (h r) (fun t => ∑ k : Fin 512, X (ix2 r k) * W (ix3 t k o))

/-- Every weakly fair execution of the reference, from a memory whose labels are all below 8, ends with the result
    array at the specification of the arguments and the arguments unchanged. -/
theorem ref_run [Cert.ReferenceIdeal.Facts]
    (m' : (ℓ : Loc Cert.ReferenceIdeal.nD Cert.ReferenceIdeal.τ Cert.ReferenceIdeal.sig) → Buf (Elt Ideal) ℓ) (ρ' : Dev Cert.ReferenceIdeal.nD → PrngReg)
    (hty : ∀ (c : Dev Cert.ReferenceIdeal.nD) (r : Fin 32768),
      ((m' ((c.tc : Thread Cert.ReferenceIdeal.nD Cert.ReferenceIdeal.τ).loc Cert.ReferenceIdeal.main_arg1) : IVec Cert.ReferenceIdeal.S32768 32) (ix1 r)).toNat < 8) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v64)
        = Cert.Spec.G (m' ((c.tc : Thread _ _).loc Cert.ReferenceIdeal.main_arg0)) (m' ((c.tc : Thread _ _).loc Cert.ReferenceIdeal.main_arg1)) (m' ((c.tc : Thread _ _).loc Cert.ReferenceIdeal.main_arg2))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)
      ∧ r.2.mem ((c.tc : Thread _ _).loc Cert.ReferenceIdeal.main_arg2) = m' ((c.tc : Thread _ _).loc Cert.ReferenceIdeal.main_arg2)) :=
  (θ_run Cert.ReferenceIdeal.defs _ _).mono
    (fun _ h c => ⟨((h c).1.trans (Read.val_main_v64_eq m' c)).trans (ref_value _ _ _ (hty c)), (h c).2⟩)
    (Cert.ReferenceIdeal.Value.run (F := Ideal) m' ρ')

/-- The reference runs and leaves its arguments unchanged. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

end Cert.RefValue

end
-- ==== Proof.Chain.lean ====
/-
  The routing arithmetic of the grouped matrix product, as pure functions of the label vector.

  Every row i of x carries a label ty i in 0..7 (the "type" whose weight matrix multiplies it).  The rows are
  regrouped by label with a counting sort: cum[i,t] counts the rows j ≤ i with label t, counts[t] is the
  whole count, every group is padded up to a multiple of 1024 rows (pcount), pstart[t] is where group t starts
  in the padded array, and row i goes to  dest i = pstart[ty i] + (cum[i, ty i] − 1).  Tile j of the padded
  array (1024 rows) belongs to the group  tileType j = #{t | pstart[t]/1024 ≤ j} − 1.
  The functions below are those of the host program, operation by operation, so that the buffers' contents
  when the region is entered are these functions of the label argument.
-/
import proofs.«123552_j1236950581828_2_alg».proof.KernelIdeal

noncomputable section

namespace Cert.KernelIdeal.Chain

open Idealize.ShloMosaic Cert.KernelIdeal

variable [Facts]
open Facts₀ Facts

/-- A label vector as a column, then along 8 columns: entry [i,t] is ty i. -/
def tyCols (ty : IVec S32768 32) : IVec S32768x8 32 :=
  broadcastInDim S32768x8 ![0, 1] bcast_S32768x1_S32768x8_0_1 (broadcastInDim S32768x1 ![0] bcast_S32768_S32768x1_0 ty)

/-- Entry [i,t] is t. -/
def iotaCols : IVec S32768x8 32 :=
  broadcastInDim S32768x8 ![0, 1] bcast_S1x8_S32768x8_0_1 (broadcastInDim S1x8 ![1] bcast_S8_S1x8_1 (iotaInDim S8 32 0))

/-- Entry [i,t] is 1 when ty i = t and 0 otherwise. -/
def onehot (ty : IVec S32768 32) : IVec S32768x8 32 :=
  extui 32 (cmpi .eq (tyCols ty) iotaCols) natLt_1_32

/-- Entry [i,t] is the number of rows j ≤ i with ty j = t (a running sum down the rows). -/
def cum (ty : IVec S32768 32) : IVec S32768x8 32 :=
  Host.reduceWindow IntOp.addi ![32768, 1] ![1, 1] ![32767, 0] ![0, 0] (onehot ty)
    (broadcastInDim S_ ![] bcast_S_S_ (constantI S_ 32 0#32))
    reduceWindows_S32768x8_S32768x8_w32768s1p32767_0_w1s1p0_0 h_S_

/-- Entry t is the number of rows with label t: the last row of cum. -/
def counts (ty : IVec S32768 32) : IVec S8 32 :=
  shapeCast S8 (extractStridedSlice S1x8 ![32767, 0] (cum ty) slices_S32768x8_S1x8_32767_0) shapeCasts_S1x8_S8

/-- The constant v along the 32768 rows, and along the 8 labels. -/
def splatN (v : BitVec 32) : IVec S32768 32 := broadcastInDim S32768 ![] bcast_S_S32768 (constantI S_ 32 v)
def splat8 (v : BitVec 32) : IVec S8 32 := broadcastInDim S8 ![] bcast_S_S8 (constantI S_ 32 v)

/-- The labels as a column, a negative label counted from the end (+8). -/
def normCol (ty : IVec S32768 32) : IVec S32768x1 32 :=
  select (cmpi .slt (broadcastInDim S32768x1 ![0] bcast_S32768_S32768x1_0 ty)
      (broadcastInDim S32768x1 ![] bcast_S_S32768x1 (constantI S_ 32 0#32)))
    (addi (broadcastInDim S32768x1 ![0] bcast_S32768_S32768x1_0 ty)
      (broadcastInDim S32768x1 ![] bcast_S_S32768x1 (constantI S_ 32 8#32)))
    (broadcastInDim S32768x1 ![0] bcast_S32768_S32768x1_0 ty)

/-- The column index each row takes from cum. -/
def takeIdx (ty : IVec S32768 32) : IVec S32768x1x1 32 :=
  shapeCast S32768x1x1 (normCol ty) shapeCasts_S32768x1_S32768x1x1

/-- Whether that column index lies in 0..7. -/
def takeInb (ty : IVec S32768 32) : IVec S32768x1 1 :=
  Host.reduce IntOp.andi
    (andi (cmpi .sge (takeIdx ty) (broadcastInDim S32768x1x1 ![] bcast_S_S32768x1x1 (constantI S_ 32 0#32)))
      (cmpi .sle (takeIdx ty) (broadcastInDim S32768x1x1 ![0, 1, 2] bcast_S1x1x1_S32768x1x1_0_1_2
        (broadcastInDim S1x1x1 ![2] bcast_S1_S1x1x1_2 (constantI S1 32 7#32)))))
    (constantI S_ 1 1#1) reducesTo_S32768x1x1_S32768x1_d2 h_S_

/-- cum[i, ty i] as a column (the smallest integer where the index is out of range). -/
def taken (ty : IVec S32768 32) : IVec S32768x1 32 :=
  select (takeInb ty) (Host.gather gather_S32768x8_S32768x1x1_S32768x1_n_1_0_0_1_2_11 (cum ty) (takeIdx ty))
    (broadcastInDim S32768x1 ![] bcast_S_S32768x1 (constantI S_ 32 2147483648#32))

/-- Entry i is cum[i, ty i] − 1: the position of row i among the rows of its label. -/
def rank (ty : IVec S32768 32) : IVec S32768 32 :=
  subi (shapeCast S32768 (taken ty) shapeCasts_S32768x1_S32768) (splatN 1#32)

/-- Floor division by 1024 of each of 8 integers, as the host computes it: the truncated quotient, less one when
    the signs of dividend and divisor differ and the remainder is not zero. -/
def floorDiv1024 (x : IVec S8 32) : IVec S8 32 :=
  select (andi (cmpi .ne (signi x) (broadcastInDim S8 ![] bcast_S_S8 (signi (constantI S_ 32 1024#32))))
      (cmpi .ne (Host.remsi x (splat8 1024#32)) (splat8 0#32)))
    (subi (Host.divsi x (splat8 1024#32)) (splat8 1#32)) (Host.divsi x (splat8 1024#32))

/-- Entry t is counts[t] rounded up to a multiple of 1024. -/
def pcount (ty : IVec S32768 32) : IVec S8 32 :=
  muli (floorDiv1024 (subi (addi (counts ty) (splat8 1024#32)) (splat8 1#32))) (splat8 1024#32)

/-- Running sums of pcount. -/
def pcum (ty : IVec S32768 32) : IVec S8 32 :=
  Host.reduceWindow IntOp.addi ![8] ![1] ![7] ![0] (pcount ty)
    (broadcastInDim S_ ![] bcast_S_S_ (constantI S_ 32 0#32)) reduceWindows_S8_S8_w8s1p7_0 h_S_

/-- Entry t is the sum of pcount over the labels below t: where group t starts in the padded array. -/
def pstart (ty : IVec S32768 32) : IVec S8 32 :=
  concatenate S8 0 [⟨S1, broadcastInDim S1 ![] bcast_S_S1 (constantI S_ 32 0#32)⟩,
    ⟨S7, extractStridedSlice S7 ![0] (pcum ty) slices_S8_S7_0⟩] concatenates_S1_S7_S8_d0

/-- The labels, a negative label counted from the end (+8). -/
def normTy (ty : IVec S32768 32) : IVec S32768 32 :=
  select (cmpi .slt ty (splatN 0#32)) (addi ty (splatN 8#32)) ty

/-- Entry i is pstart[ty i] + rank i: the row of the padded array that row i goes to. -/
def dest (ty : IVec S32768 32) : IVec S32768 32 :=
  addi (Host.gather gather_S8_S32768x1_S32768_n_0_n_n_0_1_1 (pstart ty)
    (broadcastInDim S32768x1 ![0] bcast_S32768_S32768x1_0 (normTy ty))) (rank ty)

/-- Entry t is pstart[t] / 1024: the first tile of group t. -/
def ctiles (ty : IVec S32768 32) : IVec S8 32 := floorDiv1024 (pstart ty)

/-- Entry j is the number of labels t with ctiles[t] ≤ j, less one: the label whose group tile j lies in. -/
def tileType (ty : IVec S32768 32) : IVec S40 32 :=
  subi (Host.reduce IntOp.addi
      (extui 32 (cmpi .sge
        (broadcastInDim S40x8 ![0, 1] bcast_S40x1_S40x8_0_1 (broadcastInDim S40x1 ![0] bcast_S40_S40x1_0 (iotaInDim S40 32 0)))
        (broadcastInDim S40x8 ![0, 1] bcast_S1x8_S40x8_0_1 (broadcastInDim S1x8 ![1] bcast_S8_S1x8_1 (ctiles ty)))) natLt_1_32)
      (constantI S_ 32 0#32) reducesTo_S40x8_S40_d1 h_S_)
    (broadcastInDim S40 ![] bcast_S_S40 (constantI S_ 32 1#32))

/-- dest as a column of row indices into the padded array, a negative one counted from the end (+40960). -/
def destIdx (ty : IVec S32768 32) : IVec S32768x1 32 :=
  broadcastInDim S32768x1 ![0] bcast_S32768_S32768x1_0
    (select (cmpi .slt (dest ty) (splatN 0#32)) (addi (dest ty) (splatN 40960#32)) (dest ty))

variable {F : FTy → Type} [FloatOps F]

/-- The padded array of rows: zero, with row i of x (narrowed) written at row dest i. -/
def paddedX (X : FVec F S32768x512 .f32) (ty : IVec S32768 32) : FVec F S40960x512 .bf16 :=
  Host.scatter scatter_S40960x512_S32768x1_S32768x512_1_0_0_1 (fun _ b => b)
    (broadcastInDim S40960x512 ![] bcast_S_S40960x512 (constant S_ .bf16 0x0000#16)) (destIdx ty)
    (truncf .bf16 X bitsLt_bf16_f32)

/-- The weights, narrowed. -/
def Wb (W : FVec F S8x512x512 .f32) : FVec F S8x512x512 .bf16 := truncf .bf16 W bitsLt_bf16_f32

end Cert.KernelIdeal.Chain

end
-- ==== Proof.Model.lean ====
/-
  The counting sort that groups the rows by label, on the natural numbers.

  f r is the label of row r.  cnt t i counts the rows j ≤ i with label t; count t is the whole count; every group
  is padded up to a multiple of 1024 rows (pc); group t starts at ps t, the padded sizes of the groups below it;
  row r goes to  dst r = ps (f r) + cnt (f r) r − 1;  and tile j (1024 rows) lies in the group
  ttype j = #{t | ps t / 1024 ≤ j} − 1.
-/
import Mathlib

namespace Cert.Model

variable (f : Fin 32768 → Fin 8)

/-- The number of rows j ≤ i with label t. -/
def cnt (t : Fin 8) (i : Fin 32768) : ℕ := (Finset.univ.filter fun j : Fin 32768 => j ≤ i ∧ f j = t).card

/-- The number of rows with label t. -/
def count (t : Fin 8) : ℕ := (Finset.univ.filter fun j : Fin 32768 => f j = t).card

/-- count t rounded up to a multiple of 1024. -/
def pc (t : Fin 8) : ℕ := (count f t + 1023) / 1024 * 1024

/-- Where group t starts in the padded array: the padded sizes of the groups below t. -/
def ps (t : Fin 8) : ℕ := ∑ s ∈ Finset.univ.filter (fun s : Fin 8 => s < t), pc f s

/-- The padded row that row r goes to. -/
def dst (r : Fin 32768) : ℕ := ps f (f r) + cnt f (f r) r - 1

/-- The group that tile j lies in. -/
def ttype (j : Fin 40) : ℕ := (Finset.univ.filter fun t : Fin 8 => ps f t / 1024 ≤ j.val).card - 1

end Cert.Model
-- ==== Proof.ModelFacts1.lean ====
/-
  Counting facts: the running count of a label along the rows, and the total counts.
-/
import Mathlib
import proofs.«123552_j1236950581828_2_alg».proof.Proof.Model

namespace Cert.Model

variable (f : Fin 32768 → Fin 8)

/-- Row r itself is counted in the running count of its own label. -/
theorem cnt_pos (r : Fin 32768) : 1 ≤ cnt f (f r) r := by
  unfold cnt
  rw [Nat.succ_le_iff, Finset.card_pos]
  exact ⟨r, Finset.mem_filter.mpr ⟨Finset.mem_univ _, le_refl _, rfl⟩⟩

/-- A running count never exceeds the total count. -/
theorem cnt_le_count (t : Fin 8) (i : Fin 32768) : cnt f t i ≤ count f t := by
  unfold cnt count
  apply Finset.card_le_card
  intro j hj
  simp only [Finset.mem_filter, Finset.mem_univ, true_and] at hj ⊢
  exact hj.2

/-- At the last row the running count is the total count. -/
theorem cnt_last (t : Fin 8) : cnt f t ⟨32767, by omega⟩ = count f t := by
  unfold cnt count
  apply congrArg Finset.card
  apply Finset.filter_congr
  intro j _
  constructor
  · exact fun h => h.2
  · intro h
    refine ⟨?_, h⟩
    rw [Fin.le_def]
    have := j.isLt
    show j.val ≤ 32767
    omega

theorem count_le (t : Fin 8) : count f t ≤ 32768 := by
  unfold count
  calc _ ≤ (Finset.univ : Finset (Fin 32768)).card := Finset.card_le_card (Finset.filter_subset _ _)
    _ = 32768 := by rw [Finset.card_univ, Fintype.card_fin]

/-- Every row has exactly one label, so the counts add up to the number of rows. -/
theorem sum_count : ∑ t : Fin 8, count f t = 32768 := by
  unfold count
  have h := Finset.card_eq_sum_card_fiberwise (f := f) (s := (Finset.univ : Finset (Fin 32768)))
    (t := (Finset.univ : Finset (Fin 8))) (fun x _ => Finset.mem_univ _)
  rw [Finset.card_univ, Fintype.card_fin] at h
  exact h.symm

/-- The running count of label t increases strictly from a row to any later row of label t. -/
theorem cnt_lt_cnt {r r' : Fin 32768} (h : r < r') (t : Fin 8) (hr' : f r' = t) :
    cnt f t r < cnt f t r' := by
  unfold cnt
  apply Finset.card_lt_card
  rw [Finset.ssubset_iff_of_subset]
  · refine ⟨r', Finset.mem_filter.mpr ⟨Finset.mem_univ _, le_refl _, hr'⟩, ?_⟩
    intro hmem
    have := (Finset.mem_filter.mp hmem).2.1
    exact absurd h (not_lt.mpr this)
  · intro j hj
    simp only [Finset.mem_filter, Finset.mem_univ, true_and] at hj ⊢
    exact ⟨le_trans hj.1 (le_of_lt h), hj.2⟩

end Cert.Model
-- ==== Proof.ModelFacts2.lean ====
/-
  Padded sizes and group starts: divisibility by 1024 and monotonicity of the starts.
-/
import Mathlib
import proofs.«123552_j1236950581828_2_alg».proof.Proof.Model
import proofs.«123552_j1236950581828_2_alg».proof.Proof.ModelFacts1

namespace Cert.Model

variable (f : Fin 32768 → Fin 8)

theorem count_le_pc (t : Fin 8) : count f t ≤ pc f t := by
  unfold pc
  omega

theorem pc_le (t : Fin 8) : pc f t ≤ count f t + 1023 := by
  unfold pc
  omega

theorem pc_dvd (t : Fin 8) : 1024 ∣ pc f t := by
  unfold pc
  exact Dvd.intro_left _ rfl

theorem ps_zero : ps f 0 = 0 := by
  unfold ps
  apply Finset.sum_eq_zero
  intro s hs
  have h := (Finset.mem_filter.mp hs).2
  rw [Fin.lt_def] at h
  exact absurd h (Nat.not_lt_zero _)

theorem ps_succ (t : Fin 8) (h : t.val + 1 < 8) : ps f ⟨t.val + 1, h⟩ = ps f t + pc f t := by
  unfold ps
  have hset : (Finset.univ.filter fun s : Fin 8 => s < ⟨t.val + 1, h⟩)
      = insert t (Finset.univ.filter fun s : Fin 8 => s < t) := by
    ext s
    simp only [Finset.mem_filter, Finset.mem_univ, true_and, Finset.mem_insert, Fin.lt_def,
      Fin.ext_iff]
    omega
  have hnot : t ∉ Finset.univ.filter fun s : Fin 8 => s < t := by
    intro hmem
    exact lt_irrefl _ (Finset.mem_filter.mp hmem).2
  rw [hset, Finset.sum_insert hnot, add_comm]

theorem ps_dvd (t : Fin 8) : 1024 ∣ ps f t := by
  unfold ps
  exact Finset.dvd_sum (fun s _ => pc_dvd f s)

/-- The start of a group plus its padded size is the sum of the padded sizes up to and including it. -/
theorem ps_add_pc (t : Fin 8) :
    ps f t + pc f t = ∑ s ∈ Finset.univ.filter (fun s : Fin 8 => s ≤ t), pc f s := by
  unfold ps
  have hset : (Finset.univ.filter fun s : Fin 8 => s ≤ t)
      = insert t (Finset.univ.filter fun s : Fin 8 => s < t) := by
    ext s
    simp only [Finset.mem_filter, Finset.mem_univ, true_and, Finset.mem_insert, Fin.lt_def,
      Fin.le_def, Fin.ext_iff]
    omega
  have hnot : t ∉ Finset.univ.filter fun s : Fin 8 => s < t := by
    intro hmem
    exact lt_irrefl _ (Finset.mem_filter.mp hmem).2
  rw [hset, Finset.sum_insert hnot, add_comm]

/-- The starts are monotone in the label. -/
theorem ps_mono {t t' : Fin 8} (h : t ≤ t') : ps f t ≤ ps f t' := by
  unfold ps
  apply Finset.sum_le_sum_of_subset
  intro s hs
  simp only [Finset.mem_filter, Finset.mem_univ, true_and] at hs ⊢
  exact lt_of_lt_of_le hs h

/-- A whole padded group lies below the start of every later group. -/
theorem ps_add_pc_le {t t' : Fin 8} (h : t < t') : ps f t + pc f t ≤ ps f t' := by
  rw [ps_add_pc]
  unfold ps
  apply Finset.sum_le_sum_of_subset
  intro s hs
  simp only [Finset.mem_filter, Finset.mem_univ, true_and] at hs ⊢
  exact lt_of_le_of_lt hs h

/-- All padded groups together take at most 32768 + 8 * 1023 places. -/
theorem sum_pc_le : ∑ s : Fin 8, pc f s ≤ 40952 := by
  calc ∑ s : Fin 8, pc f s ≤ ∑ s : Fin 8, (count f s + 1023) :=
        Finset.sum_le_sum (fun s _ => pc_le f s)
    _ = 40952 := by
        rw [Finset.sum_add_distrib, sum_count, Finset.sum_const, Finset.card_univ, Fintype.card_fin]
        rfl

theorem ps_add_pc_le_total (t : Fin 8) : ps f t + pc f t ≤ 40952 := by
  rw [ps_add_pc]
  calc _ ≤ ∑ s : Fin 8, pc f s :=
        Finset.sum_le_sum_of_subset (Finset.filter_subset _ _)
    _ ≤ 40952 := sum_pc_le f

end Cert.Model
-- ==== Proof.ModelFacts3.lean ====
/-
  The destination map of the counting sort: it stays inside the padded array, it is injective, and the tile that
  holds the destination of a row lies in the group of that row's label.
-/
import Mathlib
import proofs.«123552_j1236950581828_2_alg».proof.Proof.Model
import proofs.«123552_j1236950581828_2_alg».proof.Proof.ModelFacts1
import proofs.«123552_j1236950581828_2_alg».proof.Proof.ModelFacts2

namespace Cert.Model

variable (f : Fin 32768 → Fin 8)

/-- The destination of a row is at or after the start of its group. -/
theorem ps_le_dst (r : Fin 32768) : ps f (f r) ≤ dst f r := by
  have h1 := cnt_pos f r
  unfold dst
  omega

/-- The destination of a row is inside the padded group of its label. -/
theorem dst_lt_ps_add_pc (r : Fin 32768) : dst f r < ps f (f r) + pc f (f r) := by
  have h1 := cnt_pos f r
  have h2 := cnt_le_count f (f r) r
  have h3 := count_le_pc f (f r)
  unfold dst
  omega

theorem dst_lt (r : Fin 32768) : dst f r < 40960 := by
  have h1 := dst_lt_ps_add_pc f r
  have h2 := ps_add_pc_le_total f (f r)
  omega

/-- Rows of different labels go to disjoint intervals. -/
theorem dst_lt_of_label_lt {r r' : Fin 32768} (h : f r < f r') : dst f r < dst f r' := by
  have h1 := dst_lt_ps_add_pc f r
  have h2 := ps_add_pc_le f h
  have h3 := ps_le_dst f r'
  omega

theorem dst_inj {r r' : Fin 32768} (h : dst f r = dst f r') : r = r' := by
  rcases lt_trichotomy (f r) (f r') with hlt | heq | hgt
  · have := dst_lt_of_label_lt f hlt
    omega
  · -- same label: equal destinations give equal running counts, hence equal rows
    have h1 := cnt_pos f r
    have h2 := cnt_pos f r'
    have hc : cnt f (f r) r = cnt f (f r) r' := by
      unfold dst at h
      rw [← heq] at h h2
      omega
    rcases lt_trichotomy r r' with hr | hr | hr
    · have := cnt_lt_cnt f hr (f r) heq.symm
      omega
    · exact hr
    · have := cnt_lt_cnt f hr (f r) rfl
      omega
  · have := dst_lt_of_label_lt f hgt
    omega

/-- The starts of the groups that begin at or before tile j are exactly those of the labels up to t,
    when tile j holds a place of the padded group t that is occupied by a row. -/
theorem ttype_dst (r : Fin 32768) :
    ttype f ⟨dst f r / 1024, by have := dst_lt f r; omega⟩ = (f r).val := by
  unfold ttype
  have hset : (Finset.univ.filter fun t : Fin 8 => ps f t / 1024 ≤ dst f r / 1024)
      = Finset.Iic (f r) := by
    ext s
    simp only [Finset.mem_filter, Finset.mem_univ, true_and, Finset.mem_Iic]
    constructor
    · intro hs
      by_contra hns
      have hlt : f r < s := not_le.mp hns
      have h1 := dst_lt_ps_add_pc f r
      have h2 := ps_add_pc_le f hlt
      obtain ⟨k, hk⟩ := ps_dvd f s
      rw [hk] at hs h2
      omega
    · intro hs
      have h1 := ps_mono f hs
      have h2 := ps_le_dst f r
      exact Nat.div_le_div_right (le_trans h1 h2)
  show (Finset.univ.filter fun t : Fin 8 => ps f t / 1024 ≤ dst f r / 1024).card - 1 = (f r).val
  rw [hset, Fin.card_Iic]
  omega

theorem ttype_lt (j : Fin 40) : ttype f j < 8 := by
  unfold ttype
  have h1 : (Finset.univ.filter fun t : Fin 8 => ps f t / 1024 ≤ j.val).card ≤ 8 := by
    calc _ ≤ (Finset.univ : Finset (Fin 8)).card := Finset.card_le_card (Finset.filter_subset _ _)
      _ = 8 := by rw [Finset.card_univ, Fintype.card_fin]
  have h2 : 0 < (Finset.univ.filter fun t : Fin 8 => ps f t / 1024 ≤ j.val).card := by
    rw [Finset.card_pos]
    refine ⟨0, Finset.mem_filter.mpr ⟨Finset.mem_univ _, ?_⟩⟩
    rw [ps_zero]
    exact Nat.zero_le _
  omega

end Cert.Model
-- ==== Proof.ModelFacts.lean ====
/-
  The facts about the counting sort on the natural numbers, gathered: counts, padded starts, destinations.
-/
import proofs.«123552_j1236950581828_2_alg».proof.Proof.ModelFacts1
import proofs.«123552_j1236950581828_2_alg».proof.Proof.ModelFacts2
import proofs.«123552_j1236950581828_2_alg».proof.Proof.ModelFacts3
-- ==== Proof.CumRead1.lean ====
/-
  Sums read off a left fold, a running sum read off a window reduction, and the natural-number value of a sum
  of words.

  A left fold of additions over all positions of a range is the sum over the range.  A window reduction whose
  window covers N rows and one column, padded N − 1 rows above, is at row r the sum of the rows j ≤ r: window
  position n sits at row r + n − (N − 1), outside the array (where it contributes the initial value 0) exactly
  when r + n < N − 1.  A sum of words whose natural-number values add up to less than 2^32 has that sum as its
  value; in particular a sum of words each 0 or 1 counts the ones.
-/
import Mathlib
import Idealize.ShloMosaic.Lib.ValueIdx

noncomputable section

namespace Cert.KernelIdeal.CumRead

open Idealize.ShloMosaic Idealize.ShloMosaic.ValueIdx

/-- A left fold of additions is the starting value plus the sum of the list. -/
theorem foldl_add_eq {ι M : Type*} [AddCommMonoid M] (g : ι → M) (l : List ι) (v : M) :
    l.foldl (fun r n => r + g n) v = v + (l.map g).sum := by
  induction l generalizing v with
  | nil => simp
  | cons a l ih => simp [ih, add_assoc]

/-- A left fold of additions over every position below N is the starting value plus the sum over the positions. -/
theorem foldl_add_finRange {M : Type*} [AddCommMonoid M] (N : ℕ) (g : Fin N → M) (v : M) :
    (List.finRange N).foldl (fun r n => r + g n) v = v + ∑ n, g n := by
  rw [foldl_add_eq, Fin.sum_univ_def]

/-- The sum over the window positions k that land on a row (lo ≤ r + k) of the entry at that row r + k − lo is the
    sum of the entries at the rows j ≤ r, when the window has N = lo + 1 positions. -/
theorem sum_range_shift {M : Type*} [AddCommMonoid M] (xx : ℕ → M) (N lo r : ℕ) (hlo : lo + 1 = N) (hr : r < N) :
    (∑ k ∈ Finset.range N, if lo ≤ r + k then xx (r + k - lo) else 0)
      = ∑ j ∈ Finset.range N, if j ≤ r then xx j else 0 := by
  rw [← Finset.sum_filter, ← Finset.sum_filter]
  refine Finset.sum_nbij' (fun k => r + k - lo) (fun j => j + lo - r) ?_ ?_ ?_ ?_ ?_
  · intro k hk
    simp only [Finset.mem_filter, Finset.mem_range] at hk ⊢
    omega
  · intro j hj
    simp only [Finset.mem_filter, Finset.mem_range] at hj ⊢
    omega
  · intro k hk
    simp only [Finset.mem_filter, Finset.mem_range] at hk
    show r + k - lo + lo - r = k
    omega
  · intro j hj
    simp only [Finset.mem_filter, Finset.mem_range] at hj
    show r + (j + lo - r) - lo = j
    omega
  · intro k _
    rfl

/-- The window shape of N rows and one column has N positions. -/
theorem numel_window (N : ℕ) : (⟨2, ![N, 1]⟩ : Shape).numel = N := by
  simp [Shape.numel, Fin.prod_univ_two]

/-- Position n of the window of N rows and one column is at row n, column 0. -/
theorem window_coords (N : ℕ) (n : Fin (⟨2, ![N, 1]⟩ : Shape).numel) :
    ((⟨2, ![N, 1]⟩ : Shape).rowMajor.symm n 0).val = n.val
      ∧ ((⟨2, ![N, 1]⟩ : Shape).rowMajor.symm n 1).val = 0 := by
  have h := Shape.rowMajor_val_two ((⟨2, ![N, 1]⟩ : Shape).rowMajor.symm n)
  rw [Equiv.apply_symm_apply] at h
  have h1 : ((⟨2, ![N, 1]⟩ : Shape).rowMajor.symm n 1).val < 1 := idx2_lt1 _
  have h2 : (![N, 1] : Fin 2 → ℕ) 1 = 1 := rfl
  rw [h2] at h
  omega

/-- The natural-number value of a sum of 32-bit words whose values add up to less than 2^32. -/
theorem toNat_sum {ι : Type*} (s : Finset ι) (b : ι → BitVec 32) (h : ∑ j ∈ s, (b j).toNat < 2 ^ 32) :
    (∑ j ∈ s, b j).toNat = ∑ j ∈ s, (b j).toNat := by
  have hb : ∀ j, b j = (((b j).toNat : ℕ) : BitVec 32) := fun j => by
    rw [BitVec.natCast_eq_ofNat, BitVec.ofNat_toNat, BitVec.setWidth_eq]
  have : ∑ j ∈ s, b j = ((∑ j ∈ s, (b j).toNat : ℕ) : BitVec 32) := by
    rw [Nat.cast_sum]
    exact Finset.sum_congr rfl fun j _ => hb j
  rw [this, BitVec.natCast_eq_ofNat, BitVec.toNat_ofNat, Nat.mod_eq_of_lt h]

/-- A sum of words each 1 or 0 over fewer than 2^32 places counts the places where the word is 1. -/
theorem toNat_sum_indicator {ι : Type*} (s : Finset ι) (p : ι → Prop) [DecidablePred p] (hs : s.card < 2 ^ 32) :
    (∑ j ∈ s, if p j then 1#32 else 0#32).toNat = (s.filter p).card := by
  have hval : ∀ j, (if p j then 1#32 else 0#32).toNat = if p j then 1 else 0 := fun j => by
    split_ifs <;> rfl
  have hsum : (∑ j ∈ s, (if p j then 1#32 else 0#32).toNat) = (s.filter p).card := by
    rw [Finset.card_filter]
    exact Finset.sum_congr rfl fun j _ => hval j
  rw [toNat_sum _ _ (by rw [hsum]; exact lt_of_le_of_lt (Finset.card_filter_le _ _) hs), hsum]

end Cert.KernelIdeal.CumRead

end
-- ==== Proof.CumRead2.lean ====
/-
  The one-hot table of the labels, read at an entry.

  Entry [r, t] of the table compares the label of row r, broadcast along the 8 columns, with the column number t
  and widens the one-bit answer to a word: it is 1 when the label of row r is t and 0 otherwise.
-/
import proofs.«123552_j1236950581828_2_alg».proof.Proof.Chain
import Idealize.ShloMosaic.Lib.ValueIdx
import Idealize.ShloMosaic.Lib.Pipeline.Value

noncomputable section

namespace Cert.KernelIdeal.CumRead

open Cert.KernelIdeal Idealize.ShloMosaic Idealize.ShloMosaic.ValueIdx

variable [Cert.KernelIdeal.Facts] (ty : IVec S32768 32)

/-- Two naturals below 2^32 with the same 32-bit word are equal. -/
theorem ofNat_inj_small {a b : ℕ} (ha : a < 2 ^ 32) (hb : b < 2 ^ 32) (h : BitVec.ofNat 32 a = BitVec.ofNat 32 b) :
    a = b := by
  have h' := congrArg BitVec.toNat h
  simp only [BitVec.toNat_ofNat] at h'
  rw [Nat.mod_eq_of_lt ha, Nat.mod_eq_of_lt hb] at h'
  exact h'

/-- The label column broadcast along the 8 columns: entry [r, t] is the label of row r. -/
theorem tyCol_apply (r : Fin 32768) (z : Fin 1) :
    broadcastInDim S32768x1 ![0] Facts₀.bcast_S32768_S32768x1_0 ty (ix2 r z) = ty (ix1 r) := by
  refine broadcastInDim_apply _ _ _ (ix2 r z) (ix1 r) ?_
  intro a
  match a with
  | ⟨0, _⟩ => rfl

theorem tyCols_apply (r : Fin 32768) (t : Fin 8) : Chain.tyCols ty (ix2 r t) = ty (ix1 r) := by
  unfold Chain.tyCols
  refine (broadcastInDim_apply _ _ _ (ix2 r t) (ix2 r (0 : Fin 1)) ?_).trans (tyCol_apply ty r 0)
  intro a
  match a with
  | ⟨0, _⟩ => rfl
  | ⟨1, _⟩ => rfl

/-- Entry [r, t] of the column numbers is t. -/
theorem iotaCols_apply (r : Fin 32768) (t : Fin 8) : Chain.iotaCols (ix2 r t) = BitVec.ofNat 32 t.val := by
  unfold Chain.iotaCols
  refine (broadcastInDim_apply _ _ _ (ix2 r t) (ix2 (0 : Fin 1) t) ?_).trans ?_
  · intro a
    match a with
    | ⟨0, _⟩ => rfl
    | ⟨1, _⟩ => rfl
  · refine (broadcastInDim_apply _ _ _ (ix2 (0 : Fin 1) t) (ix1 t) ?_).trans rfl
    intro a
    match a with
    | ⟨0, _⟩ => rfl

variable (f : Fin 32768 → Fin 8) (hf : ∀ r : Fin 32768, ty (ix1 r) = BitVec.ofNat 32 (f r).val)

include hf in
/-- Entry [r, t] of the one-hot table is 1 when the label of row r is t, and 0 otherwise. -/
theorem onehot_apply (r : Fin 32768) (t : Fin 8) :
    Chain.onehot ty (ix2 r t) = if f r = t then 1#32 else 0#32 := by
  unfold Chain.onehot
  show (IntOp.cmpi .eq (Chain.tyCols ty (ix2 r t)) (Chain.iotaCols (ix2 r t))).setWidth 32 = _
  rw [tyCols_apply, iotaCols_apply, hf r]
  by_cases h : f r = t
  · rw [if_pos h, h]
    show (BitVec.ofBool (BitVec.ofNat 32 t.val == BitVec.ofNat 32 t.val)).setWidth 32 = 1#32
    rw [beq_self_eq_true]
    rfl
  · rw [if_neg h]
    have hne : (BitVec.ofNat 32 (f r).val == BitVec.ofNat 32 t.val) = false := by
      rw [beq_eq_false_iff_ne]
      intro he
      exact h (Fin.ext (ofNat_inj_small (by have := (f r).isLt; omega) (by have := t.isLt; omega) he))
    show (BitVec.ofBool (BitVec.ofNat 32 (f r).val == BitVec.ofNat 32 t.val)).setWidth 32 = 0#32
    rw [hne]
    rfl

end Cert.KernelIdeal.CumRead

end
-- ==== Proof.CumRead3.lean ====
/-
  The running sum of the one-hot table down the rows, and the counts, as natural numbers.

  The running sum is a window reduction: a window of N rows and one column, the array padded N − 1 rows above.
  At row r the window's position n sits at row r + n − (N − 1); the positions above the array contribute the
  initial value 0, so the reduction is the sum of the entries at the rows j ≤ r.  On the one-hot table that sum
  counts the rows j ≤ r whose label is t; there are at most 32768 of them, so no word overflows.  The counts are
  the last row of the running sum.
-/
import proofs.«123552_j1236950581828_2_alg».proof.Proof.Chain
import proofs.«123552_j1236950581828_2_alg».proof.Proof.Model
import proofs.«123552_j1236950581828_2_alg».proof.Proof.CumRead1
import proofs.«123552_j1236950581828_2_alg».proof.Proof.CumRead2
import Idealize.ShloMosaic.Lib.ValueIdx
import Idealize.ShloMosaic.Lib.Pipeline.Value

noncomputable section

namespace Cert.KernelIdeal.CumRead

open Cert.KernelIdeal Idealize.ShloMosaic Idealize.ShloMosaic.ValueIdx

/-- A window reduction by addition from 0, the window N rows and one column, the array padded N − 1 rows above:
    entry [r, t] is the sum of the entries [j, t] over the rows j ≤ r. -/
theorem cumsum_apply {N C : ℕ} (lo0 : ℕ) (hlo : lo0 + 1 = N) (x : (⟨2, ![N, C]⟩ : Shape).Idx → BitVec 32)
    {u : Shape} (init : u.Idx → BitVec 32) (hu : 0 < u.numel) (hinit : init (Shape.Idx.first hu) = 0#32)
    (h : (⟨2, ![N, C]⟩ : Shape).ReduceWindows (![N, 1] : Fin 2 → ℕ) ![1, 1] ![lo0, 0] ![0, 0] ⟨2, ![N, C]⟩)
    (r : Fin N) (t : Fin C) :
    Host.reduceWindow IntOp.addi (![N, 1] : Fin 2 → ℕ) ![1, 1] ![lo0, 0] ![0, 0] x init h hu (ix2 r t)
      = ∑ j : Fin N, if j ≤ r then x (ix2 j t) else 0#32 := by
  unfold Host.reduceWindow
  simp only [hinit]
  refine (foldl_add_finRange _ _ _).trans ?_
  rw [BitVec.zero_add]
  -- column t as a function of the row number
  let xx : ℕ → BitVec 32 := fun j => if hj : j < N then x (ix2 ⟨j, hj⟩ t) else 0#32
  trans ∑ n : Fin (⟨2, ![N, 1]⟩ : Shape).numel,
      (fun k : ℕ => if lo0 ≤ r.val + k then xx (r.val + k - lo0) else 0#32) n.val
  · -- window position n contributes the entry at row r + n − lo0 when that row exists, else 0
    refine Finset.sum_congr rfl fun n _ => ?_
    obtain ⟨h0, h1⟩ := window_coords N n
    have hn : n.val < N := lt_of_lt_of_eq n.isLt (numel_window N)
    have hr := r.isLt
    have ht := t.isLt
    beta_reduce
    split_ifs with hin hc hc
    · show x _ = xx _
      simp only [xx]
      rw [dif_pos (by omega)]
      congr 1
      funext a
      match a with
      | ⟨0, _⟩ =>
        refine Fin.ext ?_
        show r.val * 1 + ((⟨2, ![N, 1]⟩ : Shape).rowMajor.symm n 0).val - lo0 = r.val + n.val - lo0
        rw [h0]; omega
      | ⟨1, _⟩ =>
        refine Fin.ext ?_
        show t.val * 1 + ((⟨2, ![N, 1]⟩ : Shape).rowMajor.symm n 1).val - 0 = t.val
        rw [h1]; omega
    · exfalso
      have e0 := (hin 0).1
      change lo0 ≤ r.val * 1 + ((⟨2, ![N, 1]⟩ : Shape).rowMajor.symm n 0).val at e0
      rw [h0] at e0; omega
    · exfalso
      apply hin
      intro a
      match a with
      | ⟨0, _⟩ =>
        show lo0 ≤ r.val * 1 + ((⟨2, ![N, 1]⟩ : Shape).rowMajor.symm n 0).val
          ∧ r.val * 1 + ((⟨2, ![N, 1]⟩ : Shape).rowMajor.symm n 0).val - lo0 < N
        rw [h0]; omega
      | ⟨1, _⟩ =>
        show 0 ≤ t.val * 1 + ((⟨2, ![N, 1]⟩ : Shape).rowMajor.symm n 1).val
          ∧ t.val * 1 + ((⟨2, ![N, 1]⟩ : Shape).rowMajor.symm n 1).val - 0 < C
        rw [h1]; omega
    · rfl
  · -- the positions that land on a row, shifted, are the rows j ≤ r
    rw [Fin.sum_univ_eq_sum_range (fun k : ℕ => if lo0 ≤ r.val + k then xx (r.val + k - lo0) else 0#32), numel_window]
    refine (sum_range_shift xx N lo0 r.val hlo r.isLt).trans ?_
    refine (Fin.sum_univ_eq_sum_range (fun j : ℕ => if j ≤ r.val then xx j else 0) N).symm.trans ?_
    refine Finset.sum_congr rfl fun j _ => ?_
    show (if j.val ≤ r.val then xx j.val else 0#32) = _
    by_cases hjr : j ≤ r
    · rw [if_pos hjr, if_pos (show j.val ≤ r.val from hjr)]
      show (if hj : j.val < N then x (ix2 ⟨j.val, hj⟩ t) else 0#32) = _
      rw [dif_pos j.isLt]
    · rw [if_neg hjr, if_neg (show ¬ j.val ≤ r.val from hjr)]

variable [Cert.KernelIdeal.Facts] (ty : IVec S32768 32)

/-- Entry [r, t] of the running sum is the sum of the one-hot entries [j, t] over the rows j ≤ r. -/
theorem cum_apply (r : Fin 32768) (t : Fin 8) :
    Chain.cum ty (ix2 r t) = ∑ j : Fin 32768, if j ≤ r then Chain.onehot ty (ix2 j t) else 0#32 := by
  unfold Chain.cum
  exact cumsum_apply 32767 rfl (Chain.onehot ty) _ Facts₀.h_S_ rfl _ r t

variable (f : Fin 32768 → Fin 8) (hf : ∀ r : Fin 32768, ty (ix1 r) = BitVec.ofNat 32 (f r).val)

include hf in
/-- Entry [r, t] of the running sum is the number of rows j ≤ r with label t. -/
theorem cum_toNat (r : Fin 32768) (t : Fin 8) : (Chain.cum ty (ix2 r t)).toNat = Cert.Model.cnt f t r := by
  rw [cum_apply]
  have hterm : ∀ j : Fin 32768, (if j ≤ r then Chain.onehot ty (ix2 j t) else 0#32)
      = if (j ≤ r ∧ f j = t) then 1#32 else 0#32 := by
    intro j
    by_cases h1 : j ≤ r
    · rw [if_pos h1, onehot_apply ty f hf]
      by_cases h2 : f j = t
      · rw [if_pos h2, if_pos ⟨h1, h2⟩]
      · rw [if_neg h2, if_neg (fun h => h2 h.2)]
    · rw [if_neg h1, if_neg (fun h => h1 h.1)]
  rw [Finset.sum_congr rfl (fun j _ => hterm j)]
  exact toNat_sum_indicator Finset.univ _ (by rw [Finset.card_univ, Fintype.card_fin]; norm_num)

/-- Every row is at or above the last one: the count down to the last row is the whole count. -/
theorem cnt_last (t : Fin 8) : Cert.Model.cnt f t ⟨32767, by norm_num⟩ = Cert.Model.count f t := by
  unfold Cert.Model.cnt Cert.Model.count
  refine congrArg Finset.card (Finset.filter_congr fun j _ => ?_)
  constructor
  · exact fun h => h.2
  · exact fun h => ⟨show j.val ≤ 32767 by have := j.isLt; omega, h⟩

/-- Entry t of the counts is the last row of the running sum. -/
theorem counts_apply (t : Fin 8) : Chain.counts ty (ix1 t) = Chain.cum ty (ix2 ⟨32767, by norm_num⟩ t) := by
  unfold Chain.counts
  refine (shapeCast_apply _ _ (ix1 t) (ix2 (0 : Fin 1) t) ?_).trans ?_
  · rw [Shape.rowMajor_val_two, Shape.rowMajor_val_one]
    show 0 * 8 + t.val = t.val
    omega
  · refine extractStridedSlice_apply _ _ _ (ix2 (0 : Fin 1) t) (ix2 ⟨32767, by norm_num⟩ t) ?_
    intro a
    match a with
    | ⟨0, _⟩ => rfl
    | ⟨1, _⟩ =>
      show t.val = 0 + t.val
      omega

include hf in
/-- Entry t of the counts is the number of rows with label t. -/
theorem counts_toNat (t : Fin 8) : (Chain.counts ty (ix1 t)).toNat = Cert.Model.count f t := by
  rw [counts_apply, cum_toNat ty f hf, cnt_last]

end Cert.KernelIdeal.CumRead

end
-- ==== Proof.StartRead1.lean ====
/-
  Words of 32 bits that stay small, read as natural numbers.

  Every word of the routing arithmetic is a nonnegative signed number far below 2^31, so that its sums, its
  differences and its products are those of the natural numbers, a signed comparison of two of them is the
  comparison of the natural numbers, and the floor division by 1024 the host computes (the truncated signed
  quotient, less one when the signs of dividend and divisor differ and the remainder is not zero) is the
  quotient of the natural numbers: a positive dividend has the divisor's sign, and the dividend zero has
  remainder zero.
-/
import Idealize.ShloMosaic.Lib.Affine
import Idealize.ShloMosaic.Lib.WordArith

namespace Cert.KernelIdeal.StartRead

open Idealize.ShloMosaic

/-- A word below 2^31 has its top bit clear. -/
theorem msb_false_of_lt {w : BitVec 32} (h : w.toNat < 2 ^ 31) : w.msb = false := by
  rw [BitVec.msb_eq_false_iff_two_mul_lt]; omega

/-- A word below 2^31 reads signed as it reads unsigned. -/
theorem toInt_of_lt {w : BitVec 32} (h : w.toNat < 2 ^ 31) : w.toInt = (w.toNat : Int) :=
  BitVec.toInt_eq_toNat_of_lt (by omega)

/-- A natural number below 2^32 as a word reads as itself. -/
theorem toNat_ofNat_of_lt {n : Nat} (h : n < 2 ^ 32) : (BitVec.ofNat 32 n).toNat = n := by
  rw [BitVec.toNat_ofNat]; exact Nat.mod_eq_of_lt h

/-- A word is the word of the natural number it reads as. -/
theorem eq_ofNat_of_toNat {w : BitVec 32} {n : Nat} (h : w.toNat = n) : w = BitVec.ofNat 32 n := by
  subst h
  exact BitVec.eq_of_toNat_eq (by rw [BitVec.toNat_ofNat]; exact (Nat.mod_eq_of_lt w.isLt).symm)

/-- A sum that does not wrap. -/
theorem toNat_addi {a b : BitVec 32} (h : a.toNat + b.toNat < 2 ^ 32) : (IntOp.addi a b).toNat = a.toNat + b.toNat := by
  show (a + b).toNat = _
  rw [BitVec.toNat_add]; exact Nat.mod_eq_of_lt h

/-- A difference that does not wrap. -/
theorem toNat_subi {a b : BitVec 32} (h : b.toNat ≤ a.toNat) : (IntOp.subi a b).toNat = a.toNat - b.toNat := by
  show (a - b).toNat = _
  exact BitVec.toNat_sub_of_le (BitVec.le_def.2 h)

/-- A product that does not wrap. -/
theorem toNat_muli {a b : BitVec 32} (h : a.toNat * b.toNat < 2 ^ 32) : (IntOp.muli a b).toNat = a.toNat * b.toNat := by
  show (a * b).toNat = _
  rw [BitVec.toNat_mul]; exact Nat.mod_eq_of_lt h

/-- Signed "at least" of two words below 2^31 is "at least" of the natural numbers. -/
theorem cmpi_sge_iff {a b : BitVec 32} (ha : a.toNat < 2 ^ 31) (hb : b.toNat < 2 ^ 31) :
    IntOp.cmpi .sge a b = 1#1 ↔ b.toNat ≤ a.toNat := by
  rw [IntOp.cmpi_sge, toInt_of_lt ha, toInt_of_lt hb]; omega

/-- A word below 2^31 is not negative. -/
theorem cmpi_slt_zero_ne_one {a : BitVec 32} (ha : a.toNat < 2 ^ 31) : ¬ IntOp.cmpi .slt a 0#32 = 1#1 := by
  rw [IntOp.cmpi_slt, toInt_of_lt ha, show (0#32 : BitVec 32).toInt = 0 from by decide]; omega

/-- Signed division by 1024 of a word below 2^31: the quotient of the natural numbers. -/
theorem toNat_divsi_1024 (w : BitVec 32) (h : w.toNat < 2 ^ 31) :
    (IntOp.divsi .host w 1024#32).toNat = w.toNat / 1024 := by
  have hc : ¬ IntOp.SDivCorner w 1024#32 := IntOp.not_corner_of_pos (by decide)
  rw [IntOp.divsi, if_neg hc, BitVec.sdiv_eq, msb_false_of_lt h, show (1024#32 : BitVec 32).msb = false from by decide]
  dsimp only
  rw [BitVec.udiv_eq, BitVec.toNat_udiv]
  rfl

/-- The sign of a word: 0 for zero, −1 when the top bit is set, 1 otherwise. -/
def sgn (w : BitVec 32) : BitVec 32 := if w = 0 then 0 else if w.msb then -1 else 1

/-- Floor division of one word by 1024, as the host computes it. -/
def fdWord (w : BitVec 32) : BitVec 32 :=
  Scalar.select (IntOp.andi (IntOp.cmpi .ne (sgn w) (sgn 1024#32)) (IntOp.cmpi .ne (IntOp.remsi .host w 1024#32) 0#32))
    (IntOp.subi (IntOp.divsi .host w 1024#32) 1#32) (IntOp.divsi .host w 1024#32)

theorem sgn_1024 : sgn 1024#32 = 1#32 := by decide

/-- Of a word below 2^31 it is the quotient of the natural numbers: a positive word has the sign of 1024, and
    zero has remainder zero, so the truncated quotient is never corrected. -/
theorem fdWord_toNat (w : BitVec 32) (h : w.toNat < 2 ^ 31) : (fdWord w).toNat = w.toNat / 1024 := by
  have hcond : ¬ IntOp.andi (IntOp.cmpi .ne (sgn w) (sgn 1024#32)) (IntOp.cmpi .ne (IntOp.remsi .host w 1024#32) 0#32) = 1#1 := by
    rw [IntOp.andi_eq_one, IntOp.cmpi_ne, IntOp.cmpi_ne, sgn_1024]
    rintro ⟨h1, h2⟩
    by_cases h0 : w = 0
    · subst h0; exact h2 (by decide)
    · apply h1; unfold sgn; rw [if_neg h0, msb_false_of_lt h]; rfl
  unfold fdWord
  rw [Scalar.select, if_neg (show ¬ _ = (1 : BitVec 1) from hcond)]
  exact toNat_divsi_1024 w h

end Cert.KernelIdeal.StartRead
-- ==== Proof.StartRead2.lean ====
/-
  The padded counts, read as natural numbers.

  The floor division by 1024 of 8 words, each below 2^31, is the quotient of the natural numbers at every entry; the
  padded count of label t is (count t + 1024 − 1) / 1024 · 1024, and no step wraps: a count is at most 32768.
-/
import proofs.«123552_j1236950581828_2_alg».proof.Proof.Chain
import proofs.«123552_j1236950581828_2_alg».proof.Proof.Model
import proofs.«123552_j1236950581828_2_alg».proof.Proof.StartRead1
import Idealize.ShloMosaic.Lib.ValueIdx

noncomputable section

namespace Cert.KernelIdeal.StartRead

open Idealize.ShloMosaic Idealize.ShloMosaic.ValueIdx Cert.KernelIdeal

/-! ## Bounds on the model's numbers -/

section Model
variable (f : Fin 32768 → Fin 8)

theorem count_le (t : Fin 8) : Cert.Model.count f t ≤ 32768 := by
  unfold Cert.Model.count
  exact (Finset.card_filter_le _ _).trans (by rw [Finset.card_univ, Fintype.card_fin])

theorem cnt_le (t : Fin 8) (i : Fin 32768) : Cert.Model.cnt f t i ≤ 32768 := by
  unfold Cert.Model.cnt
  exact (Finset.card_filter_le _ _).trans (by rw [Finset.card_univ, Fintype.card_fin])

/-- Row r is one of the rows up to r with its own label. -/
theorem cnt_pos (r : Fin 32768) : 1 ≤ Cert.Model.cnt f (f r) r := by
  unfold Cert.Model.cnt
  exact Finset.card_pos.2 ⟨r, Finset.mem_filter.2 ⟨Finset.mem_univ _, le_refl _, rfl⟩⟩

theorem pc_le (t : Fin 8) : Cert.Model.pc f t ≤ 33791 := by
  unfold Cert.Model.pc
  have := count_le f t
  omega

theorem ps_le (t : Fin 8) : Cert.Model.ps f t ≤ 270328 := by
  unfold Cert.Model.ps
  calc ∑ s ∈ Finset.univ.filter (fun s : Fin 8 => s < t), Cert.Model.pc f s
      ≤ ∑ _s ∈ Finset.univ.filter (fun s : Fin 8 => s < t), 33791 := Finset.sum_le_sum fun s _ => pc_le f s
    _ = (Finset.univ.filter (fun s : Fin 8 => s < t)).card * 33791 := by rw [Finset.sum_const, smul_eq_mul]
    _ ≤ 8 * 33791 := Nat.mul_le_mul_right _ ((Finset.card_filter_le _ _).trans (by rw [Finset.card_univ, Fintype.card_fin]))
    _ = 270328 := by norm_num

end Model

variable [Cert.KernelIdeal.Facts]

/-! ## The floor division at an entry -/

theorem splat8_apply (v : BitVec 32) (i : S8.Idx) : Chain.splat8 v i = v := rfl

theorem floorDiv1024_apply (x : IVec S8 32) (i : S8.Idx) : Chain.floorDiv1024 x i = fdWord (x i) := rfl

theorem floorDiv1024_toNat (x : IVec S8 32) (t : Fin 8) (hx : (x (ix1 t)).toNat < 2 ^ 31) :
    (Chain.floorDiv1024 x (ix1 t)).toNat = (x (ix1 t)).toNat / 1024 := by
  rw [floorDiv1024_apply]; exact fdWord_toNat _ hx

/-! ## The padded counts -/

variable (ty : IVec S32768 32) (f : Fin 32768 → Fin 8)
  (hcounts : ∀ t : Fin 8, (Chain.counts ty (ix1 t)).toNat = Cert.Model.count f t)

theorem pcount_apply (i : S8.Idx) :
    Chain.pcount ty i = IntOp.muli (fdWord (IntOp.subi (IntOp.addi (Chain.counts ty i) 1024#32) 1#32)) 1024#32 := rfl

include hcounts in
theorem pcount_toNat (t : Fin 8) : (Chain.pcount ty (ix1 t)).toNat = Cert.Model.pc f t := by
  have hc := hcounts t
  have hle := count_le f t
  have h1024 : (1024#32 : BitVec 32).toNat = 1024 := rfl
  have h1 : (1#32 : BitVec 32).toNat = 1 := rfl
  have ha : (IntOp.addi (Chain.counts ty (ix1 t)) 1024#32).toNat = Cert.Model.count f t + 1024 := by
    rw [toNat_addi (by rw [hc, h1024]; omega), hc, h1024]
  have hs : (IntOp.subi (IntOp.addi (Chain.counts ty (ix1 t)) 1024#32) 1#32).toNat = Cert.Model.count f t + 1023 := by
    rw [toNat_subi (by rw [ha, h1]; omega), ha, h1]; omega
  have hd : (fdWord (IntOp.subi (IntOp.addi (Chain.counts ty (ix1 t)) 1024#32) 1#32)).toNat
      = (Cert.Model.count f t + 1023) / 1024 := by
    rw [fdWord_toNat _ (by rw [hs]; omega), hs]
  rw [pcount_apply, toNat_muli (by rw [hd, h1024]; omega), hd, h1024]
  rfl

end Cert.KernelIdeal.StartRead

end
-- ==== Proof.StartRead3.lean ====
/-
  The group starts, read as natural numbers.

  The running sum of the 8 padded counts is a window sum: entry t adds, from zero, the 8 positions n of a window that
  reads the operand at t + n − 7 where that is not negative and zero where it is; so it is the sum of the padded counts
  of the labels up to t.  The group starts are that vector moved up by one entry behind a leading zero: entry 0 is zero
  and entry t + 1 is the running sum at t, the sum of the padded counts of the labels below t + 1.  Eight numbers of
  at most 33791 do not wrap.
-/
import proofs.«123552_j1236950581828_2_alg».proof.Proof.StartRead2
import Idealize.ShloMosaic.Lib.Pipeline.Value

noncomputable section

namespace Cert.KernelIdeal.StartRead

open Idealize.ShloMosaic Idealize.ShloMosaic.ValueIdx Cert.KernelIdeal

/-! ## A running sum of 8 words as a window sum -/

/-- A left fold that adds g n, over a list, is the start plus the sum of the g n. -/
theorem foldl_addi_eq {ι : Type} (g : ι → BitVec 32) (l : List ι) (v : BitVec 32) :
    l.foldl (fun r n => IntOp.addi r (g n)) v = v + (l.map g).sum := by
  induction l generalizing v with
  | nil => simp only [List.foldl_nil, List.map_nil, List.sum_nil, BitVec.ofNat_eq_ofNat, BitVec.add_zero]
  | cons a l ih =>
    rw [List.foldl_cons, ih, List.map_cons, List.sum_cons]
    show v + g a + _ = _
    rw [add_assoc]

theorem dite_eq_dite {α : Type} {p q : Prop} {dp : Decidable p} {dq : Decidable q} (hpq : p ↔ q) {a : p → α} {b : q → α}
    {c : α} (hab : ∀ hp hq, a hp = b hq) : @dite α p dp a (fun _ => c) = @dite α q dq b (fun _ => c) := by
  cases dp with
  | isTrue hp =>
    cases dq with
    | isTrue hq => exact hab hp hq
    | isFalse hq => exact absurd (hpq.1 hp) hq
  | isFalse hp =>
    cases dq with
    | isTrue hq => exact absurd (hpq.2 hq) hp
    | isFalse hq => rfl

def win (x : IVec S8 32) (t : Fin 8) (m : Nat) : BitVec 32 :=
  if h : 7 ≤ t.val + m ∧ t.val + m - 7 < 8 then x (ix1 ⟨t.val + m - 7, h.2⟩) else 0#32

theorem reduceWindow8_apply (x : IVec S8 32) (init : S_.Idx → BitVec 32)
    (h : S8.ReduceWindows (![8] : Fin 1 → Nat) ![1] ![7] ![0] S8) (hu : 0 < S_.numel)
    (hinit : init (Shape.Idx.first hu) = 0#32) (t : Fin 8) :
    Host.reduceWindow IntOp.addi ![8] ![1] ![7] ![0] x init h hu (ix1 t) = ∑ m ∈ Finset.range 8, win x t m := by
  unfold Host.reduceWindow
  dsimp only
  rw [foldl_addi_eq, hinit, ← Fin.sum_univ_def, BitVec.zero_add]
  have hpos : ∀ i : Fin (Shape.numel ⟨1, ![8]⟩), ((⟨1, ![8]⟩ : Shape).rowMajor.symm i 0).val = i.val := fun i => by
    have := Shape.rowMajor_val_one ((⟨1, ![8]⟩ : Shape).rowMajor.symm i)
    rw [Equiv.apply_symm_apply] at this; exact this.symm
  trans ∑ i : Fin (Shape.numel ⟨1, ![8]⟩), win x t i.val
  · refine Finset.sum_congr rfl fun i _ => ?_
    unfold win
    refine dite_eq_dite ⟨fun H => ?_, fun H a => ?_⟩ fun hp hq => congrArg x (funext fun a => Fin.ext ?_)
    · have := H 0
      change 7 ≤ t.val * 1 + ((⟨1, ![8]⟩ : Shape).rowMajor.symm i 0).val
        ∧ t.val * 1 + ((⟨1, ![8]⟩ : Shape).rowMajor.symm i 0).val - 7 < 8 at this
      rw [hpos i] at this; omega
    · obtain rfl : a = 0 := Subsingleton.elim _ _
      change 7 ≤ t.val * 1 + ((⟨1, ![8]⟩ : Shape).rowMajor.symm i 0).val
        ∧ t.val * 1 + ((⟨1, ![8]⟩ : Shape).rowMajor.symm i 0).val - 7 < 8
      rw [hpos i]; omega
    · obtain rfl : a = 0 := Subsingleton.elim _ _
      change t.val * 1 + ((⟨1, ![8]⟩ : Shape).rowMajor.symm i 0).val - 7 = t.val + i.val - 7
      rw [hpos i]; omega
  · rw [Fin.sum_univ_eq_sum_range (fun m => win x t m), Shape.numel_rank1]
    rfl

theorem sum_win (x : IVec S8 32) (t : Fin 8) :
    ∑ m ∈ Finset.range 8, win x t m = ∑ s : Fin 8, if s ≤ t then x (ix1 s) else 0#32 := by
  rw [Finset.sum_fin_eq_sum_range]
  obtain ⟨t, ht⟩ := t
  interval_cases t <;>
  simp only [win, zero_add, add_zero, Finset.sum_range_succ, Finset.range_one, Finset.sum_singleton, nonpos_iff_eq_zero,
    OfNat.ofNat_ne_zero, zero_tsub, Nat.ofNat_pos, and_true, ↓reduceDIte, Nat.not_ofNat_le_one, Nat.one_le_ofNat,
    Nat.sub_eq_zero_of_le, BitVec.add_zero, Nat.reduceLeDiff, Std.le_refl, tsub_self, and_self, Fin.zero_eta, Fin.isValue,
    BitVec.zero_add, Fin.mk_eq_zero, BitVec.ofNat_eq_ofNat, ↓reduceIte, Nat.one_lt_ofNat, one_ne_zero, Nat.reduceLT,
    Nat.lt_add_one, Nat.reduceAdd, Nat.reduceSub, Fin.mk_one, zero_le, Fin.reduceFinMk, Fin.reduceLE,
    le_add_iff_nonneg_right, add_tsub_cancel_left, true_and]

theorem toNat_sum {ι : Type} (S : Finset ι) (g : ι → BitVec 32) (h : ∑ i ∈ S, (g i).toNat < 2 ^ 32) :
    (∑ i ∈ S, g i).toNat = ∑ i ∈ S, (g i).toNat := by
  classical
  induction S using Finset.induction_on with
  | empty => rfl
  | insert a S ha ih =>
    rw [Finset.sum_insert ha] at h ⊢
    rw [Finset.sum_insert ha, BitVec.toNat_add, ih (by omega), Nat.mod_eq_of_lt h]

/-! ## The running sums of the padded counts and the group starts -/

variable [Cert.KernelIdeal.Facts] (ty : IVec S32768 32) (f : Fin 32768 → Fin 8)
  (hcounts : ∀ t : Fin 8, (Chain.counts ty (ix1 t)).toNat = Cert.Model.count f t)

theorem pcum_apply (t : Fin 8) :
    Chain.pcum ty (ix1 t) = ∑ s : Fin 8, if s ≤ t then Chain.pcount ty (ix1 s) else 0#32 := by
  unfold Chain.pcum
  rw [reduceWindow8_apply _ _ _ _ rfl t, sum_win]

include hcounts in
theorem pcum_toNat (t : Fin 8) :
    (Chain.pcum ty (ix1 t)).toNat = ∑ s ∈ Finset.univ.filter (fun s : Fin 8 => s ≤ t), Cert.Model.pc f s := by
  have hterm : ∀ s : Fin 8, (if s ≤ t then Chain.pcount ty (ix1 s) else 0#32).toNat
      = if s ≤ t then Cert.Model.pc f s else 0 := by
    intro s; split
    · exact pcount_toNat ty f hcounts s
    · rfl
  have hbound : ∑ s : Fin 8, (if s ≤ t then Chain.pcount ty (ix1 s) else 0#32).toNat < 2 ^ 32 := by
    calc ∑ s : Fin 8, (if s ≤ t then Chain.pcount ty (ix1 s) else 0#32).toNat
        = ∑ s : Fin 8, if s ≤ t then Cert.Model.pc f s else 0 := Finset.sum_congr rfl fun s _ => hterm s
      _ ≤ ∑ _s : Fin 8, 33791 := Finset.sum_le_sum fun s _ => by
          split
          · exact pc_le f s
          · exact Nat.zero_le _
      _ < 2 ^ 32 := by rw [Finset.sum_const, Finset.card_univ, Fintype.card_fin]; norm_num
  rw [pcum_apply, Finset.sum_filter, toNat_sum _ _ hbound]
  exact Finset.sum_congr rfl fun s _ => hterm s

/-- The first group starts at zero. -/
theorem pstart_zero : Chain.pstart ty (ix1 0) = 0#32 := by
  unfold Chain.pstart
  exact concatenate_pair_apply_left (t := S8) (s₁ := S1) (s₂ := S7) 0 _ _ _ (ix1 (0 : Fin 8)) rfl (ix1 (0 : Fin 1))
    (fun b => by obtain rfl : b = 0 := Subsingleton.elim _ _; rfl)

/-- Group s + 1 starts where the running sum stands at s. -/
theorem pstart_succ (s : Fin 7) : Chain.pstart ty (ix1 s.succ) = Chain.pcum ty (ix1 s.castSucc) := by
  unfold Chain.pstart
  rw [concatenate_pair_apply_right (t := S8) (s₁ := S1) (s₂ := S7) 0 _ _ _ (ix1 s.succ) rfl rfl (ix1 (s : Fin 7))
    (fun b hb => absurd (Subsingleton.elim _ _) hb) rfl]
  exact extractStridedSlice_apply _ _ _ _ _ fun a => by
    obtain rfl : a = 0 := Subsingleton.elim _ _
    show s.val = 0 + s.val
    omega

include hcounts in
theorem pstart_toNat (t : Fin 8) : (Chain.pstart ty (ix1 t)).toNat = Cert.Model.ps f t := by
  unfold Cert.Model.ps
  cases t using Fin.cases with
  | zero =>
    rw [pstart_zero]
    refine (Finset.sum_eq_zero fun s hs => ?_).symm
    exact absurd (Finset.mem_filter.1 hs).2 (Fin.not_lt_zero s)
  | succ s =>
    rw [pstart_succ, pcum_toNat ty f hcounts]
    refine Finset.sum_congr (Finset.filter_congr fun u _ => ?_) fun _ _ => rfl
    exact Fin.le_castSucc_iff

end Cert.KernelIdeal.StartRead

end
-- ==== Proof.TileRead.lean ====
/-
  The tile table read as natural numbers.

  Entry j of the table is the number of labels t whose group starts at or before tile j (its start, in rows, divided
  by 1024), less one.  The host computes it as a sum over the eight labels of 0/1 words, less the word 1; the sum has at
  most eight ones, so nothing wraps, and the label 0, whose group starts at row 0, is always counted, so the
  subtraction does not wrap either.
-/
import proofs.«123552_j1236950581828_2_alg».proof.Proof.Chain
import proofs.«123552_j1236950581828_2_alg».proof.Proof.Model
import Idealize.ShloMosaic.Lib.ValueIdx
import Idealize.ShloMosaic.Lib.Pipeline.Value
import Idealize.ShloMosaic.Lib.Affine
import Idealize.ShloMosaic.PureOps.Reduce

noncomputable section

namespace Cert.KernelIdeal.TileRead

open Idealize.ShloMosaic Idealize.ShloMosaic.ValueIdx Cert.KernelIdeal

variable [Cert.KernelIdeal.Facts]
open Facts₀ Facts

/-! ## The model's group starts are small -/

theorem count_le (f : Fin 32768 → Fin 8) (t : Fin 8) : Cert.Model.count f t ≤ 32768 := by
  unfold Cert.Model.count
  exact (Finset.card_filter_le _ _).trans (by rw [Finset.card_univ, Fintype.card_fin])

theorem pc_le (f : Fin 32768 → Fin 8) (t : Fin 8) : Cert.Model.pc f t ≤ 33791 := by
  have h := count_le f t
  unfold Cert.Model.pc
  omega

theorem ps_le (f : Fin 32768 → Fin 8) (t : Fin 8) : Cert.Model.ps f t ≤ 270328 := by
  unfold Cert.Model.ps
  refine (Finset.sum_le_card_nsmul _ _ 33791 (fun s _ => pc_le f s)).trans ?_
  have hc : (Finset.univ.filter fun s : Fin 8 => s < t).card ≤ 8 :=
    (Finset.card_filter_le _ _).trans (by rw [Finset.card_univ, Fintype.card_fin])
  rw [smul_eq_mul]
  omega

theorem ps_zero (f : Fin 32768 → Fin 8) : Cert.Model.ps f 0 = 0 := by
  unfold Cert.Model.ps
  rw [Finset.filter_false_of_mem (fun s _ => Fin.not_lt_zero s), Finset.sum_empty]

/-! ## Words -/

/-- A sum of words from a set, folded from an initial word, has the natural-number sum as its value when that is
    below 2³². -/
theorem toNat_fold_addi {ι : Type} [DecidableEq ι] (s : Finset ι) (g : ι → BitVec 32) (b : BitVec 32)
    (hlt : b.toNat + ∑ k ∈ s, (g k).toNat < 2 ^ 32) :
    (s.fold IntOp.addi b g).toNat = b.toNat + ∑ k ∈ s, (g k).toNat := by
  induction s using Finset.induction_on with
  | empty => rw [Finset.fold_empty, Finset.sum_empty, Nat.add_zero]
  | insert a s ha ih =>
    rw [Finset.sum_insert ha] at hlt ⊢
    rw [Finset.fold_insert ha]
    have ih' := ih (by omega)
    show (g a + s.fold IntOp.addi b g).toNat = _
    rw [BitVec.toNat_add, ih']
    omega

/-- The 0/1 word of a comparison "at least" between two words below 2³¹, widened to 32 bits: 1 exactly when the
    natural numbers compare. -/
theorem toNat_sge_word (x y : BitVec 32) (hx : x.toNat < 2 ^ 31) (hy : y.toNat < 2 ^ 31) :
    ((IntOp.cmpi .sge x y).setWidth 32).toNat = if y.toNat ≤ x.toNat then 1 else 0 := by
  have hxi : x.toInt = x.toNat := BitVec.toInt_eq_toNat_of_lt (by omega)
  have hyi : y.toInt = y.toNat := BitVec.toInt_eq_toNat_of_lt (by omega)
  have h01 : ∀ c : BitVec 1, c = 1#1 ∨ c = 0#1 := by decide
  by_cases hle : y.toNat ≤ x.toNat
  · rw [if_pos hle, IntOp.cmpi_sge.2 (by rw [hxi, hyi]; exact_mod_cast hle)]; rfl
  · rw [if_neg hle]
    rcases h01 (IntOp.cmpi .sge x y) with h1 | h0
    · exact absurd (by have := IntOp.cmpi_sge.1 h1; rw [hxi, hyi] at this; exact_mod_cast this) hle
    · rw [h0]; rfl

/-! ## The table -/

/-- The 40 × 8 array of 0/1 words: entry (j, t) is 1 when group t's first tile is at or before tile j. -/
def flags (ty : IVec S32768 32) : IVec S40x8 32 :=
  extui 32 (cmpi .sge
    (broadcastInDim S40x8 ![0, 1] bcast_S40x1_S40x8_0_1 (broadcastInDim S40x1 ![0] bcast_S40_S40x1_0 (iotaInDim S40 32 0)))
    (broadcastInDim S40x8 ![0, 1] bcast_S1x8_S40x8_0_1 (broadcastInDim S1x8 ![1] bcast_S8_S1x8_1 (Chain.ctiles ty)))) natLt_1_32

/-- Entry (j, t) compares the word of j with the first tile of group t. -/
theorem flags_apply (ty : IVec S32768 32) (j : Fin 40) (t : Fin 8) :
    flags ty (ix2 j t) = (IntOp.cmpi .sge (BitVec.ofNat 32 j.val) (Chain.ctiles ty (ix1 t))).setWidth 32 := by
  have eL : broadcastInDim S40x8 ![0, 1] bcast_S40x1_S40x8_0_1
      (broadcastInDim S40x1 ![0] bcast_S40_S40x1_0 (iotaInDim S40 32 0)) (ix2 j t) = BitVec.ofNat 32 j.val := by
    rw [broadcastInDim_apply _ bcast_S40x1_S40x8_0_1 _ (ix2 j t) (ix2 j (0 : Fin 1)) (fun a => match a with
        | ⟨0, _⟩ => by show j.val = if (40 : Nat) = 1 then 0 else j.val; rw [if_neg (by decide)]
        | ⟨1, _⟩ => by show 0 = if (1 : Nat) = 1 then 0 else t.val; rw [if_pos rfl]),
      broadcastInDim_apply _ bcast_S40_S40x1_0 _ (ix2 j (0 : Fin 1)) (ix1 j) (fun a => match a with
        | ⟨0, _⟩ => by show j.val = if (40 : Nat) = 1 then 0 else j.val; rw [if_neg (by decide)])]
    rfl
  have eR : broadcastInDim S40x8 ![0, 1] bcast_S1x8_S40x8_0_1
      (broadcastInDim S1x8 ![1] bcast_S8_S1x8_1 (Chain.ctiles ty)) (ix2 j t) = Chain.ctiles ty (ix1 t) := by
    rw [broadcastInDim_apply _ bcast_S1x8_S40x8_0_1 _ (ix2 j t) (ix2 (0 : Fin 1) t) (fun a => match a with
        | ⟨0, _⟩ => by show 0 = if (1 : Nat) = 1 then 0 else j.val; rw [if_pos rfl]
        | ⟨1, _⟩ => by show t.val = if (8 : Nat) = 1 then 0 else t.val; rw [if_neg (by decide)]),
      broadcastInDim_apply _ bcast_S8_S1x8_1 _ (ix2 (0 : Fin 1) t) (ix1 t) (fun a => match a with
        | ⟨0, _⟩ => by show t.val = if (8 : Nat) = 1 then 0 else t.val; rw [if_neg (by decide)])]
  show (IntOp.cmpi .sge _ _).setWidth 32 = _
  rw [eL, eR]

/-- Entry j of the tile table, as a natural number, is the model's group of tile j. -/
theorem tileType_toNat (ty : IVec S32768 32) (f : Fin 32768 → Fin 8)
    (hps : ∀ t : Fin 8, (Chain.pstart ty (ix1 t)).toNat = Cert.Model.ps f t)
    (hfd : ∀ (x : IVec S8 32) (t : Fin 8), (x (ix1 t)).toNat < 2 ^ 31 →
      (Chain.floorDiv1024 x (ix1 t)).toNat = (x (ix1 t)).toNat / 1024)
    (j : Fin 40) : (Chain.tileType ty (ix1 j)).toNat = Cert.Model.ttype f j := by
  have hct : ∀ t : Fin 8, (Chain.ctiles ty (ix1 t)).toNat = Cert.Model.ps f t / 1024 := fun t => by
    unfold Chain.ctiles
    rw [hfd (Chain.pstart ty) t (by rw [hps]; have := ps_le f t; omega), hps]
  have hred : S40x8.Reduces [1] S40 := by decide
  have hlift : ∀ k : Fin 8, hred.lift (ix1 j) k = ix2 j k := fun k =>
    funext fun c => Fin.ext (by match c with | ⟨0, _⟩ => rfl | ⟨1, _⟩ => rfl)
  have hterm : ∀ k : Fin 8, (flags ty (hred.lift (ix1 j) k)).toNat = if Cert.Model.ps f k / 1024 ≤ j.val then 1 else 0 := fun k => by
    have hj : (BitVec.ofNat 32 j.val).toNat = j.val := by
      rw [BitVec.toNat_ofNat]; exact Nat.mod_eq_of_lt (by have := j.isLt; omega)
    rw [hlift k, flags_apply, toNat_sge_word _ _ (by rw [hj]; have := j.isLt; omega)
      (by rw [hct]; have := ps_le f k; omega), hct, hj]
  have hsum : ∑ k : Fin 8, (flags ty (hred.lift (ix1 j) k)).toNat
      = (Finset.univ.filter fun t : Fin 8 => Cert.Model.ps f t / 1024 ≤ j.val).card := by
    rw [Finset.card_filter]
    exact Finset.sum_congr rfl fun k _ => hterm k
  have hcard8 : (Finset.univ.filter fun t : Fin 8 => Cert.Model.ps f t / 1024 ≤ j.val).card ≤ 8 :=
    (Finset.card_filter_le _ _).trans (by rw [Finset.card_univ, Fintype.card_fin])
  have hcard1 : 1 ≤ (Finset.univ.filter fun t : Fin 8 => Cert.Model.ps f t / 1024 ≤ j.val).card :=
    Finset.card_pos.2 ⟨0, Finset.mem_filter.2 ⟨Finset.mem_univ _, by rw [ps_zero]; exact Nat.zero_le _⟩⟩
  have hfold : (Host.reduce IntOp.addi (flags ty) (constantI S_ 32 0#32) reducesTo_S40x8_S40_d1 h_S_ (ix1 j)).toNat
      = (Finset.univ.filter fun t : Fin 8 => Cert.Model.ps f t / 1024 ≤ j.val).card := by
    rw [Host.reduce_eq_fold_single IntOp.addi (flags ty) (constantI S_ 32 0#32) reducesTo_S40x8_S40_d1 hred h_S_ (ix1 j)]
    have h0 : (constantI S_ 32 0#32 : IVec S_ 32) (Shape.Idx.first h_S_) = 0#32 := rfl
    rw [h0]
    have := toNat_fold_addi (Finset.univ : Finset (Fin 8)) (flags ty ∘ hred.lift (ix1 j)) 0#32
      (by show (0#32 : BitVec 32).toNat + ∑ k : Fin 8, (flags ty (hred.lift (ix1 j) k)).toNat < 2 ^ 32
          rw [hsum]; have : (0#32 : BitVec 32).toNat = 0 := rfl; omega)
    refine this.trans ?_
    show (0#32 : BitVec 32).toNat + ∑ k : Fin 8, (flags ty (hred.lift (ix1 j) k)).toNat = _
    rw [hsum]; exact Nat.zero_add _
  show (IntOp.subi (Host.reduce IntOp.addi (flags ty) (constantI S_ 32 0#32) reducesTo_S40x8_S40_d1 h_S_ (ix1 j)) 1#32).toNat = _
  unfold Cert.Model.ttype
  show (_ - (1#32 : BitVec 32)).toNat = _
  rw [BitVec.toNat_sub, hfold]
  have h1 : (1#32 : BitVec 32).toNat = 1 := rfl
  rw [h1]
  omega

end Cert.KernelIdeal.TileRead

end
-- ==== Proof.TileLabel.lean ====
/-
  With every label below 8, every entry of the tile table is a label: entry j is the group of tile j of the counting
  sort, a number below 8.
-/
import proofs.«123552_j1236950581828_2_alg».proof.Proof.Chain
import proofs.«123552_j1236950581828_2_alg».proof.Proof.Spec
import proofs.«123552_j1236950581828_2_alg».proof.Proof.Model
import proofs.«123552_j1236950581828_2_alg».proof.Proof.ModelFacts
import proofs.«123552_j1236950581828_2_alg».proof.Proof.CumRead3
import proofs.«123552_j1236950581828_2_alg».proof.Proof.StartRead3
import proofs.«123552_j1236950581828_2_alg».proof.Proof.TileRead

noncomputable section

namespace Cert.KernelIdeal.Value

open Idealize.ShloMosaic Idealize.ShloMosaic.ValueIdx Cert.KernelIdeal

variable [Facts]

/-- A label below 8 is the word of its own number. -/
theorem word_of_label (ty : IVec S32768 32) (hty : ∀ r : Fin 32768, (ty (ix1 r)).toNat < 8) (r : Fin 32768) :
    ty (ix1 r) = BitVec.ofNat 32 (Cert.Spec.lab ty r).val := by
  apply BitVec.eq_of_toNat_eq
  rw [BitVec.toNat_ofNat]
  show (ty (ix1 r)).toNat = (ty (ix1 r)).toNat % 8 % 2 ^ 32
  have := hty r
  omega

/-- The tile table's entry j is the group of tile j. -/
theorem tileType_word (ty : IVec S32768 32) (hty : ∀ r : Fin 32768, (ty (ix1 r)).toNat < 8) (j : Fin 40) :
    (Chain.tileType ty (ix1 j)).toNat = Cert.Model.ttype (Cert.Spec.lab ty) j :=
  TileRead.tileType_toNat ty (Cert.Spec.lab ty)
    (StartRead.pstart_toNat ty (Cert.Spec.lab ty) (CumRead.counts_toNat ty (Cert.Spec.lab ty) (word_of_label ty hty)))
    (fun x t hx => StartRead.floorDiv1024_toNat x t hx) j

/-- Every entry of the tile table is a label. -/
theorem tileType_lt (ty : IVec S32768 32) (hty : ∀ r : Fin 32768, (ty (ix1 r)).toNat < 8) (j : Fin 40) : (Chain.tileType ty (ix1 j)).toNat < 8 := by
  rw [tileType_word ty hty j]; exact Cert.Model.ttype_lt _ j

end Cert.KernelIdeal.Value

end
-- ==== Proof.CumRead4.lean ====
/-
  The column of the running sum that each row takes, read at an entry.

  Each row r takes the entry of the running sum in its own row, at the column its label names: a gather whose
  operand and start indices share the row axis (a batching axis), whose one start-index component names the
  column, read as a signed integer and clamped into 0..7, and whose slices are single entries.  Read at [r, z] it
  is the operand at row r and that column.  On a label below 8 the signed reading is the label itself, the
  comparisons with 0 and 7 hold, and no clamping happens.
-/
import proofs.«123552_j1236950581828_2_alg».proof.Proof.Chain
import Idealize.ShloMosaic.Lib.ValueIdx
import Idealize.ShloMosaic.Lib.Pipeline.Value
import Idealize.ShloMosaic.PureOps.Reduce

noncomputable section

namespace Cert.KernelIdeal.CumRead

open Cert.KernelIdeal Idealize.ShloMosaic Idealize.ShloMosaic.ValueIdx

/-- What the comparisons and the signed reading give on a word below 8. -/
theorem small_word (n : ℕ) (hn : n < 8) :
    IntOp.cmpi .slt (BitVec.ofNat 32 n) 0#32 = 0#1 ∧ IntOp.cmpi .sge (BitVec.ofNat 32 n) 0#32 = 1#1
      ∧ IntOp.cmpi .sle (BitVec.ofNat 32 n) 7#32 = 1#1 ∧ (BitVec.ofNat 32 n).toInt.toNat = n := by
  interval_cases n <;> decide

/-- A left fold by and, from 1, over words all 1 is 1. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a]
    exact foldl_andi_one g hg l

variable [Cert.KernelIdeal.Facts]

/-- The gather along the columns, read at [r, z]: the operand at row r, at the column the start index names, read
    signed and clamped into 0..7. -/
theorem gather_cols_apply (x : IVec S32768x8 32) (idx : IVec S32768x1x1 32) (r : Fin 32768) (z : Fin 1) :
    Host.gather gather_S32768x8_S32768x1x1_S32768x1_n_1_0_0_1_2_11 x idx (ix2 r z)
      = x (ix2 r ⟨min (idx (ix3 r z (0 : Fin 1))).toInt.toNat 7, by omega⟩) := by
  unfold Host.gather
  congr 1
  funext a
  refine Fin.ext ?_
  show gather_S32768x8_S32768x1x1_S32768x1_n_1_0_0_1_2_11.start (ix2 r z) idx a
    + gather_S32768x8_S32768x1x1_S32768x1_n_1_0_0_1_2_11.batchCoord (ix2 r z) a
    + gather_S32768x8_S32768x1x1_S32768x1_n_1_0_0_1_2_11.offCoord (ix2 r z) a = _
  match a with
  | ⟨0, h0⟩ =>
    have hmem : (⟨0, h0⟩ : Fin S32768x8.rank) ∈ gather_S32768x8_S32768x1x1_S32768x1_n_1_0_0_1_2_11.operandBatchingDims :=
      List.mem_singleton.mpr rfl
    rw [GatherDims.start_batching _ _ _ _ hmem,
      GatherDims.offCoord_eq_zero _ _ _ (fun h => ((GatherDims.mem_sKept _ _).mp h).2 hmem)]
    unfold GatherDims.batchCoord
    rw [dif_pos hmem, Nat.zero_add, Nat.add_zero]
    rfl
  | ⟨1, h1⟩ =>
    have hmem : (⟨1, h1⟩ : Fin S32768x8.rank) ∈ gather_S32768x8_S32768x1x1_S32768x1_n_1_0_0_1_2_11.collapsedSliceDims :=
      List.mem_singleton.mpr rfl
    have hsim : (⟨1, h1⟩ : Fin S32768x8.rank) ∈ gather_S32768x8_S32768x1x1_S32768x1_n_1_0_0_1_2_11.startIndexMap :=
      List.mem_singleton.mpr rfl
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 hmem)]
    unfold GatherDims.start
    rw [dif_pos hsim]
    have hsi : gather_S32768x8_S32768x1x1_S32768x1_n_1_0_0_1_2_11.siIdx (ix2 r z)
        ⟨List.idxOf (⟨1, h1⟩ : Fin S32768x8.rank) gather_S32768x8_S32768x1x1_S32768x1_n_1_0_0_1_2_11.startIndexMap,
          List.idxOf_lt_length_iff.2 hsim⟩ = ix3 r z (0 : Fin 1) := by
      funext b
      refine Fin.ext ?_
      match b with
      | ⟨0, _⟩ => rfl
      | ⟨1, _⟩ => rfl
      | ⟨2, _⟩ => rfl
    rw [hsi]
    simp only [Nat.add_zero]
    rfl

/-- The same when the start index at [r, z, 0] is a word v below 8: the operand at row r, column v. -/
theorem gather_cols_small (x : IVec S32768x8 32) (idx : IVec S32768x1x1 32) (r : Fin 32768) (z : Fin 1) (v : ℕ)
    (hv : v < 8) (hidx : idx (ix3 r z (0 : Fin 1)) = BitVec.ofNat 32 v) :
    Host.gather gather_S32768x8_S32768x1x1_S32768x1_n_1_0_0_1_2_11 x idx (ix2 r z) = x (ix2 r ⟨v, hv⟩) := by
  refine (gather_cols_apply x idx r z).trans (congrArg x (congrArg (ix2 r) (Fin.ext ?_)))
  show min (idx (ix3 r z (0 : Fin 1))).toInt.toNat 7 = v
  rw [hidx, (small_word v hv).2.2.2]
  exact Nat.min_eq_left (Nat.le_of_lt_succ hv)

end Cert.KernelIdeal.CumRead

end
-- ==== Proof.RankRead.lean ====
/-
  The rank of a row among the rows of its label, read at a row.

  The label of row r is a number below 8, so the test "label < 0" fails and the column index the row takes is the
  label itself; that index lies in 0..7, so the in-range flag is 1; the row takes entry [r, label r] of the table of
  running counts, which is the number of rows up to r with that label; the rank is that count less one.
-/
import proofs.«123552_j1236950581828_2_alg».proof.Proof.Chain
import proofs.«123552_j1236950581828_2_alg».proof.Proof.Model
import proofs.«123552_j1236950581828_2_alg».proof.Proof.ModelFacts
import Idealize.ShloMosaic.Lib.ValueIdx
import Idealize.ShloMosaic.Lib.Pipeline.Value
import Idealize.ShloMosaic.Lib.Affine
import proofs.«123552_j1236950581828_2_alg».proof.Proof.CumRead3
import proofs.«123552_j1236950581828_2_alg».proof.Proof.CumRead4

noncomputable section

namespace Cert.KernelIdeal.RankRead

open Cert.KernelIdeal Idealize.ShloMosaic Idealize.ShloMosaic.ValueIdx

variable [Cert.KernelIdeal.Facts] (ty : IVec S32768 32)

/-- A natural number below 2^31 read back signed off its 32-bit word is itself. -/
theorem toInt_small (n : ℕ) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The labels as a column: entry [r, 0] is the label of row r. -/
theorem col_apply (r : Fin 32768) (z : Fin 1) :
    broadcastInDim S32768x1 ![0] Facts₀.bcast_S32768_S32768x1_0 ty (ix2 r z) = ty (ix1 r) := by
  refine broadcastInDim_apply _ _ _ (ix2 r z) (ix1 r) ?_
  intro a
  match a with
  | ⟨0, _⟩ => rfl

/-- A left fold by "and" from 1 over words that are all 1 is 1. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    have e : IntOp.andi (1#1) (g a) = 1#1 := by rw [hg a]; rfl
    show l.foldl (fun r n => IntOp.andi r (g n)) (IntOp.andi 1#1 (g a)) = 1#1
    rw [e]
    exact ih

variable (f : Fin 32768 → Fin 8) (hf : ∀ r : Fin 32768, ty (ix1 r) = BitVec.ofNat 32 (f r).val)

include hf in
/-- The label is not negative, so the normalized column holds the label itself. -/
theorem normCol_apply (r : Fin 32768) (z : Fin 1) :
    Chain.normCol ty (ix2 r z) = BitVec.ofNat 32 (f r).val := by
  unfold Chain.normCol
  show Scalar.select
      (IntOp.cmpi .slt (broadcastInDim S32768x1 ![0] Facts₀.bcast_S32768_S32768x1_0 ty (ix2 r z)) 0#32)
      (IntOp.addi (broadcastInDim S32768x1 ![0] Facts₀.bcast_S32768_S32768x1_0 ty (ix2 r z)) 8#32)
      (broadcastInDim S32768x1 ![0] Facts₀.bcast_S32768_S32768x1_0 ty (ix2 r z)) = _
  rw [col_apply, hf r]
  have hc : IntOp.cmpi .slt (BitVec.ofNat 32 (f r).val) 0#32 = 0#1 := by
    apply eq_zero_of_ne_one
    rw [IntOp.cmpi_slt, toInt_small (f r).val (by have := (f r).isLt; omega), toInt_small 0 (by omega)]
    omega
  rw [hc, select_zero]

include hf in
/-- The column index row r takes from the table of running counts is its label. -/
theorem takeIdx_apply (r : Fin 32768) (z z' : Fin 1) :
    Chain.takeIdx ty (ix3 r z z') = BitVec.ofNat 32 (f r).val := by
  unfold Chain.takeIdx
  refine (shapeCast_apply _ _ (ix3 r z z') (ix2 r (0 : Fin 1)) ?_).trans (normCol_apply ty f hf r 0)
  rw [Shape.rowMajor_val_two, Shape.rowMajor_val_three]
  have h1 := z.isLt
  have h2 := z'.isLt
  show r.val * 1 + 0 = (r.val * 1 + z.val) * 1 + z'.val
  omega

include hf in
/-- Every column index lies in 0..7. -/
theorem inb_all (i : S32768x1x1.Idx) :
    andi (cmpi .sge (Chain.takeIdx ty) (broadcastInDim S32768x1x1 ![] Facts₀.bcast_S_S32768x1x1 (constantI S_ 32 0#32)))
      (cmpi .sle (Chain.takeIdx ty) (broadcastInDim S32768x1x1 ![0, 1, 2] Facts₀.bcast_S1x1x1_S32768x1x1_0_1_2
        (broadcastInDim S1x1x1 ![2] Facts₀.bcast_S1_S1x1x1_2 (constantI S1 32 7#32)))) i = 1#1 := by
  obtain ⟨p, q, w, rfl⟩ : ∃ (p : Fin 32768) (q : Fin 1) (w : Fin 1), i = ix3 p q w := ⟨i 0, i 1, i 2, eq_ix3 i⟩
  show IntOp.andi (IntOp.cmpi .sge (Chain.takeIdx ty (ix3 p q w)) 0#32)
      (IntOp.cmpi .sle (Chain.takeIdx ty (ix3 p q w)) 7#32) = 1#1
  rw [takeIdx_apply ty f hf]
  have hlt := (f p).isLt
  have h1 : IntOp.cmpi .sge (BitVec.ofNat 32 (f p).val) 0#32 = 1#1 := by
    rw [IntOp.cmpi_sge, toInt_small (f p).val (by omega), toInt_small 0 (by omega)]
    omega
  have h2 : IntOp.cmpi .sle (BitVec.ofNat 32 (f p).val) 7#32 = 1#1 := by
    rw [IntOp.cmpi_sle, toInt_small (f p).val (by omega), toInt_small 7 (by omega)]
    omega
  rw [h1, h2]
  rfl

include hf in
/-- The in-range flag of every row is 1. -/
theorem takeInb_apply (j : S32768x1.Idx) : Chain.takeInb ty j = 1#1 := by
  unfold Chain.takeInb Host.reduce
  exact foldl_andi_one _ _ (fun n => inb_all ty f hf _)

include hf in
/-- Row r takes entry [r, label r] of the table of running counts. -/
theorem taken_apply (r : Fin 32768) (z : Fin 1) :
    Chain.taken ty (ix2 r z) = Chain.cum ty (ix2 r (f r)) := by
  unfold Chain.taken
  show Scalar.select (Chain.takeInb ty (ix2 r z))
      (Host.gather gather_S32768x8_S32768x1x1_S32768x1_n_1_0_0_1_2_11 (Chain.cum ty) (Chain.takeIdx ty) (ix2 r z))
      2147483648#32 = _
  rw [takeInb_apply ty f hf, select_one]
  exact CumRead.gather_cols_small (Chain.cum ty) (Chain.takeIdx ty) r z (f r).val (f r).isLt
    (takeIdx_apply ty f hf r z 0)

/-- A word whose number is a count between 1 and 32768, less one, is the word of the count less one. -/
theorem sub_one_word (w : BitVec 32) (c : ℕ) (hw : w.toNat = c) (h1 : 1 ≤ c) (h2 : c ≤ 32768) :
    IntOp.subi w 1#32 = BitVec.ofNat 32 (c - 1) := by
  apply BitVec.eq_of_toNat_eq
  show (w - 1#32).toNat = (BitVec.ofNat 32 (c - 1)).toNat
  rw [BitVec.toNat_sub, BitVec.toNat_ofNat, BitVec.toNat_ofNat, hw]
  omega

include hf in
/-- The rank of row r is the number of rows up to r with its label, less one; given the table of running counts. -/
theorem rank_eq_of (hcum : ∀ (r : Fin 32768) (t : Fin 8), (Chain.cum ty (ix2 r t)).toNat = Cert.Model.cnt f t r)
    (r : Fin 32768) : Chain.rank ty (ix1 r) = BitVec.ofNat 32 (Cert.Model.cnt f (f r) r - 1) := by
  unfold Chain.rank
  show IntOp.subi (shapeCast S32768 (Chain.taken ty) Facts₀.shapeCasts_S32768x1_S32768 (ix1 r)) 1#32 = _
  have hs : shapeCast S32768 (Chain.taken ty) Facts₀.shapeCasts_S32768x1_S32768 (ix1 r)
      = Chain.taken ty (ix2 r (0 : Fin 1)) := by
    refine shapeCast_apply _ _ (ix1 r) (ix2 r (0 : Fin 1)) ?_
    rw [Shape.rowMajor_val_one, Shape.rowMajor_val_two]
    show r.val * 1 + 0 = r.val
    omega
  rw [hs, taken_apply ty f hf r 0]
  have h1 := Cert.Model.cnt_pos f r
  have h2 := Cert.Model.cnt_le_count f (f r) r
  have h3 := Cert.Model.count_le f (f r)
  exact sub_one_word _ _ (hcum r (f r)) h1 (le_trans h2 h3)

include hf in
/-- The rank of row r is the number of rows up to r with its label, less one. -/
theorem rank_eq (r : Fin 32768) :
    Chain.rank ty (ix1 r) = BitVec.ofNat 32 (Cert.Model.cnt f (f r) r - 1) :=
  rank_eq_of ty f hf (fun r t => CumRead.cum_toNat ty f hf r t) r

end Cert.KernelIdeal.RankRead

end
-- ==== Proof.StartRead4.lean ====
/-
  The padded row of every row, read as a natural number.

  Row r takes the start of its label's group — a gather along the 8 group starts at the label, a start index read
  signed and clamped into 0..7, which a label in 0..7 is not changed by, nor by the step that counts a negative
  label from the end — and adds its position among the rows of its label.  A start is at most 270328 and a position
  at most 32767, so the sum does not wrap, is not negative as a signed word, and the step that counts a negative
  row index from the end leaves it as it is.
-/
import proofs.«123552_j1236950581828_2_alg».proof.Proof.StartRead3

noncomputable section

namespace Cert.KernelIdeal.StartRead

open Idealize.ShloMosaic Idealize.ShloMosaic.ValueIdx Cert.KernelIdeal

variable [Cert.KernelIdeal.Facts]
open Facts₀ Facts

/-! ## A gather along 8 words, and a vector as a column -/

/-- The gather of 8 elements at a column of 32768 start indices, read at row r: the element at the start index of
    row r, read signed and clamped into 0..7. -/
theorem gather8_apply {α : Type} (x : S8.Idx → α) (idx : IVec S32768x1 32) (r : Fin 32768) :
    Host.gather gather_S8_S32768x1_S32768_n_0_n_n_0_1_1 x idx (ix1 r)
      = x (ix1 ⟨min (idx (ix2 r 0)).toInt.toNat 7, by omega⟩) := by
  unfold Host.gather
  congr 1
  funext a
  obtain rfl : a = 0 := Subsingleton.elim _ _
  refine Fin.ext ?_
  show gather_S8_S32768x1_S32768_n_0_n_n_0_1_1.start (ix1 r) idx 0
    + gather_S8_S32768x1_S32768_n_0_n_n_0_1_1.batchCoord (ix1 r) 0
    + gather_S8_S32768x1_S32768_n_0_n_n_0_1_1.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S32768x1_S32768_n_0_n_n_0_1_1.startIndexMap from List.mem_singleton.mpr rfl)]
  have hsi : gather_S8_S32768x1_S32768_n_0_n_n_0_1_1.siIdx (ix1 r)
      ⟨List.idxOf (0 : Fin 1) gather_S8_S32768x1_S32768_n_0_n_n_0_1_1.startIndexMap,
        List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- A vector of 32768 entries laid out as a column, read at row r. -/
theorem col_apply {α : Type} (v : S32768.Idx → α) (r : Fin 32768) :
    broadcastInDim S32768x1 ![0] bcast_S32768_S32768x1_0 v (ix2 r 0) = v (ix1 r) :=
  broadcastInDim_apply _ _ _ _ (ix1 r) fun a => by
    obtain rfl : a = 0 := Subsingleton.elim _ _
    rw [if_neg (by decide)]
    rfl

/-! ## The labels, the padded rows -/

variable (ty : IVec S32768 32) (f : Fin 32768 → Fin 8)
  (hf : ∀ r : Fin 32768, ty (ix1 r) = BitVec.ofNat 32 (f r).val)
  (hcounts : ∀ t : Fin 8, (Chain.counts ty (ix1 t)).toNat = Cert.Model.count f t)
  (hrank : ∀ r : Fin 32768, Chain.rank ty (ix1 r) = BitVec.ofNat 32 (Cert.Model.cnt f (f r) r - 1))

theorem normTy_apply (r : Fin 32768) :
    Chain.normTy ty (ix1 r)
      = Scalar.select (IntOp.cmpi .slt (ty (ix1 r)) 0#32) (IntOp.addi (ty (ix1 r)) 8#32) (ty (ix1 r)) := rfl

include hf in
/-- A label in 0..7 is not negative: it is left as it is. -/
theorem normTy_eq (r : Fin 32768) : Chain.normTy ty (ix1 r) = BitVec.ofNat 32 (f r).val := by
  have h8 := (f r).isLt
  have hlt : (ty (ix1 r)).toNat < 2 ^ 31 := by rw [hf, toNat_ofNat_of_lt (by omega)]; omega
  rw [normTy_apply, Scalar.select, if_neg (show ¬ _ = (1 : BitVec 1) from cmpi_slt_zero_ne_one hlt), hf]

theorem dest_apply (r : Fin 32768) :
    Chain.dest ty (ix1 r)
      = IntOp.addi (Host.gather gather_S8_S32768x1_S32768_n_0_n_n_0_1_1 (Chain.pstart ty)
          (broadcastInDim S32768x1 ![0] bcast_S32768_S32768x1_0 (Chain.normTy ty)) (ix1 r)) (Chain.rank ty (ix1 r)) := rfl

include hf in
/-- The gather takes the start of the group of row r's label. -/
theorem gather_pstart (r : Fin 32768) :
    Host.gather gather_S8_S32768x1_S32768_n_0_n_n_0_1_1 (Chain.pstart ty)
      (broadcastInDim S32768x1 ![0] bcast_S32768_S32768x1_0 (Chain.normTy ty)) (ix1 r) = Chain.pstart ty (ix1 (f r)) := by
  have h8 := (f r).isLt
  rw [gather8_apply]
  refine congrArg (Chain.pstart ty) (congrArg ix1 (Fin.ext ?_))
  show min ((broadcastInDim S32768x1 ![0] bcast_S32768_S32768x1_0 (Chain.normTy ty)) (ix2 r 0)).toInt.toNat 7 = (f r).val
  rw [col_apply, normTy_eq ty f hf r, toInt_of_lt (by rw [toNat_ofNat_of_lt (by omega)]; omega),
    toNat_ofNat_of_lt (by omega), Int.toNat_natCast]
  exact Nat.min_eq_left (by omega)

theorem dst_lt (r : Fin 32768) : Cert.Model.dst f r < 2 ^ 31 := by
  unfold Cert.Model.dst
  have := ps_le f (f r)
  have := cnt_le f (f r) r
  omega

include hf hcounts hrank in
theorem dest_toNat (r : Fin 32768) : (Chain.dest ty (ix1 r)).toNat = Cert.Model.dst f r := by
  have hps := pstart_toNat ty f hcounts (f r)
  have hpsle := ps_le f (f r)
  have hcl := cnt_le f (f r) r
  have hcp := cnt_pos f r
  have hr : (BitVec.ofNat 32 (Cert.Model.cnt f (f r) r - 1)).toNat = Cert.Model.cnt f (f r) r - 1 :=
    toNat_ofNat_of_lt (by omega)
  rw [dest_apply, gather_pstart ty f hf r, hrank r, toNat_addi (by rw [hps, hr]; omega), hps, hr]
  unfold Cert.Model.dst
  omega

include hf hcounts hrank in
/-- The padded row as a row index: it is not negative, so it is not counted from the end. -/
theorem destIdx_apply (r : Fin 32768) : Chain.destIdx ty (ix2 r 0) = BitVec.ofNat 32 (Cert.Model.dst f r) := by
  have hd := dest_toNat ty f hf hcounts hrank r
  have hlt := dst_lt f r
  unfold Chain.destIdx
  rw [col_apply]
  show Scalar.select (IntOp.cmpi .slt (Chain.dest ty (ix1 r)) 0#32) (IntOp.addi (Chain.dest ty (ix1 r)) 40960#32)
    (Chain.dest ty (ix1 r)) = _
  rw [Scalar.select, if_neg (show ¬ _ = (1 : BitVec 1) from cmpi_slt_zero_ne_one (by rw [hd]; exact hlt))]
  exact eq_ofNat_of_toNat hd

end Cert.KernelIdeal.StartRead

end
-- ==== Proof.LibScatterWindow.lean ====
/-
  A host scatter read at an index.

  The host's scatter is a left fold over the update indices in row-major order: each update whose result index lies
  inside the operand replaces the element there by the body applied to that element and the update.  When distinct
  updates land on distinct elements, the result at an element is the body applied once — to the operand's element and
  the one update that lands there — or the operand's element untouched when none does.  For the window scatter of an
  [n, h, w] array of updates into an [n, H, W] operand at a literal start (oi, oj) on the last two axes, update
  (b, u, v) lands on (b, u + oi, v + oj): the result at (b, r, s) is the body of the operand's element and update
  (b, r − oi, s − oj) when (r, s) lies in the window, the operand's element otherwise.
-/
import Idealize.ShloMosaic.PureOps.ShapeOps
import Idealize.ShloMosaic.Lib.ValueIdx

noncomputable section

namespace ScatterWindow

open Idealize.ShloMosaic Idealize.ShloMosaic.ValueIdx

/-! ## A fold of point updates -/

/-- One step of a fold of point updates.  Item `n` names at most one place `g n`: when it names `i`, the value there is
    replaced by the body `f` of that value and the item's value `v n`; when it names none, nothing changes. -/
def updStep {ι κ α : Type} [DecidableEq κ] (g : ι → Option κ) (f : α → α → α) (v : ι → α) (r : κ → α) (n : ι) : κ → α :=
  match g n with
  | some i => fun i' => if i' = i then f (r i) (v n) else r i'
  | none => r

/-- At the place the item names, a step applies the body to the old value and the item's value. -/
theorem updStep_of_eq {ι κ α : Type} [DecidableEq κ] (g : ι → Option κ) (f : α → α → α) (v : ι → α) (r : κ → α)
    {n : ι} {k : κ} (h : g n = some k) : updStep g f v r n k = f (r k) (v n) := by
  unfold updStep; rw [h]; exact if_pos rfl

/-- At a place the item does not name, a step changes nothing. -/
theorem updStep_of_ne {ι κ α : Type} [DecidableEq κ] (g : ι → Option κ) (f : α → α → α) (v : ι → α) (r : κ → α)
    {n : ι} {k : κ} (h : g n ≠ some k) : updStep g f v r n k = r k := by
  unfold updStep
  cases hg : g n with
  | none => rfl
  | some i =>
    have hki : k ≠ i := fun e => h (by rw [hg, e])
    exact if_neg hki

/-- A fold of point updates leaves a place alone when no item of the list names it. -/
theorem foldl_updStep_of_miss {ι κ α : Type} [DecidableEq κ] (g : ι → Option κ) (f : α → α → α) (v : ι → α)
    (l : List ι) (x : κ → α) (k : κ) (h : ∀ n ∈ l, g n ≠ some k) : l.foldl (updStep g f v) x k = x k := by
  induction l generalizing x with
  | nil => rfl
  | cons m l ih =>
    rw [List.foldl_cons, ih _ (fun n hn => h n (List.mem_cons_of_mem _ hn)),
      updStep_of_ne g f v x (h m List.mem_cons_self)]

/-- A fold of point updates over a list without repeats, when distinct items of the list never name the same place `k`:
    if item `n` of the list names `k`, the result at `k` is the body applied ONCE, to the initial value there and that
    item's value. -/
theorem foldl_updStep_of_hit {ι κ α : Type} [DecidableEq κ] (g : ι → Option κ) (f : α → α → α) (v : ι → α)
    (l : List ι) (hl : l.Nodup) (k : κ) (hinj : ∀ n ∈ l, ∀ m ∈ l, g n = some k → g m = some k → n = m)
    (x : κ → α) (n : ι) (hn : n ∈ l) (hg : g n = some k) : l.foldl (updStep g f v) x k = f (x k) (v n) := by
  induction l generalizing x with
  | nil => exact absurd hn List.not_mem_nil
  | cons m l ih =>
    rw [List.foldl_cons]
    have hm : m ∉ l := (List.nodup_cons.1 hl).1
    have hl' : l.Nodup := (List.nodup_cons.1 hl).2
    rcases List.mem_cons.1 hn with hnm | hn'
    · subst hnm
      rw [foldl_updStep_of_miss g f v l _ k ?_, updStep_of_eq g f v x hg]
      intro n' hn' hg'
      have e := hinj n' (List.mem_cons_of_mem _ hn') n List.mem_cons_self hg' hg
      subst e; exact hm hn'
    · have hgm : g m ≠ some k := fun hgm => by
        have e := hinj m List.mem_cons_self n hn hgm hg
        subst e; exact hm hn'
      rw [ih hl' (fun a ha c hc => hinj a (List.mem_cons_of_mem _ ha) c (List.mem_cons_of_mem _ hc)) _ hn',
        updStep_of_ne g f v x hgm]

/-! ## The host's scatter as such a fold -/

/-- The host's scatter is the fold of point updates over the update indices in row-major order, update `n` naming its
    result index when that lies inside the operand. -/
theorem scatter_eq_foldl {s si u : Shape} {α : Type} {w : Nat} (d : ScatterDims s si u) (f : α → α → α) (x : s.Idx → α)
    (idx : IVec si w) (upd : u.Idx → α) :
    Host.scatter d f x idx upd
      = (List.finRange u.numel).foldl
          (updStep (fun n => d.resultIdx? (u.rowMajor.symm n) idx) f (fun n => upd (u.rowMajor.symm n))) x := by
  unfold Host.scatter
  congr 1
  funext r n
  unfold updStep
  dsimp only
  cases d.resultIdx? (u.rowMajor.symm n) idx <;> rfl

/-- A scatter whose updates land on pairwise distinct elements, read at the element update `j` lands on: the body of the
    operand's element and that update. -/
theorem scatter_apply_of_hit {s si u : Shape} {α : Type} {w : Nat} (d : ScatterDims s si u) (f : α → α → α) (x : s.Idx → α)
    (idx : IVec si w) (upd : u.Idx → α) (i : s.Idx)
    (hinj : ∀ j j' : u.Idx, d.resultIdx? j idx = some i → d.resultIdx? j' idx = some i → j = j')
    (j : u.Idx) (hj : d.resultIdx? j idx = some i) : Host.scatter d f x idx upd i = f (x i) (upd j) := by
  rw [scatter_eq_foldl]
  refine (foldl_updStep_of_hit _ f _ _ (List.nodup_finRange _) i ?_ x (u.rowMajor j) (List.mem_finRange _) ?_).trans ?_
  · intro n _ m _ hn hm
    exact u.rowMajor.symm.injective (hinj _ _ hn hm)
  · show d.resultIdx? (u.rowMajor.symm (u.rowMajor j)) idx = some i
    rw [Equiv.symm_apply_apply]; exact hj
  · show f (x i) (upd (u.rowMajor.symm (u.rowMajor j))) = _
    rw [Equiv.symm_apply_apply]

/-- A scatter read at an element no update lands on: the operand's element. -/
theorem scatter_apply_of_miss {s si u : Shape} {α : Type} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  rw [scatter_eq_foldl]
  exact foldl_updStep_of_miss _ f _ _ x i (fun n _ => h _)

/-! ## The window scatter's result index -/

/-- A small natural number read back signed off its 32-bit word is itself. -/
theorem toInt_ofNat_small (o : Nat) (h : o ≤ 2) : (BitVec.ofNat 32 o).toInt = (o : Int) := by
  interval_cases o <;> rfl

/-- Two rank-3 indices given by coordinates are equal only when the coordinates are. -/
theorem ix3_inj {n0 n1 n2 : Nat} {a a' : Fin n0} {b b' : Fin n1} {c c' : Fin n2} (h : ix3 a b c = ix3 a' b' c') :
    a = a' ∧ b = b' ∧ c = c' := by
  have e0 := congrFun h ⟨0, (by decide : (0 : Nat) < 3)⟩
  have e1 := congrFun h ⟨1, (by decide : (1 : Nat) < 3)⟩
  have e2 := congrFun h ⟨2, (by decide : (2 : Nat) < 3)⟩
  exact ⟨e0, e1, e2⟩

/-- With the index vector on the scatter indices' one axis, the start's first component (for operand axis 1) is the
    scatter indices' word 0, read signed. -/
theorem start_one (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 1
      = (idx (ix1 (0 : Fin 2))).toInt := by
  have hm : (1 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- … and its second component (for operand axis 2) is word 1. -/
theorem start_two (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 2
      = (idx (ix1 (1 : Fin 2))).toInt := by
  have hm : (2 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- The window scatter's result index: update (b, u, v) lands on (b, u + oi, v + oj), always inside the operand. -/
theorem resultIdx_window
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0) (idx : IVec (⟨1, ![2]⟩ : Shape) 32) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (u v : Fin 256) :
    d.resultIdx? (ix3 b u v) idx = some (ix3 b ⟨u.val + oi, by omega⟩ ⟨v.val + oj, by omega⟩) := by
  obtain ⟨uw, iw, sd, iv, wf⟩ := d
  dsimp only at hu hi hs hv
  subst hu hi hs hv
  have key : ∀ a : Fin (⟨3, ![8, 258, 258]⟩ : Shape).rank,
      (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      = (((ix3 b ⟨u.val + oi, by omega⟩ ⟨v.val + oj, by omega⟩ : (⟨3, ![8, 258, 258]⟩ : Shape).Idx) a).val : Int) := by
    intro a
    match a with
    | ⟨0, _⟩ => exact Int.zero_add _
    | ⟨1, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 1 = (oi : Int) := by
        rw [start_one, h0]; exact toInt_ofNat_small oi hoi
      show (⟨[0, 1, 2], [], [1, 2], 0, wf⟩ : ScatterDims (⟨3, ![8, 258, 258]⟩ : Shape) (⟨1, ![2]⟩ : Shape) (⟨3, ![8, 256, 256]⟩ : Shape)).start (ix3 b u v) idx 1 + (u.val : Int) = ((u.val + oi : Nat) : Int)
      rw [e]; omega
    | ⟨2, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 2 = (oj : Int) := by
        rw [start_two, h1]; exact toInt_ofNat_small oj hoj
      show (⟨[0, 1, 2], [], [1, 2], 0, wf⟩ : ScatterDims (⟨3, ![8, 258, 258]⟩ : Shape) (⟨1, ![2]⟩ : Shape) (⟨3, ![8, 256, 256]⟩ : Shape)).start (ix3 b u v) idx 2 + (v.val : Int) = ((v.val + oj : Nat) : Int)
      rw [e]; omega
  unfold ScatterDims.resultIdx?
  have hall : ∀ a : Fin (⟨3, ![8, 258, 258]⟩ : Shape).rank,
      0 ≤ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      ∧ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
        < ((⟨3, ![8, 258, 258]⟩ : Shape).size a : Int) := by
    intro a
    rw [key a]
    exact ⟨Int.natCast_nonneg _, Int.ofNat_lt.2 (Fin.isLt _)⟩
  rw [dif_pos hall]
  refine congrArg some ?_
  funext a
  apply Fin.ext
  show ((⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)).toNat = _
  rw [key a]
  exact Int.toNat_natCast _

/-- The scatter of an [8, 256, 256] array of updates into an [8, 258, 258] operand along the last two axes, whole
    update windows, the one start index (oi, oj) read off a two-word index vector: at (b, r, s) inside the window the
    body of the operand's element and update (b, r − oi, s − oj); outside, the operand's element. -/
theorem scatter_window_apply {α : Type}
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0)
    (f : α → α → α) (x : (⟨3, ![8, 258, 258]⟩ : Shape).Idx → α) (idx : IVec (⟨1, ![2]⟩ : Shape) 32)
    (upd : (⟨3, ![8, 256, 256]⟩ : Shape).Idx → α) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (r s : Fin 258) :
    Host.scatter d f x idx upd (ix3 b r s)
      = if h : oi ≤ r.val ∧ r.val < oi + 256 ∧ oj ≤ s.val ∧ s.val < oj + 256 then
          f (x (ix3 b r s)) (upd (ix3 b ⟨r.val - oi, by omega⟩ ⟨s.val - oj, by omega⟩))
        else x (ix3 b r s) := by
  have hres : ∀ (b' : Fin 8) (u v : Fin 256),
      d.resultIdx? (ix3 b' u v) idx = some (ix3 b' ⟨u.val + oi, by omega⟩ ⟨v.val + oj, by omega⟩) :=
    fun b' u v => resultIdx_window d hu hi hs hv idx oi oj hoi hoj h0 h1 b' u v
  by_cases h : oi ≤ r.val ∧ r.val < oi + 256 ∧ oj ≤ s.val ∧ s.val < oj + 256
  · rw [dif_pos h]
    refine scatter_apply_of_hit d f x idx upd (ix3 b r s) ?_
      (ix3 b ⟨r.val - oi, by omega⟩ ⟨s.val - oj, by omega⟩) ?_
    · intro j j' hj hj'
      obtain ⟨b1, u1, v1, rfl⟩ : ∃ (b1 : Fin 8) (u1 v1 : Fin 256), j = ix3 b1 u1 v1 := ⟨j 0, j 1, j 2, eq_ix3 j⟩
      obtain ⟨b2, u2, v2, rfl⟩ : ∃ (b2 : Fin 8) (u2 v2 : Fin 256), j' = ix3 b2 u2 v2 := ⟨j' 0, j' 1, j' 2, eq_ix3 j'⟩
      rw [hres] at hj hj'
      obtain ⟨e0, e1, e2⟩ := ix3_inj ((Option.some.inj hj).trans (Option.some.inj hj').symm)
      have e1' := congrArg Fin.val e1
      have e2' := congrArg Fin.val e2
      have hu : u1 = u2 := Fin.ext (by simpa using e1')
      have hv : v1 = v2 := Fin.ext (by simpa using e2')
      rw [e0, hu, hv]
    · rw [hres]
      refine congrArg some ?_
      have er : (⟨r.val - oi + oi, by omega⟩ : Fin 258) = r := Fin.ext (by show r.val - oi + oi = r.val; omega)
      have es : (⟨s.val - oj + oj, by omega⟩ : Fin 258) = s := Fin.ext (by show s.val - oj + oj = s.val; omega)
      exact congrArg₂ (ix3 b) er es
  · rw [dif_neg h]
    refine scatter_apply_of_miss d f x idx upd _ ?_
    intro j hj
    obtain ⟨b1, u1, v1, rfl⟩ : ∃ (b1 : Fin 8) (u1 v1 : Fin 256), j = ix3 b1 u1 v1 := ⟨j 0, j 1, j 2, eq_ix3 j⟩
    rw [hres] at hj
    obtain ⟨_, e1, e2⟩ := ix3_inj (Option.some.inj hj)
    have e1' : u1.val + oi = r.val := congrArg Fin.val e1
    have e2' : v1.val + oj = s.val := congrArg Fin.val e2
    have hu1 : u1.val < 256 := u1.isLt
    have hv1 : v1.val < 256 := v1.isLt
    exact h (by omega)

end ScatterWindow

end
-- ==== Proof.RowMove.lean ====
/-
  Moving whole rows with the host's scatter and gather.

  A [32768, 512] array of updates is scattered row by row into a [40960, 512] operand, update row r going to the row
  whose number is word r of a [32768, 1] column of indices: update (r, k) lands on (v, k) when that word is the
  number v < 40960.  The gather that takes row r of the result from the row of a [40960, 512] operand named by word r
  of such a column reads operand entry (v, o) for result entry (r, o).
-/
import Idealize.ShloMosaic.PureOps.ShapeOps
import Idealize.ShloMosaic.Lib.ValueIdx
import proofs.«123552_j1236950581828_2_alg».proof.Proof.LibScatterWindow

noncomputable section

namespace RowMove

open Idealize.ShloMosaic Idealize.ShloMosaic.ValueIdx

/-- A natural number below 2^31 read back signed off its 32-bit word is itself. -/
theorem toInt_ofNat_lt (v : Nat) (h : v < 2 ^ 31) : (BitVec.ofNat 32 v).toInt = (v : Int) := by
  rw [BitVec.toInt_eq_toNat_cond, BitVec.toNat_ofNat]
  have e : v % 2 ^ 32 = v := Nat.mod_eq_of_lt (by omega)
  rw [e, if_pos (by omega)]

/-- Two rank-2 indices given by coordinates are equal only when the coordinates are. -/
theorem ix2_inj {n0 n1 : Nat} {a a' : Fin n0} {b b' : Fin n1} (h : ix2 a b = ix2 a' b') : a = a' ∧ b = b' := by
  have e0 := congrFun h ⟨0, (by decide : (0 : Nat) < 2)⟩
  have e1 := congrFun h ⟨1, (by decide : (1 : Nat) < 2)⟩
  exact ⟨e0, e1⟩

/-- The row scatter's result index: update (r, k) lands on (v, k), v the number in word r of the index column. -/
theorem resultIdx_rows
    (d : ScatterDims (⟨2, ![40960, 512]⟩ : Shape) (⟨2, ![32768, 1]⟩ : Shape) (⟨2, ![32768, 512]⟩ : Shape))
    (hu : d.updateWindowDims = [1]) (hi : d.insertedWindowDims = [0]) (hs : d.scatterDimsToOperandDims = [0])
    (hv : d.indexVectorDim = 1) (idx : IVec (⟨2, ![32768, 1]⟩ : Shape) 32) (r : Fin 32768) (k : Fin 512)
    (v : Nat) (hv' : v < 40960) (h0 : idx (ix2 r (0 : Fin 1)) = BitVec.ofNat 32 v) :
    d.resultIdx? (ix2 r k) idx = some (ix2 ⟨v, hv'⟩ k) := by
  obtain ⟨uw, iw, sd, iv, wf⟩ := d
  dsimp only at hu hi hs hv
  subst hu hi hs hv
  have hstart0 : (⟨[1], [0], [0], 1, wf⟩ : ScatterDims (⟨2, ![40960, 512]⟩ : Shape) (⟨2, ![32768, 1]⟩ : Shape) (⟨2, ![32768, 512]⟩ : Shape)).start (ix2 r k) idx 0 = (v : Int) := by
    have hm : (0 : Fin (⟨2, ![40960, 512]⟩ : Shape).rank) ∈ ([0] : List (Fin (⟨2, ![40960, 512]⟩ : Shape).rank)) := by decide
    unfold ScatterDims.start
    rw [dif_pos hm]
    have e : (⟨[1], [0], [0], 1, wf⟩ : ScatterDims (⟨2, ![40960, 512]⟩ : Shape) (⟨2, ![32768, 1]⟩ : Shape) (⟨2, ![32768, 512]⟩ : Shape)).siIdx (ix2 r k)
        ⟨List.idxOf (0 : Fin (⟨2, ![40960, 512]⟩ : Shape).rank) [0], List.idxOf_lt_length_iff.2 hm⟩ = ix2 r (0 : Fin 1) := by
      funext c
      match c with
      | ⟨0, _⟩ => rfl
      | ⟨1, _⟩ => rfl
    rw [e, h0]
    exact toInt_ofNat_lt v (by omega)
  have key : ∀ a : Fin (⟨2, ![40960, 512]⟩ : Shape).rank,
      (⟨[1], [0], [0], 1, wf⟩ : ScatterDims (⟨2, ![40960, 512]⟩ : Shape) (⟨2, ![32768, 1]⟩ : Shape) (⟨2, ![32768, 512]⟩ : Shape)).start (ix2 r k) idx a
        + ((⟨[1], [0], [0], 1, wf⟩ : ScatterDims (⟨2, ![40960, 512]⟩ : Shape) (⟨2, ![32768, 1]⟩ : Shape) (⟨2, ![32768, 512]⟩ : Shape)).window (ix2 r k) a : Int)
      = (((ix2 (⟨v, hv'⟩ : Fin 40960) k : (⟨2, ![40960, 512]⟩ : Shape).Idx) a).val : Int) := by
    intro a
    match a with
    | ⟨0, _⟩ =>
      show (⟨[1], [0], [0], 1, wf⟩ : ScatterDims (⟨2, ![40960, 512]⟩ : Shape) (⟨2, ![32768, 1]⟩ : Shape) (⟨2, ![32768, 512]⟩ : Shape)).start (ix2 r k) idx 0 + ((0 : Nat) : Int) = (v : Int)
      rw [hstart0]; omega
    | ⟨1, _⟩ => exact Int.zero_add _
  unfold ScatterDims.resultIdx?
  have hall : ∀ a : Fin (⟨2, ![40960, 512]⟩ : Shape).rank,
      0 ≤ (⟨[1], [0], [0], 1, wf⟩ : ScatterDims (⟨2, ![40960, 512]⟩ : Shape) (⟨2, ![32768, 1]⟩ : Shape) (⟨2, ![32768, 512]⟩ : Shape)).start (ix2 r k) idx a
        + ((⟨[1], [0], [0], 1, wf⟩ : ScatterDims (⟨2, ![40960, 512]⟩ : Shape) (⟨2, ![32768, 1]⟩ : Shape) (⟨2, ![32768, 512]⟩ : Shape)).window (ix2 r k) a : Int)
      ∧ (⟨[1], [0], [0], 1, wf⟩ : ScatterDims (⟨2, ![40960, 512]⟩ : Shape) (⟨2, ![32768, 1]⟩ : Shape) (⟨2, ![32768, 512]⟩ : Shape)).start (ix2 r k) idx a
        + ((⟨[1], [0], [0], 1, wf⟩ : ScatterDims (⟨2, ![40960, 512]⟩ : Shape) (⟨2, ![32768, 1]⟩ : Shape) (⟨2, ![32768, 512]⟩ : Shape)).window (ix2 r k) a : Int)
        < ((⟨2, ![40960, 512]⟩ : Shape).size a : Int) := by
    intro a
    rw [key a]
    exact ⟨Int.natCast_nonneg _, Int.ofNat_lt.2 (Fin.isLt _)⟩
  rw [dif_pos hall]
  refine congrArg some ?_
  funext a
  apply Fin.ext
  show ((⟨[1], [0], [0], 1, wf⟩ : ScatterDims (⟨2, ![40960, 512]⟩ : Shape) (⟨2, ![32768, 1]⟩ : Shape) (⟨2, ![32768, 512]⟩ : Shape)).start (ix2 r k) idx a
        + ((⟨[1], [0], [0], 1, wf⟩ : ScatterDims (⟨2, ![40960, 512]⟩ : Shape) (⟨2, ![32768, 1]⟩ : Shape) (⟨2, ![32768, 512]⟩ : Shape)).window (ix2 r k) a : Int)).toNat = _
  rw [key a]
  exact Int.toNat_natCast _

/-- The row scatter read at the row that update row r lands on, when distinct update rows land on distinct rows:
    the body of the operand's entry and the update's entry (r, k). -/
theorem scatter_rows_apply {α : Type}
    (d : ScatterDims (⟨2, ![40960, 512]⟩ : Shape) (⟨2, ![32768, 1]⟩ : Shape) (⟨2, ![32768, 512]⟩ : Shape))
    (hu : d.updateWindowDims = [1]) (hi : d.insertedWindowDims = [0]) (hs : d.scatterDimsToOperandDims = [0])
    (hv : d.indexVectorDim = 1) (f : α → α → α) (x : (⟨2, ![40960, 512]⟩ : Shape).Idx → α)
    (idx : IVec (⟨2, ![32768, 1]⟩ : Shape) 32) (upd : (⟨2, ![32768, 512]⟩ : Shape).Idx → α)
    (dstN : Fin 32768 → Nat) (hlt : ∀ r, dstN r < 40960)
    (hidx : ∀ r : Fin 32768, idx (ix2 r (0 : Fin 1)) = BitVec.ofNat 32 (dstN r))
    (hinj : ∀ r r' : Fin 32768, dstN r = dstN r' → r = r') (r : Fin 32768) (k : Fin 512) :
    Host.scatter d f x idx upd (ix2 (⟨dstN r, hlt r⟩ : Fin 40960) k)
      = f (x (ix2 (⟨dstN r, hlt r⟩ : Fin 40960) k)) (upd (ix2 r k)) := by
  have hres : ∀ (r' : Fin 32768) (k' : Fin 512),
      d.resultIdx? (ix2 r' k') idx = some (ix2 (⟨dstN r', hlt r'⟩ : Fin 40960) k') :=
    fun r' k' => resultIdx_rows d hu hi hs hv idx r' k' (dstN r') (hlt r') (hidx r')
  refine ScatterWindow.scatter_apply_of_hit d f x idx upd _ ?_ (ix2 r k) (hres r k)
  intro j j' hj hj'
  obtain ⟨r1, k1, rfl⟩ : ∃ (r1 : Fin 32768) (k1 : Fin 512), j = ix2 r1 k1 := ⟨j 0, j 1, eq_ix2 j⟩
  obtain ⟨r2, k2, rfl⟩ : ∃ (r2 : Fin 32768) (k2 : Fin 512), j' = ix2 r2 k2 := ⟨j' 0, j' 1, eq_ix2 j'⟩
  rw [hres] at hj hj'
  obtain ⟨e0, e1⟩ := ix2_inj ((Option.some.inj hj).trans (Option.some.inj hj').symm)
  have e0' : dstN r1 = dstN r2 := congrArg Fin.val e0
  rw [hinj r1 r2 e0', e1]

/-- The row gather read at (r, o): the operand's entry (v, o), v the number in word r of the index column. -/
theorem gather_rows_apply {α : Type}
    (d : GatherDims (⟨2, ![40960, 512]⟩ : Shape) (⟨2, ![32768, 1]⟩ : Shape) (⟨2, ![32768, 512]⟩ : Shape))
    (ho : d.offsetDims = [1]) (hc : d.collapsedSliceDims = [0]) (hb : d.operandBatchingDims = [])
    (hsb : d.startIndicesBatchingDims = []) (hm : d.startIndexMap = [0]) (hv : d.indexVectorDim = 1)
    (hss : d.sliceSizes = ![1, 512]) (x : (⟨2, ![40960, 512]⟩ : Shape).Idx → α)
    (idx : IVec (⟨2, ![32768, 1]⟩ : Shape) 32) (r : Fin 32768) (o : Fin 512)
    (v : Nat) (hv' : v < 40960) (h0 : idx (ix2 r (0 : Fin 1)) = BitVec.ofNat 32 v) :
    Host.gather d x idx (ix2 r o) = x (ix2 (⟨v, hv'⟩ : Fin 40960) o) := by
  obtain ⟨od, cs, ob, sb, sm, iv, ss, wf⟩ := d
  dsimp only at ho hc hb hsb hm hv hss
  subst ho hc hb hsb hm hv hss
  unfold Host.gather
  refine congrArg x ?_
  funext a
  apply Fin.ext
  unfold GatherDims.operandIdx
  match a with
  | ⟨0, _⟩ =>
    have hm0 : (0 : Fin (⟨2, ![40960, 512]⟩ : Shape).rank) ∈ ([0] : List (Fin (⟨2, ![40960, 512]⟩ : Shape).rank)) := by decide
    have e : (⟨[1], [0], [], [], [0], 1, ![1, 512], wf⟩ : GatherDims (⟨2, ![40960, 512]⟩ : Shape) (⟨2, ![32768, 1]⟩ : Shape) (⟨2, ![32768, 512]⟩ : Shape)).siIdx (ix2 r o)
        ⟨List.idxOf (0 : Fin (⟨2, ![40960, 512]⟩ : Shape).rank) [0], List.idxOf_lt_length_iff.2 hm0⟩ = ix2 r (0 : Fin 1) := by
      funext c
      match c with
      | ⟨0, _⟩ => rfl
      | ⟨1, _⟩ => rfl
    have hs0 : (⟨[1], [0], [], [], [0], 1, ![1, 512], wf⟩ : GatherDims (⟨2, ![40960, 512]⟩ : Shape) (⟨2, ![32768, 1]⟩ : Shape) (⟨2, ![32768, 512]⟩ : Shape)).start (ix2 r o) idx 0 = v := by
      unfold GatherDims.start
      rw [dif_pos hm0, e, h0, toInt_ofNat_lt v (by omega), Int.toNat_natCast]
      show min v (40960 - 1) = v
      omega
    show (⟨[1], [0], [], [], [0], 1, ![1, 512], wf⟩ : GatherDims (⟨2, ![40960, 512]⟩ : Shape) (⟨2, ![32768, 1]⟩ : Shape) (⟨2, ![32768, 512]⟩ : Shape)).start (ix2 r o) idx 0 + 0 + 0 = v
    rw [hs0]; rfl
  | ⟨1, _⟩ =>
    show 0 + 0 + o.val = o.val
    omega

end RowMove

end
-- ==== Proof.Route.lean ====
/-
  The routing is undone by the gather: with every row r sent to its own padded row dst r (no two rows to the same one),
  and the tile that holds dst r labelled with r's label, the padded product's row dst r is row r of x times the weight
  matrix of r's label, and gathering rows dst r back gives the typed linear layer.
-/
import proofs.«123552_j1236950581828_2_alg».proof.Proof.Chain
import proofs.«123552_j1236950581828_2_alg».proof.Proof.Spec
import proofs.«123552_j1236950581828_2_alg».proof.Proof.Model
import proofs.«123552_j1236950581828_2_alg».proof.Proof.RowMove

noncomputable section

namespace Cert.KernelIdeal.Route

open Idealize.ShloMosaic Idealize.ShloMosaic.ValueIdx Cert.KernelIdeal

variable [Facts]

/-- The gathered padded product is the typed linear layer. -/
theorem route_value (X : FVec Ideal S32768x512 .f32) (ty : IVec S32768 32) (W : FVec Ideal S8x512x512 .f32)
    (f : Fin 32768 → Fin 8) (hf : ∀ r : Fin 32768, ty (ix1 r) = BitVec.ofNat 32 (f r).val)
    (hdlt : ∀ r, Cert.Model.dst f r < 40960)
    (hdinj : ∀ r r' : Fin 32768, Cert.Model.dst f r = Cert.Model.dst f r' → r = r')
    (hidx : ∀ r : Fin 32768, Chain.destIdx ty (ix2 r (0 : Fin 1)) = BitVec.ofNat 32 (Cert.Model.dst f r))
    (htt : ∀ r : Fin 32768, (Chain.tileType ty (ix1 (⟨Cert.Model.dst f r / 1024, by have := hdlt r; omega⟩ : Fin 40))).toNat = (f r).val) :
    Host.gather gather_S40960x512_S32768x1_S32768x512_1_0_n_n_0_1_1512
        (Cert.Spec.MM (Chain.paddedX X ty) (Chain.Wb W) (Chain.tileType ty)) (Chain.destIdx ty)
      = Cert.Spec.G X ty W := by
  funext i
  obtain ⟨r, o, rfl⟩ : ∃ (r : Fin 32768) (o : Fin 512), i = ix2 r o := ⟨i 0, i 1, eq_ix2 i⟩
  rw [RowMove.gather_rows_apply gather_S40960x512_S32768x1_S32768x512_1_0_n_n_0_1_1512 rfl rfl rfl rfl rfl rfl rfl
    _ _ r o (Cert.Model.dst f r) (hdlt r) (hidx r)]
  rw [Cert.Spec.MM_apply, Cert.Spec.G_apply]
  refine Finset.sum_congr rfl (fun k _ => ?_)
  have eX : Chain.paddedX X ty (ix2 (⟨Cert.Model.dst f r, hdlt r⟩ : Fin 40960) k) = X (ix2 r k) := by
    unfold Chain.paddedX
    exact RowMove.scatter_rows_apply scatter_S40960x512_S32768x1_S32768x512_1_0_0_1 rfl rfl rfl rfl (fun _ b => b) _
      (Chain.destIdx ty) _ (Cert.Model.dst f) hdlt hidx hdinj r k
  have eL : Cert.Spec.tileLab (Chain.tileType ty) (⟨Cert.Model.dst f r / 1024, by have := hdlt r; omega⟩ : Fin 40)
      = Cert.Spec.lab ty r := by
    apply Fin.ext
    show (Chain.tileType ty (ix1 (⟨Cert.Model.dst f r / 1024, _⟩ : Fin 40))).toNat % 8 = (ty (ix1 r)).toNat % 8
    rw [htt r, hf r, BitVec.toNat_ofNat]
    have := (f r).isLt
    omega
  rw [eX, eL]
  rfl

end Cert.KernelIdeal.Route

end
-- ==== Proof.Routing.lean ====
/-
  The host's routing, read as the counting sort: entry r of the routing vector is the padded row dst r, so the padded
  product gathered back along it is the typed linear layer.
-/
import proofs.«123552_j1236950581828_2_alg».proof.Proof.TileLabel
import proofs.«123552_j1236950581828_2_alg».proof.Proof.RankRead
import proofs.«123552_j1236950581828_2_alg».proof.Proof.StartRead4
import proofs.«123552_j1236950581828_2_alg».proof.Proof.Route

noncomputable section

namespace Cert.KernelIdeal.Value

open Idealize.ShloMosaic Idealize.ShloMosaic.ValueIdx Cert.KernelIdeal

variable [Facts]

/-- The routing vector's entry r is the padded row dst r. -/
theorem destIdx_word (ty : IVec S32768 32) (hty : ∀ r : Fin 32768, (ty (ix1 r)).toNat < 8) (r : Fin 32768) :
    Chain.destIdx ty (ix2 r (0 : Fin 1)) = BitVec.ofNat 32 (Cert.Model.dst (Cert.Spec.lab ty) r) :=
  StartRead.destIdx_apply ty (Cert.Spec.lab ty) (word_of_label ty hty)
    (CumRead.counts_toNat ty (Cert.Spec.lab ty) (word_of_label ty hty))
    (RankRead.rank_eq ty (Cert.Spec.lab ty) (word_of_label ty hty)) r

/-- The gathered padded product, at the routing the host computes, is the typed linear layer. -/
theorem routed (ty : IVec S32768 32) (hty : ∀ r : Fin 32768, (ty (ix1 r)).toNat < 8)
    (X : FVec Ideal S32768x512 .f32) (W : FVec Ideal S8x512x512 .f32) :
    Host.gather gather_S40960x512_S32768x1_S32768x512_1_0_n_n_0_1_1512
        (Cert.Spec.MM (Chain.paddedX X ty) (Chain.Wb W) (Chain.tileType ty)) (Chain.destIdx ty)
      = Cert.Spec.G X ty W :=
  Route.route_value X ty W (Cert.Spec.lab ty) (word_of_label ty hty) (Cert.Model.dst_lt _)
    (fun _ _ h => Cert.Model.dst_inj _ h) (destIdx_word ty hty)
    (fun r => (tileType_word ty hty _).trans (Cert.Model.ttype_dst _ r))

end Cert.KernelIdeal.Value

end
-- ==== Proof.Tail.lean ====
/-
  After the region: the result is the padded output array's rows gathered back, row r taken from the row whose number
  is entry r of the routing vector (a negative number counted from the end).
-/
import proofs.«123552_j1236950581828_2_alg».proof.Proof.Gen.KernelIdeal.Frame
import Idealize.ShloMosaic.Lib.StableHlo.Run

noncomputable section

namespace Cert.KernelIdeal.Tail

open Idealize.ShloMosaic Idealize.SL.Sem Cert.KernelIdeal

variable [Facts]
open Facts₀ Facts

/-- A column of row numbers from a vector of them, a negative number counted from the end (+40960). -/
def rowIdx (d : IVec S32768 32) : IVec S32768x1 32 :=
  broadcastInDim S32768x1 ![0] bcast_S32768_S32768x1_0
    (select (cmpi .slt d (broadcastInDim S32768 ![] bcast_S_S32768 (constantI S_ 32 0#32)))
      (addi d (broadcastInDim S32768 ![] bcast_S_S32768 (constantI S_ 32 40960#32))) d)

variable {F : FTy → Type} [FloatOps F] (m : (ℓ : Loc nD τ sig) → Buf (Elt F) ℓ)

/-- What the operations after the region leave in the result's buffer: the gather of the region's output array. -/
theorem tail_v62 (hO : Gen.Ok m) (c : Dev nD) :
    Pipeline.afterTail pcfgs (fun _ => Gen.adm m hO) (Gen.dats m hO) 0 (Gen.V0 m) [Gen.hostOps1] c main_v62
      = Host.gather gather_S40960x512_S32768x1_S32768x512_1_0_n_n_0_1_1512
          ((Gen.dats m hO 0 c).arrAt 2 (Gen.cfgM m hO).N) (rowIdx (Gen.V m c main_v33)) := by
  unfold Pipeline.afterTail
  show StableHlo.after Gen.hostOps1 _ (Proc.devRef .tc main_v62) = _
  after_results
  have e55 : Pipeline.withArrays (Pipeline.pin pcfgs (fun _ => Gen.adm m hO) 0).spec c (Gen.V0 m c)
      (fun w => (Gen.dats m hO 0 c).arrAt w (Pipeline.pin pcfgs (fun _ => Gen.adm m hO) 0).N) (Proc.devRef .tc main_v55)
      = (Gen.dats m hO 0 c).arrAt 2 (Gen.cfgM m hO).N :=
    Pipeline.withArrays_arr (Pipeline.pin pcfgs (fun _ => Gen.adm m hO) 0).spec (Gen.launch0 (F := F)).win.arr_inj c _ _ 2
  have e33 : Pipeline.withArrays (Pipeline.pin pcfgs (fun _ => Gen.adm m hO) 0).spec c (Gen.V0 m c)
      (fun w => (Gen.dats m hO 0 c).arrAt w (Pipeline.pin pcfgs (fun _ => Gen.adm m hO) 0).N) (Proc.devRef .tc main_v33)
      = Gen.V m c main_v33 :=
    Pipeline.withArrays_of_ne _ c (Gen.V0 m c) _ main_v33 (by exact (by decide : ∀ w, Pipeline.arrRef spec0 w ≠ main_v33))
  rw [e55, e33]
  rfl

end Cert.KernelIdeal.Tail

end
-- ==== Proof.HostRead2A.lean ====
/-
  The host program before the region, read one stretch of operations at a time (the first six stretches). Each stretch
  takes the contents of the buffers it reads, given as functions of the label vector, to the contents of the buffers
  later stretches read, again as functions of the label vector; a buffer no operation of a stretch writes keeps its
  contents across it.
-/
import proofs.«123552_j1236950581828_2_alg».proof.Proof.Gen.KernelIdeal.Frame
import proofs.«123552_j1236950581828_2_alg».proof.Proof.Chain
import Idealize.ShloMosaic.Lib.StableHlo.Run

set_option maxRecDepth 16384

noncomputable section

namespace Cert.KernelIdeal.HostRead2

open Cert.KernelIdeal Cert.KernelIdeal.Facts₀ Cert.KernelIdeal.Facts
open Idealize.ShloMosaic Idealize.ShloMosaic.TcCoe Idealize.ShloMosaic.StableHlo
open Idealize.SL.Sem

variable [Cert.KernelIdeal.Facts] {F : FTy → Type} [FloatOps F]

/-! ## The stretches -/

/-- The labels against the column numbers: entry [i,t] is 1 when row i carries label t. -/
theorem seg0_v6 (W : Valuation τ sig (Elt F)) (ty : IVec S32768 32)
    (h0 : (W (Proc.devRef .tc main_arg1) : IVec S32768 32) = ty) :
    (StableHlo.after Gen.hostOps0 W (Proc.devRef .tc main_v6) : IVec S32768x8 32) = Chain.onehot ty := by
  simp only [Gen.hostOps0]
  after_results
  rw [h0]
  try dsimp only [TRef.toBuf, TRef.ofBuf, cast_eq]
  unfold Chain.onehot Chain.tyCols Chain.iotaCols
  rfl

/-- The running sum down the rows. -/
theorem seg1_v7 (W : Valuation τ sig (Elt F)) (ty : IVec S32768 32)
    (h0 : (W (Proc.devRef .tc main_v6) : IVec S32768x8 32) = Chain.onehot ty) :
    (StableHlo.after Gen.hostOps0_1 W (Proc.devRef .tc main_v7) : IVec S32768x8 32) = Chain.cum ty := by
  simp only [Gen.hostOps0_1]
  after_results
  rw [h0]
  try dsimp only [TRef.toBuf, TRef.ofBuf, cast_eq]
  unfold Chain.cum
  rfl

/-- The last row of the running sums: the count of each label. -/
theorem seg2_v9 (W : Valuation τ sig (Elt F)) (ty : IVec S32768 32)
    (h0 : (W (Proc.devRef .tc main_v7) : IVec S32768x8 32) = Chain.cum ty) :
    (StableHlo.after Gen.hostOps0_2 W (Proc.devRef .tc main_v9) : IVec S8 32) = Chain.counts ty := by
  simp only [Gen.hostOps0_2]
  after_results
  rw [h0]
  try dsimp only [TRef.toBuf, TRef.ofBuf, cast_eq]
  unfold Chain.counts
  rfl

/-- The labels as a column. -/
theorem seg2_v10 (W : Valuation τ sig (Elt F)) (ty : IVec S32768 32)
    (h0 : (W (Proc.devRef .tc main_arg1) : IVec S32768 32) = ty) :
    (StableHlo.after Gen.hostOps0_2 W (Proc.devRef .tc main_v10) : IVec S32768x1 32) = broadcastInDim S32768x1 ![0] bcast_S32768_S32768x1_0 ty := by
  simp only [Gen.hostOps0_2]
  after_results
  rw [h0]

set_option maxHeartbeats 400000 in
/-- Each row's own running sum: the entry of its row at its label's column. -/
theorem seg3_v11 (W : Valuation τ sig (Elt F)) (ty : IVec S32768 32)
    (h0 : (W (Proc.devRef .tc main_v10) : IVec S32768x1 32) = broadcastInDim S32768x1 ![0] bcast_S32768_S32768x1_0 ty)
    (h1 : (W (Proc.devRef .tc main_v7) : IVec S32768x8 32) = Chain.cum ty) :
    (StableHlo.after Gen.hostOps0_3 W (Proc.devRef .tc main_v11) : IVec S32768x1 32) = Chain.taken ty := by
  simp only [Gen.hostOps0_3]
  after_results
  rw [h0, h1]
  try dsimp only [TRef.toBuf, TRef.ofBuf, cast_eq]
  unfold Chain.taken Chain.takeInb Chain.takeIdx Chain.normCol
  rfl

/-- The position of each row among the rows of its label. -/
theorem seg4_v14 (W : Valuation τ sig (Elt F)) (ty : IVec S32768 32)
    (h0 : (W (Proc.devRef .tc main_v11) : IVec S32768x1 32) = Chain.taken ty) :
    (StableHlo.after Gen.hostOps0_4 W (Proc.devRef .tc main_v14) : IVec S32768 32) = Chain.rank ty := by
  simp only [Gen.hostOps0_4]
  after_results
  rw [h0]
  try dsimp only [TRef.toBuf, TRef.ofBuf, cast_eq]
  unfold Chain.rank Chain.splatN
  rfl

/-- The counts plus 1023. -/
theorem seg4_v18 (W : Valuation τ sig (Elt F)) (ty : IVec S32768 32)
    (h0 : (W (Proc.devRef .tc main_v9) : IVec S8 32) = Chain.counts ty) :
    (StableHlo.after Gen.hostOps0_4 W (Proc.devRef .tc main_v18) : IVec S8 32) = subi (addi (Chain.counts ty) (Chain.splat8 1024#32)) (Chain.splat8 1#32) := by
  simp only [Gen.hostOps0_4]
  after_results
  rw [h0]
  try dsimp only [TRef.toBuf, TRef.ofBuf, cast_eq]
  unfold Chain.splat8
  rfl

/-- The divisor 1024. -/
theorem seg4_c2 (W : Valuation τ sig (Elt F)) :
    (StableHlo.after Gen.hostOps0_4 W (Proc.devRef .tc main_c_2) : IVec S_ 32) = constantI S_ 32 1024#32 := by
  simp only [Gen.hostOps0_4]
  after_results

set_option maxHeartbeats 400000 in
/-- Floor division by 1024 of eight integers. -/
theorem seg5_v19 (W : Valuation τ sig (Elt F)) (x : IVec S8 32)
    (h0 : (W (Proc.devRef .tc main_v18) : IVec S8 32) = x)
    (h1 : (W (Proc.devRef .tc main_c_2) : IVec S_ 32) = constantI S_ 32 1024#32) :
    (StableHlo.after Gen.hostOps0_5 W (Proc.devRef .tc main_v19) : IVec S8 32) = Chain.floorDiv1024 x := by
  simp only [Gen.hostOps0_5]
  after_results
  rw [h0, h1]
  try dsimp only [TRef.toBuf, TRef.ofBuf, cast_eq]
  unfold Chain.floorDiv1024 Chain.splat8
  rfl

/-! ## What a stretch does not write, it keeps -/

theorem keep0_main_arg0 (W : Valuation τ sig (Elt F)) :
    StableHlo.after Gen.hostOps0 W (Proc.devRef .tc main_arg0) = W (Proc.devRef .tc main_arg0) := by
  simp only [Gen.hostOps0]
  after_results

theorem keep0_main_arg1 (W : Valuation τ sig (Elt F)) :
    StableHlo.after Gen.hostOps0 W (Proc.devRef .tc main_arg1) = W (Proc.devRef .tc main_arg1) := by
  simp only [Gen.hostOps0]
  after_results

theorem keep0_main_arg2 (W : Valuation τ sig (Elt F)) :
    StableHlo.after Gen.hostOps0 W (Proc.devRef .tc main_arg2) = W (Proc.devRef .tc main_arg2) := by
  simp only [Gen.hostOps0]
  after_results

theorem keep1_main_arg0 (W : Valuation τ sig (Elt F)) :
    StableHlo.after Gen.hostOps0_1 W (Proc.devRef .tc main_arg0) = W (Proc.devRef .tc main_arg0) := by
  simp only [Gen.hostOps0_1]
  after_results

theorem keep1_main_arg1 (W : Valuation τ sig (Elt F)) :
    StableHlo.after Gen.hostOps0_1 W (Proc.devRef .tc main_arg1) = W (Proc.devRef .tc main_arg1) := by
  simp only [Gen.hostOps0_1]
  after_results

theorem keep1_main_arg2 (W : Valuation τ sig (Elt F)) :
    StableHlo.after Gen.hostOps0_1 W (Proc.devRef .tc main_arg2) = W (Proc.devRef .tc main_arg2) := by
  simp only [Gen.hostOps0_1]
  after_results

theorem keep2_main_arg0 (W : Valuation τ sig (Elt F)) :
    StableHlo.after Gen.hostOps0_2 W (Proc.devRef .tc main_arg0) = W (Proc.devRef .tc main_arg0) := by
  simp only [Gen.hostOps0_2]
  after_results

theorem keep2_main_arg1 (W : Valuation τ sig (Elt F)) :
    StableHlo.after Gen.hostOps0_2 W (Proc.devRef .tc main_arg1) = W (Proc.devRef .tc main_arg1) := by
  simp only [Gen.hostOps0_2]
  after_results

theorem keep2_main_arg2 (W : Valuation τ sig (Elt F)) :
    StableHlo.after Gen.hostOps0_2 W (Proc.devRef .tc main_arg2) = W (Proc.devRef .tc main_arg2) := by
  simp only [Gen.hostOps0_2]
  after_results

theorem keep2_main_v7 (W : Valuation τ sig (Elt F)) :
    StableHlo.after Gen.hostOps0_2 W (Proc.devRef .tc main_v7) = W (Proc.devRef .tc main_v7) := by
  simp only [Gen.hostOps0_2]
  after_results

theorem keep3_main_arg0 (W : Valuation τ sig (Elt F)) :
    StableHlo.after Gen.hostOps0_3 W (Proc.devRef .tc main_arg0) = W (Proc.devRef .tc main_arg0) := by
  simp only [Gen.hostOps0_3]
  after_results

theorem keep3_main_arg1 (W : Valuation τ sig (Elt F)) :
    StableHlo.after Gen.hostOps0_3 W (Proc.devRef .tc main_arg1) = W (Proc.devRef .tc main_arg1) := by
  simp only [Gen.hostOps0_3]
  after_results

theorem keep3_main_arg2 (W : Valuation τ sig (Elt F)) :
    StableHlo.after Gen.hostOps0_3 W (Proc.devRef .tc main_arg2) = W (Proc.devRef .tc main_arg2) := by
  simp only [Gen.hostOps0_3]
  after_results

theorem keep3_main_v9 (W : Valuation τ sig (Elt F)) :
    StableHlo.after Gen.hostOps0_3 W (Proc.devRef .tc main_v9) = W (Proc.devRef .tc main_v9) := by
  simp only [Gen.hostOps0_3]
  after_results

theorem keep4_main_arg0 (W : Valuation τ sig (Elt F)) :
    StableHlo.after Gen.hostOps0_4 W (Proc.devRef .tc main_arg0) = W (Proc.devRef .tc main_arg0) := by
  simp only [Gen.hostOps0_4]
  after_results

theorem keep4_main_arg1 (W : Valuation τ sig (Elt F)) :
    StableHlo.after Gen.hostOps0_4 W (Proc.devRef .tc main_arg1) = W (Proc.devRef .tc main_arg1) := by
  simp only [Gen.hostOps0_4]
  after_results

theorem keep4_main_arg2 (W : Valuation τ sig (Elt F)) :
    StableHlo.after Gen.hostOps0_4 W (Proc.devRef .tc main_arg2) = W (Proc.devRef .tc main_arg2) := by
  simp only [Gen.hostOps0_4]
  after_results

theorem keep5_main_arg0 (W : Valuation τ sig (Elt F)) :
    StableHlo.after Gen.hostOps0_5 W (Proc.devRef .tc main_arg0) = W (Proc.devRef .tc main_arg0) := by
  simp only [Gen.hostOps0_5]
  after_results

theorem keep5_main_arg1 (W : Valuation τ sig (Elt F)) :
    StableHlo.after Gen.hostOps0_5 W (Proc.devRef .tc main_arg1) = W (Proc.devRef .tc main_arg1) := by
  simp only [Gen.hostOps0_5]
  after_results

theorem keep5_main_arg2 (W : Valuation τ sig (Elt F)) :
    StableHlo.after Gen.hostOps0_5 W (Proc.devRef .tc main_arg2) = W (Proc.devRef .tc main_arg2) := by
  simp only [Gen.hostOps0_5]
  after_results

theorem keep5_main_v14 (W : Valuation τ sig (Elt F)) :
    StableHlo.after Gen.hostOps0_5 W (Proc.devRef .tc main_v14) = W (Proc.devRef .tc main_v14) := by
  simp only [Gen.hostOps0_5]
  after_results

end Cert.KernelIdeal.HostRead2

end
-- ==== Proof.HostRead2B.lean ====
/-
  The host program before the region, read one stretch of operations at a time (the last five stretches): the padded
  counts, the group starts, each row's destination, the table of tile labels, the narrowed weights and the padded array
  of rows, each as the routing chain's function of the label vector and the arguments.
-/
import proofs.«123552_j1236950581828_2_alg».proof.Proof.Gen.KernelIdeal.Frame
import proofs.«123552_j1236950581828_2_alg».proof.Proof.Chain
import Idealize.ShloMosaic.Lib.StableHlo.Run

set_option maxRecDepth 16384

noncomputable section

namespace Cert.KernelIdeal.HostRead2

open Cert.KernelIdeal Cert.KernelIdeal.Facts₀ Cert.KernelIdeal.Facts
open Idealize.ShloMosaic Idealize.ShloMosaic.TcCoe Idealize.ShloMosaic.StableHlo
open Idealize.SL.Sem

variable [Cert.KernelIdeal.Facts] {F : FTy → Type} [FloatOps F]

/-! ## The stretches -/

/-- The padded counts. -/
theorem seg6_v21 (W : Valuation τ sig (Elt F)) (ty : IVec S32768 32)
    (h0 : (W (Proc.devRef .tc main_v19) : IVec S8 32) = Chain.floorDiv1024 (subi (addi (Chain.counts ty) (Chain.splat8 1024#32)) (Chain.splat8 1#32))) :
    (StableHlo.after Gen.hostOps0_6 W (Proc.devRef .tc main_v21) : IVec S8 32) = Chain.pcount ty := by
  simp only [Gen.hostOps0_6]
  after_results
  rw [h0]
  try dsimp only [TRef.toBuf, TRef.ofBuf, cast_eq]
  unfold Chain.pcount Chain.splat8
  rfl

/-- The zero the group starts begin with. -/
theorem seg6_v22 (W : Valuation τ sig (Elt F)) :
    (StableHlo.after Gen.hostOps0_6 W (Proc.devRef .tc main_v22) : IVec S1 32) = broadcastInDim S1 ![] bcast_S_S1 (constantI S_ 32 0#32) := by
  simp only [Gen.hostOps0_6]
  after_results

/-- The running sums of the padded counts. -/
theorem seg7_v23 (W : Valuation τ sig (Elt F)) (ty : IVec S32768 32)
    (h0 : (W (Proc.devRef .tc main_v21) : IVec S8 32) = Chain.pcount ty) :
    (StableHlo.after Gen.hostOps0_7 W (Proc.devRef .tc main_v23) : IVec S8 32) = Chain.pcum ty := by
  simp only [Gen.hostOps0_7]
  after_results
  rw [h0]
  try dsimp only [TRef.toBuf, TRef.ofBuf, cast_eq]
  unfold Chain.pcum
  rfl

/-- The group starts. -/
theorem seg8_v25 (W : Valuation τ sig (Elt F)) (ty : IVec S32768 32)
    (h0 : (W (Proc.devRef .tc main_v23) : IVec S8 32) = Chain.pcum ty)
    (h1 : (W (Proc.devRef .tc main_v22) : IVec S1 32) = broadcastInDim S1 ![] bcast_S_S1 (constantI S_ 32 0#32)) :
    (StableHlo.after Gen.hostOps0_8 W (Proc.devRef .tc main_v25) : IVec S8 32) = Chain.pstart ty := by
  simp only [Gen.hostOps0_8]
  after_results
  rw [h0, h1]
  try dsimp only [TRef.toBuf, TRef.ofBuf, cast_eq]
  unfold Chain.pstart
  rfl

set_option maxHeartbeats 400000 in
/-- The row of the padded array each row goes to. -/
theorem seg8_v33 (W : Valuation τ sig (Elt F)) (ty : IVec S32768 32)
    (h0 : (W (Proc.devRef .tc main_v23) : IVec S8 32) = Chain.pcum ty)
    (h1 : (W (Proc.devRef .tc main_v22) : IVec S1 32) = broadcastInDim S1 ![] bcast_S_S1 (constantI S_ 32 0#32))
    (h2 : (W (Proc.devRef .tc main_arg1) : IVec S32768 32) = ty)
    (h3 : (W (Proc.devRef .tc main_v14) : IVec S32768 32) = Chain.rank ty) :
    (StableHlo.after Gen.hostOps0_8 W (Proc.devRef .tc main_v33) : IVec S32768 32) = Chain.dest ty := by
  simp only [Gen.hostOps0_8]
  after_results
  rw [h0, h1, h2, h3]
  try dsimp only [TRef.toBuf, TRef.ofBuf, cast_eq]
  unfold Chain.dest Chain.pstart Chain.normTy Chain.splatN
  rfl

/-- The divisor 1024 again. -/
theorem seg8_c7 (W : Valuation τ sig (Elt F)) :
    (StableHlo.after Gen.hostOps0_8 W (Proc.devRef .tc main_c_7) : IVec S_ 32) = constantI S_ 32 1024#32 := by
  simp only [Gen.hostOps0_8]
  after_results

set_option maxHeartbeats 400000 in
/-- Floor division by 1024 once more: the first tile of each group. -/
theorem seg9_v34 (W : Valuation τ sig (Elt F)) (x : IVec S8 32)
    (h0 : (W (Proc.devRef .tc main_v25) : IVec S8 32) = x)
    (h1 : (W (Proc.devRef .tc main_c_7) : IVec S_ 32) = constantI S_ 32 1024#32) :
    (StableHlo.after Gen.hostOps0_9 W (Proc.devRef .tc main_v34) : IVec S8 32) = Chain.floorDiv1024 x := by
  simp only [Gen.hostOps0_9]
  after_results
  rw [h0, h1]
  try dsimp only [TRef.toBuf, TRef.ofBuf, cast_eq]
  unfold Chain.floorDiv1024 Chain.splat8
  rfl

set_option maxHeartbeats 400000 in
/-- The table of tile labels. -/
theorem seg10_v44 (W : Valuation τ sig (Elt F)) (ty : IVec S32768 32)
    (h0 : (W (Proc.devRef .tc main_v34) : IVec S8 32) = Chain.ctiles ty) :
    (StableHlo.after Gen.hostOps0_10 W (Proc.devRef .tc main_v44) : IVec S40 32) = Chain.tileType ty := by
  simp only [Gen.hostOps0_10]
  after_results
  rw [h0]
  try dsimp only [TRef.toBuf, TRef.ofBuf, cast_eq]
  unfold Chain.tileType
  rfl

set_option maxHeartbeats 400000 in
/-- The weights, narrowed. -/
theorem seg10_v45 (W : Valuation τ sig (Elt F)) (Wt : FVec F S8x512x512 .f32)
    (h0 : (W (Proc.devRef .tc main_arg2) : FVec F S8x512x512 .f32) = Wt) :
    (StableHlo.after Gen.hostOps0_10 W (Proc.devRef .tc main_v45) : FVec F S8x512x512 .bf16) = Chain.Wb Wt := by
  simp only [Gen.hostOps0_10]
  after_results
  rw [h0]
  try dsimp only [TRef.toBuf, TRef.ofBuf, cast_eq]
  unfold Chain.Wb
  rfl

set_option maxHeartbeats 400000 in
/-- The padded array of rows. -/
theorem seg10_v54 (W : Valuation τ sig (Elt F)) (X : FVec F S32768x512 .f32) (ty : IVec S32768 32)
    (h0 : (W (Proc.devRef .tc main_v33) : IVec S32768 32) = Chain.dest ty)
    (h1 : (W (Proc.devRef .tc main_arg0) : FVec F S32768x512 .f32) = X) :
    (StableHlo.after Gen.hostOps0_10 W (Proc.devRef .tc main_v54) : FVec F S40960x512 .bf16) = Chain.paddedX X ty := by
  simp only [Gen.hostOps0_10]
  after_results_simp
  rw [h0, h1]
  try dsimp only [TRef.toBuf, TRef.ofBuf, cast_eq]
  unfold Chain.paddedX Chain.destIdx Chain.splatN
  rfl

/-! ## What a stretch does not write, it keeps -/

theorem keep6_main_arg0 (W : Valuation τ sig (Elt F)) :
    StableHlo.after Gen.hostOps0_6 W (Proc.devRef .tc main_arg0) = W (Proc.devRef .tc main_arg0) := by
  simp only [Gen.hostOps0_6]
  after_results

theorem keep6_main_arg1 (W : Valuation τ sig (Elt F)) :
    StableHlo.after Gen.hostOps0_6 W (Proc.devRef .tc main_arg1) = W (Proc.devRef .tc main_arg1) := by
  simp only [Gen.hostOps0_6]
  after_results

theorem keep6_main_arg2 (W : Valuation τ sig (Elt F)) :
    StableHlo.after Gen.hostOps0_6 W (Proc.devRef .tc main_arg2) = W (Proc.devRef .tc main_arg2) := by
  simp only [Gen.hostOps0_6]
  after_results

theorem keep6_main_v14 (W : Valuation τ sig (Elt F)) :
    StableHlo.after Gen.hostOps0_6 W (Proc.devRef .tc main_v14) = W (Proc.devRef .tc main_v14) := by
  simp only [Gen.hostOps0_6]
  after_results

theorem keep7_main_arg0 (W : Valuation τ sig (Elt F)) :
    StableHlo.after Gen.hostOps0_7 W (Proc.devRef .tc main_arg0) = W (Proc.devRef .tc main_arg0) := by
  simp only [Gen.hostOps0_7]
  after_results

theorem keep7_main_arg1 (W : Valuation τ sig (Elt F)) :
    StableHlo.after Gen.hostOps0_7 W (Proc.devRef .tc main_arg1) = W (Proc.devRef .tc main_arg1) := by
  simp only [Gen.hostOps0_7]
  after_results

theorem keep7_main_arg2 (W : Valuation τ sig (Elt F)) :
    StableHlo.after Gen.hostOps0_7 W (Proc.devRef .tc main_arg2) = W (Proc.devRef .tc main_arg2) := by
  simp only [Gen.hostOps0_7]
  after_results

theorem keep7_main_v14 (W : Valuation τ sig (Elt F)) :
    StableHlo.after Gen.hostOps0_7 W (Proc.devRef .tc main_v14) = W (Proc.devRef .tc main_v14) := by
  simp only [Gen.hostOps0_7]
  after_results

theorem keep7_main_v22 (W : Valuation τ sig (Elt F)) :
    StableHlo.after Gen.hostOps0_7 W (Proc.devRef .tc main_v22) = W (Proc.devRef .tc main_v22) := by
  simp only [Gen.hostOps0_7]
  after_results

theorem keep8_main_arg0 (W : Valuation τ sig (Elt F)) :
    StableHlo.after Gen.hostOps0_8 W (Proc.devRef .tc main_arg0) = W (Proc.devRef .tc main_arg0) := by
  simp only [Gen.hostOps0_8]
  after_results

theorem keep8_main_arg2 (W : Valuation τ sig (Elt F)) :
    StableHlo.after Gen.hostOps0_8 W (Proc.devRef .tc main_arg2) = W (Proc.devRef .tc main_arg2) := by
  simp only [Gen.hostOps0_8]
  after_results

theorem keep9_main_arg0 (W : Valuation τ sig (Elt F)) :
    StableHlo.after Gen.hostOps0_9 W (Proc.devRef .tc main_arg0) = W (Proc.devRef .tc main_arg0) := by
  simp only [Gen.hostOps0_9]
  after_results

theorem keep9_main_arg2 (W : Valuation τ sig (Elt F)) :
    StableHlo.after Gen.hostOps0_9 W (Proc.devRef .tc main_arg2) = W (Proc.devRef .tc main_arg2) := by
  simp only [Gen.hostOps0_9]
  after_results

theorem keep9_main_v33 (W : Valuation τ sig (Elt F)) :
    StableHlo.after Gen.hostOps0_9 W (Proc.devRef .tc main_v33) = W (Proc.devRef .tc main_v33) := by
  simp only [Gen.hostOps0_9]
  after_results

theorem keep10_main_v33 (W : Valuation τ sig (Elt F)) :
    StableHlo.after Gen.hostOps0_10 W (Proc.devRef .tc main_v33) = W (Proc.devRef .tc main_v33) := by
  simp only [Gen.hostOps0_10]
  after_results

end Cert.KernelIdeal.HostRead2

end
-- ==== Proof.HostRead2.lean ====
/-
  What the buffers the region reads hold when it is entered: the host program before the region is eleven stretches of
  operations run one after the other, and the contents after each stretch follow from those after the one before. The
  table of tile labels, each row's destination, the padded array of rows and the narrowed weights are then the routing
  chain's functions of the arguments as launched.
-/
import proofs.«123552_j1236950581828_2_alg».proof.Proof.HostRead2A
import proofs.«123552_j1236950581828_2_alg».proof.Proof.HostRead2B

set_option maxRecDepth 16384

noncomputable section

namespace Cert.KernelIdeal.HostRead2

open Cert.KernelIdeal Cert.KernelIdeal.Facts₀ Cert.KernelIdeal.Facts
open Idealize.ShloMosaic Idealize.ShloMosaic.TcCoe Idealize.ShloMosaic.StableHlo
open Idealize.SL.Sem

variable [Cert.KernelIdeal.Facts] {F : FTy → Type} [FloatOps F]

/-! ## The line cut into its stretches -/

/-- Two lines run one after the other: the second folds over what the first leaves. -/
theorem after_append : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_append l₁ l₂]

variable (m : (ℓ : Loc nD τ sig) → Buf (Elt F) ℓ) (c : Dev nD)

/-- The buffers' contents as launched, and after each stretch in turn. -/
def W0 : Valuation τ sig (Elt F) := fun b => m (c, b)
def W1 : Valuation τ sig (Elt F) := StableHlo.after Gen.hostOps0 (W0 m c)
def W2 : Valuation τ sig (Elt F) := StableHlo.after Gen.hostOps0_1 (W1 m c)
def W3 : Valuation τ sig (Elt F) := StableHlo.after Gen.hostOps0_2 (W2 m c)
def W4 : Valuation τ sig (Elt F) := StableHlo.after Gen.hostOps0_3 (W3 m c)
def W5 : Valuation τ sig (Elt F) := StableHlo.after Gen.hostOps0_4 (W4 m c)
def W6 : Valuation τ sig (Elt F) := StableHlo.after Gen.hostOps0_5 (W5 m c)
def W7 : Valuation τ sig (Elt F) := StableHlo.after Gen.hostOps0_6 (W6 m c)
def W8 : Valuation τ sig (Elt F) := StableHlo.after Gen.hostOps0_7 (W7 m c)
def W9 : Valuation τ sig (Elt F) := StableHlo.after Gen.hostOps0_8 (W8 m c)
def W10 : Valuation τ sig (Elt F) := StableHlo.after Gen.hostOps0_9 (W9 m c)
def W11 : Valuation τ sig (Elt F) := StableHlo.after Gen.hostOps0_10 (W10 m c)

/-- The contents when the region is entered are those after the last stretch. -/
theorem V0_eq : Gen.V0 m c = W11 m c := by
  unfold W11 W10 W9 W8 W7 W6 W5 W4 W3 W2 W1 W0
  simp only [Gen.V0, List.flatten_cons, List.flatten_nil, List.append_nil, after_append]

/-! ## The arguments are written by no stretch -/

theorem a1_0 : (W0 m c (Proc.devRef .tc main_arg1) : IVec S32768 32) = (m ((c : Thread nD τ).loc main_arg1)) :=
  rfl
theorem a1_1 : (W1 m c (Proc.devRef .tc main_arg1) : IVec S32768 32) = (m ((c : Thread nD τ).loc main_arg1)) :=
  (keep0_main_arg1 (W0 m c)).trans (a1_0 m c)
theorem a1_2 : (W2 m c (Proc.devRef .tc main_arg1) : IVec S32768 32) = (m ((c : Thread nD τ).loc main_arg1)) :=
  (keep1_main_arg1 (W1 m c)).trans (a1_1 m c)
theorem a1_3 : (W3 m c (Proc.devRef .tc main_arg1) : IVec S32768 32) = (m ((c : Thread nD τ).loc main_arg1)) :=
  (keep2_main_arg1 (W2 m c)).trans (a1_2 m c)
theorem a1_4 : (W4 m c (Proc.devRef .tc main_arg1) : IVec S32768 32) = (m ((c : Thread nD τ).loc main_arg1)) :=
  (keep3_main_arg1 (W3 m c)).trans (a1_3 m c)
theorem a1_5 : (W5 m c (Proc.devRef .tc main_arg1) : IVec S32768 32) = (m ((c : Thread nD τ).loc main_arg1)) :=
  (keep4_main_arg1 (W4 m c)).trans (a1_4 m c)
theorem a1_6 : (W6 m c (Proc.devRef .tc main_arg1) : IVec S32768 32) = (m ((c : Thread nD τ).loc main_arg1)) :=
  (keep5_main_arg1 (W5 m c)).trans (a1_5 m c)
theorem a1_7 : (W7 m c (Proc.devRef .tc main_arg1) : IVec S32768 32) = (m ((c : Thread nD τ).loc main_arg1)) :=
  (keep6_main_arg1 (W6 m c)).trans (a1_6 m c)
theorem a1_8 : (W8 m c (Proc.devRef .tc main_arg1) : IVec S32768 32) = (m ((c : Thread nD τ).loc main_arg1)) :=
  (keep7_main_arg1 (W7 m c)).trans (a1_7 m c)
theorem a0_0 : (W0 m c (Proc.devRef .tc main_arg0) : FVec F S32768x512 .f32) = (m ((c : Thread nD τ).loc main_arg0)) :=
  rfl
theorem a0_1 : (W1 m c (Proc.devRef .tc main_arg0) : FVec F S32768x512 .f32) = (m ((c : Thread nD τ).loc main_arg0)) :=
  (keep0_main_arg0 (W0 m c)).trans (a0_0 m c)
theorem a0_2 : (W2 m c (Proc.devRef .tc main_arg0) : FVec F S32768x512 .f32) = (m ((c : Thread nD τ).loc main_arg0)) :=
  (keep1_main_arg0 (W1 m c)).trans (a0_1 m c)
theorem a0_3 : (W3 m c (Proc.devRef .tc main_arg0) : FVec F S32768x512 .f32) = (m ((c : Thread nD τ).loc main_arg0)) :=
  (keep2_main_arg0 (W2 m c)).trans (a0_2 m c)
theorem a0_4 : (W4 m c (Proc.devRef .tc main_arg0) : FVec F S32768x512 .f32) = (m ((c : Thread nD τ).loc main_arg0)) :=
  (keep3_main_arg0 (W3 m c)).trans (a0_3 m c)
theorem a0_5 : (W5 m c (Proc.devRef .tc main_arg0) : FVec F S32768x512 .f32) = (m ((c : Thread nD τ).loc main_arg0)) :=
  (keep4_main_arg0 (W4 m c)).trans (a0_4 m c)
theorem a0_6 : (W6 m c (Proc.devRef .tc main_arg0) : FVec F S32768x512 .f32) = (m ((c : Thread nD τ).loc main_arg0)) :=
  (keep5_main_arg0 (W5 m c)).trans (a0_5 m c)
theorem a0_7 : (W7 m c (Proc.devRef .tc main_arg0) : FVec F S32768x512 .f32) = (m ((c : Thread nD τ).loc main_arg0)) :=
  (keep6_main_arg0 (W6 m c)).trans (a0_6 m c)
theorem a0_8 : (W8 m c (Proc.devRef .tc main_arg0) : FVec F S32768x512 .f32) = (m ((c : Thread nD τ).loc main_arg0)) :=
  (keep7_main_arg0 (W7 m c)).trans (a0_7 m c)
theorem a0_9 : (W9 m c (Proc.devRef .tc main_arg0) : FVec F S32768x512 .f32) = (m ((c : Thread nD τ).loc main_arg0)) :=
  (keep8_main_arg0 (W8 m c)).trans (a0_8 m c)
theorem a0_10 : (W10 m c (Proc.devRef .tc main_arg0) : FVec F S32768x512 .f32) = (m ((c : Thread nD τ).loc main_arg0)) :=
  (keep9_main_arg0 (W9 m c)).trans (a0_9 m c)
theorem a2_0 : (W0 m c (Proc.devRef .tc main_arg2) : FVec F S8x512x512 .f32) = (m ((c : Thread nD τ).loc main_arg2)) :=
  rfl
theorem a2_1 : (W1 m c (Proc.devRef .tc main_arg2) : FVec F S8x512x512 .f32) = (m ((c : Thread nD τ).loc main_arg2)) :=
  (keep0_main_arg2 (W0 m c)).trans (a2_0 m c)
theorem a2_2 : (W2 m c (Proc.devRef .tc main_arg2) : FVec F S8x512x512 .f32) = (m ((c : Thread nD τ).loc main_arg2)) :=
  (keep1_main_arg2 (W1 m c)).trans (a2_1 m c)
theorem a2_3 : (W3 m c (Proc.devRef .tc main_arg2) : FVec F S8x512x512 .f32) = (m ((c : Thread nD τ).loc main_arg2)) :=
  (keep2_main_arg2 (W2 m c)).trans (a2_2 m c)
theorem a2_4 : (W4 m c (Proc.devRef .tc main_arg2) : FVec F S8x512x512 .f32) = (m ((c : Thread nD τ).loc main_arg2)) :=
  (keep3_main_arg2 (W3 m c)).trans (a2_3 m c)
theorem a2_5 : (W5 m c (Proc.devRef .tc main_arg2) : FVec F S8x512x512 .f32) = (m ((c : Thread nD τ).loc main_arg2)) :=
  (keep4_main_arg2 (W4 m c)).trans (a2_4 m c)
theorem a2_6 : (W6 m c (Proc.devRef .tc main_arg2) : FVec F S8x512x512 .f32) = (m ((c : Thread nD τ).loc main_arg2)) :=
  (keep5_main_arg2 (W5 m c)).trans (a2_5 m c)
theorem a2_7 : (W7 m c (Proc.devRef .tc main_arg2) : FVec F S8x512x512 .f32) = (m ((c : Thread nD τ).loc main_arg2)) :=
  (keep6_main_arg2 (W6 m c)).trans (a2_6 m c)
theorem a2_8 : (W8 m c (Proc.devRef .tc main_arg2) : FVec F S8x512x512 .f32) = (m ((c : Thread nD τ).loc main_arg2)) :=
  (keep7_main_arg2 (W7 m c)).trans (a2_7 m c)
theorem a2_9 : (W9 m c (Proc.devRef .tc main_arg2) : FVec F S8x512x512 .f32) = (m ((c : Thread nD τ).loc main_arg2)) :=
  (keep8_main_arg2 (W8 m c)).trans (a2_8 m c)
theorem a2_10 : (W10 m c (Proc.devRef .tc main_arg2) : FVec F S8x512x512 .f32) = (m ((c : Thread nD τ).loc main_arg2)) :=
  (keep9_main_arg2 (W9 m c)).trans (a2_9 m c)

/-! ## The values, stretch after stretch -/

theorem h6 : (W1 m c (Proc.devRef .tc main_v6) : IVec S32768x8 32) = Chain.onehot (m ((c : Thread nD τ).loc main_arg1)) :=
  seg0_v6 (W0 m c) _ (a1_0 m c)
theorem h7 : (W2 m c (Proc.devRef .tc main_v7) : IVec S32768x8 32) = Chain.cum (m ((c : Thread nD τ).loc main_arg1)) :=
  seg1_v7 (W1 m c) _ (h6 m c)
theorem h7_3 : (W3 m c (Proc.devRef .tc main_v7) : IVec S32768x8 32) = Chain.cum (m ((c : Thread nD τ).loc main_arg1)) :=
  (keep2_main_v7 (W2 m c)).trans (h7 m c)
theorem h9 : (W3 m c (Proc.devRef .tc main_v9) : IVec S8 32) = Chain.counts (m ((c : Thread nD τ).loc main_arg1)) :=
  seg2_v9 (W2 m c) _ (h7 m c)
theorem h10 : (W3 m c (Proc.devRef .tc main_v10) : IVec S32768x1 32) = broadcastInDim S32768x1 ![0] bcast_S32768_S32768x1_0 (m ((c : Thread nD τ).loc main_arg1)) :=
  seg2_v10 (W2 m c) _ (a1_2 m c)
theorem h11 : (W4 m c (Proc.devRef .tc main_v11) : IVec S32768x1 32) = Chain.taken (m ((c : Thread nD τ).loc main_arg1)) :=
  seg3_v11 (W3 m c) _ (h10 m c) (h7_3 m c)
theorem h9_4 : (W4 m c (Proc.devRef .tc main_v9) : IVec S8 32) = Chain.counts (m ((c : Thread nD τ).loc main_arg1)) :=
  (keep3_main_v9 (W3 m c)).trans (h9 m c)
theorem h14 : (W5 m c (Proc.devRef .tc main_v14) : IVec S32768 32) = Chain.rank (m ((c : Thread nD τ).loc main_arg1)) :=
  seg4_v14 (W4 m c) _ (h11 m c)
theorem h18 : (W5 m c (Proc.devRef .tc main_v18) : IVec S8 32) = subi (addi (Chain.counts (m ((c : Thread nD τ).loc main_arg1))) (Chain.splat8 1024#32)) (Chain.splat8 1#32) :=
  seg4_v18 (W4 m c) _ (h9_4 m c)
theorem hc2 : (W5 m c (Proc.devRef .tc main_c_2) : IVec S_ 32) = constantI S_ 32 1024#32 :=
  seg4_c2 (W4 m c)
theorem h19 : (W6 m c (Proc.devRef .tc main_v19) : IVec S8 32) = Chain.floorDiv1024 (subi (addi (Chain.counts (m ((c : Thread nD τ).loc main_arg1))) (Chain.splat8 1024#32)) (Chain.splat8 1#32)) :=
  seg5_v19 (W5 m c) _ (h18 m c) (hc2 m c)
theorem h14_6 : (W6 m c (Proc.devRef .tc main_v14) : IVec S32768 32) = Chain.rank (m ((c : Thread nD τ).loc main_arg1)) :=
  (keep5_main_v14 (W5 m c)).trans (h14 m c)
theorem h21 : (W7 m c (Proc.devRef .tc main_v21) : IVec S8 32) = Chain.pcount (m ((c : Thread nD τ).loc main_arg1)) :=
  seg6_v21 (W6 m c) _ (h19 m c)
theorem h22 : (W7 m c (Proc.devRef .tc main_v22) : IVec S1 32) = broadcastInDim S1 ![] bcast_S_S1 (constantI S_ 32 0#32) :=
  seg6_v22 (W6 m c)
theorem h14_7 : (W7 m c (Proc.devRef .tc main_v14) : IVec S32768 32) = Chain.rank (m ((c : Thread nD τ).loc main_arg1)) :=
  (keep6_main_v14 (W6 m c)).trans (h14_6 m c)
theorem h23 : (W8 m c (Proc.devRef .tc main_v23) : IVec S8 32) = Chain.pcum (m ((c : Thread nD τ).loc main_arg1)) :=
  seg7_v23 (W7 m c) _ (h21 m c)
theorem h22_8 : (W8 m c (Proc.devRef .tc main_v22) : IVec S1 32) = broadcastInDim S1 ![] bcast_S_S1 (constantI S_ 32 0#32) :=
  (keep7_main_v22 (W7 m c)).trans (h22 m c)
theorem h14_8 : (W8 m c (Proc.devRef .tc main_v14) : IVec S32768 32) = Chain.rank (m ((c : Thread nD τ).loc main_arg1)) :=
  (keep7_main_v14 (W7 m c)).trans (h14_7 m c)
theorem h25 : (W9 m c (Proc.devRef .tc main_v25) : IVec S8 32) = Chain.pstart (m ((c : Thread nD τ).loc main_arg1)) :=
  seg8_v25 (W8 m c) _ (h23 m c) (h22_8 m c)
theorem h33 : (W9 m c (Proc.devRef .tc main_v33) : IVec S32768 32) = Chain.dest (m ((c : Thread nD τ).loc main_arg1)) :=
  seg8_v33 (W8 m c) _ (h23 m c) (h22_8 m c) (a1_8 m c) (h14_8 m c)
theorem hc7 : (W9 m c (Proc.devRef .tc main_c_7) : IVec S_ 32) = constantI S_ 32 1024#32 :=
  seg8_c7 (W8 m c)
theorem h34 : (W10 m c (Proc.devRef .tc main_v34) : IVec S8 32) = Chain.ctiles (m ((c : Thread nD τ).loc main_arg1)) :=
  seg9_v34 (W9 m c) _ (h25 m c) (hc7 m c)
theorem h33_10 : (W10 m c (Proc.devRef .tc main_v33) : IVec S32768 32) = Chain.dest (m ((c : Thread nD τ).loc main_arg1)) :=
  (keep9_main_v33 (W9 m c)).trans (h33 m c)
theorem h44 : (W11 m c (Proc.devRef .tc main_v44) : IVec S40 32) = Chain.tileType (m ((c : Thread nD τ).loc main_arg1)) :=
  seg10_v44 (W10 m c) _ (h34 m c)
theorem h45 : (W11 m c (Proc.devRef .tc main_v45) : FVec F S8x512x512 .bf16) = Chain.Wb (m ((c : Thread nD τ).loc main_arg2)) :=
  seg10_v45 (W10 m c) _ (a2_10 m c)
theorem h54 : (W11 m c (Proc.devRef .tc main_v54) : FVec F S40960x512 .bf16) = Chain.paddedX (m ((c : Thread nD τ).loc main_arg0)) (m ((c : Thread nD τ).loc main_arg1)) :=
  seg10_v54 (W10 m c) _ _ (h33_10 m c) (a0_10 m c)
theorem h33_11 : (W11 m c (Proc.devRef .tc main_v33) : IVec S32768 32) = Chain.dest (m ((c : Thread nD τ).loc main_arg1)) :=
  (keep10_main_v33 (W10 m c)).trans (h33_10 m c)

/-! ## When the region is entered -/

/-- The table of tile labels is the routing chain's, of the label argument as launched. -/
theorem V_tileType :
    (Gen.V m c main_v44 : IVec S40 32) = Chain.tileType (m ((c : Thread nD τ).loc main_arg1)) := by
  show (Gen.V0 m c (Proc.devRef .tc main_v44) : IVec S40 32) = _
  rw [V0_eq]; exact h44 m c

/-- Each row's destination in the padded array. -/
theorem V_dest :
    (Gen.V m c main_v33 : IVec S32768 32) = Chain.dest (m ((c : Thread nD τ).loc main_arg1)) := by
  show (Gen.V0 m c (Proc.devRef .tc main_v33) : IVec S32768 32) = _
  rw [V0_eq]; exact h33_11 m c

/-- The padded array of rows. -/
theorem V_paddedX :
    (Gen.V m c main_v54 : FVec F S40960x512 .bf16)
      = Chain.paddedX (m ((c : Thread nD τ).loc main_arg0)) (m ((c : Thread nD τ).loc main_arg1)) := by
  show (Gen.V0 m c (Proc.devRef .tc main_v54) : FVec F S40960x512 .bf16) = _
  rw [V0_eq]; exact h54 m c

/-- The narrowed weights. -/
theorem V_Wb :
    (Gen.V m c main_v45 : FVec F S8x512x512 .bf16) = Chain.Wb (m ((c : Thread nD τ).loc main_arg2)) := by
  show (Gen.V0 m c (Proc.devRef .tc main_v45) : FVec F S8x512x512 .bf16) = _
  rw [V0_eq]; exact h45 m c

/-- The table of tile labels as the frame reads it (on device 0). -/
theorem tbl_eq :
    (Gen.tbl m 0 : IVec S40 32) = Chain.tileType (m (((0 : Dev nD) : Thread nD τ).loc main_arg1)) :=
  V_tileType m 0

end Cert.KernelIdeal.HostRead2

end
-- ==== Proof.RegionBody.lean ====
/-
  The kernel body at an index.

  One grid point stores, into its [1024, 512] output block, the product of the [1024, 512] block of the padded rows
  with the one [512, 512] weight matrix the point's [1, 512, 512] block holds:
  entry (p, q) of the block is  Σ_k a[p, k] · b[0, k, q].
-/
import proofs.«123552_j1236950581828_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The one store of the body covers the output block, and what it stores is the payload of the two loaded blocks. -/
theorem out_eq_pay {F : FTy → Type} [FloatOps F] (c : Dev nD) (i : grid0.Coords)
    (arg2 : Memref sig .tc .vmem S1024x512 .bf16) (harg2 : arg2.IsWhole)
    (arg3 : Memref sig .tc .vmem S1x512x512 .bf16) (harg3 : arg3.IsWhole)
    (arg4 : Memref sig .tc .vmem S1024x512 .f32) (harg4 : arg4.IsWhole)
    (x0 : Vec F S1024x512 .bf16) (x1 : Vec F S1x512x512 .bf16) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  try sl_unfold_words
  rw [View.canon_unit_zero zeros2]
  simp only [View.readAt_eq_ld, harg2.read_unread, harg3.read_unread, View.ld_unit_zero (S := S1024x512) zeros2,
    View.ld_unit_zero (S := S1x512x512) zeros3]

local notation "𝔻" => dot_S1024x512_S512x512_S1024x512_1_0_0_1_n_n

theorem lhs_row (j : S1024x512.Idx) (k : (𝔻).contr.Idx) : ((𝔻).lhsIdx j k 0).val = (j 0).val := by
  unfold DotDims.lhsIdx
  rw [dif_neg (show ¬(0 : Fin S1024x512.rank) ∈ (𝔻).lhsBatch by decide), dif_pos (show (0 : Fin S1024x512.rank) ∈ (𝔻).lhsNonContracting by decide)]
  rfl
theorem lhs_col (j : S1024x512.Idx) (k : (𝔻).contr.Idx) : ((𝔻).lhsIdx j k 1).val = (k ⟨0, by decide⟩).val :=
  (𝔻).lhsIdx_val_of_single rfl j k
theorem rhs_row (j : S1024x512.Idx) (k : (𝔻).contr.Idx) : ((𝔻).rhsIdx j k 0).val = (k ⟨0, by decide⟩).val :=
  (𝔻).rhsIdx_val_of_single rfl j k
theorem rhs_col (j : S1024x512.Idx) (k : (𝔻).contr.Idx) : ((𝔻).rhsIdx j k 1).val = (j 1).val := by
  unfold DotDims.rhsIdx
  rw [dif_neg (show ¬(1 : Fin S512x512.rank) ∈ (𝔻).rhsBatch by decide), dif_pos (show (1 : Fin S512x512.rank) ∈ (𝔻).rhsNonContracting by decide)]
  rfl

/-- The [1, 512, 512] block read as a [512, 512] matrix: entry (k, q) is entry (0, k, q). -/
theorem cast_slab (b : S1x512x512.Idx → EReal) (k q : Fin 512) :
    shapeCast S512x512 b shapeCasts_S1x512x512_S512x512 (ix2 k q) = b (ix3 0 k q) :=
  shapeCast_apply b shapeCasts_S1x512x512_S512x512 (ix2 k q) (ix3 0 k q)
    (by rewrite [Shape.rowMajor_val_three, Shape.rowMajor_val_two]
        show (0 * 512 + k.val) * 512 + q.val = k.val * 512 + q.val
        omega)

/-- THE PAYLOAD AT AN INDEX: entry (p, q) is the sum over k of a[p, k] · b[0, k, q] (the accumulator the product is
    added into is the zero splat). -/
theorem pay_apply (x0 : Vec Ideal S1024x512 .bf16) (x1 : Vec Ideal S1x512x512 .bf16) (p : Fin 1024) (q : Fin 512) :
    k0_pay1 (F := Ideal) x0 x1 (ix2 p q) = ∑ k : Fin 512, x0 (ix2 p k) * x1 (ix3 0 k q) := by
  unfold k0_pay1
  refine (Ideal.matmul_constant_zero_apply 𝔻 none _ _ (ix2 p q)).trans ?_
  refine (Equiv.sum_comp (contrEquiv1 𝔻 512 rfl rfl).symm _).symm.trans ?_
  refine Finset.sum_congr rfl fun k _ => ?_
  have hk := contrEquiv1_symm_val 𝔻 512 rfl rfl k
  have el : (𝔻).lhsIdx (ix2 p q) ((contrEquiv1 𝔻 512 rfl rfl).symm k) = ix2 p k := funext fun a => Fin.ext (by
    match a with
    | ⟨0, _⟩ => exact lhs_row _ _
    | ⟨1, _⟩ => exact (lhs_col _ _).trans hk)
  have er : (𝔻).rhsIdx (ix2 p q) ((contrEquiv1 𝔻 512 rfl rfl).symm k) = ix2 k q := funext fun a => Fin.ext (by
    match a with
    | ⟨0, _⟩ => exact (rhs_row _ _).trans hk
    | ⟨1, _⟩ => exact rhs_col _ _)
  rw [el, er, shapeCast_self, cast_slab]

/-- WHAT ONE POINT LEAVES IN ITS OUTPUT BLOCK, at an index. -/
theorem out_apply (c : Dev nD) (i : grid0.Coords)
    (arg2 : Memref sig .tc .vmem S1024x512 .bf16) (harg2 : arg2.IsWhole)
    (arg3 : Memref sig .tc .vmem S1x512x512 .bf16) (harg3 : arg3.IsWhole)
    (arg4 : Memref sig .tc .vmem S1024x512 .f32) (harg4 : arg4.IsWhole)
    (x0 : Vec Ideal S1024x512 .bf16) (x1 : Vec Ideal S1x512x512 .bf16) (xt0 : TbBuf0 (F := Ideal) c tbM0_0)
    (p : Fin 1024) (q : Fin 512) :
    out0_A_2 (F := Ideal) c i arg2 harg2 arg3 harg3 arg4 harg4 x0 x1 xt0 (ix2 p q)
      = ∑ k : Fin 512, x0 (ix2 p k) * x1 (ix3 0 k q) := by
  rw [out_eq_pay]
  exact pay_apply x0 x1 p q

end Cert.KernelIdeal.Region

end
-- ==== Proof.RegionBlocks.lean ====
/-
  From the blocks to the array: what the grid of 40 points leaves in the [40960, 512] output.

  Point t reads block (t, 0) of the padded rows, block (w t, 0, 0) of the weights — w t the table's word for point t,
  below 8 under the side condition on the table — and writes block (t, 0) of the output. With the body's value at an
  index (entry (p, q) of the output block is Σ_k a[p, k] · b[0, k, q]) every point writes back its block of ONE
  function of the two arrays, the grouped product: entry (r, o) is Σ_k P[r, k] · Wb[w (r / 1024), k, o]; and the
  blocks of the 40 points cover the output. Everything about the windows is proved for ANY contents of the table that
  satisfy the side condition, and read at the table the region finds only in the last theorem.
-/
import proofs.«123552_j1236950581828_2_alg».proof.Proof.RegionBody
import proofs.«123552_j1236950581828_2_alg».proof.Proof.Spec

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-- The index maps of the padded rows and of the output over the grid: point t takes block (t, 0). -/
theorem map0 : ∀ t : Fin grid0.N, cc0_transform_0 (grid0.coords t) 0 = t.val ∧ cc0_transform_0 (grid0.coords t) 1 = 0 := by decide +kernel
theorem map2 : ∀ t : Fin grid0.N, cc0_transform_2 (grid0.coords t) 0 = t.val ∧ cc0_transform_2 (grid0.coords t) 1 = 0 := by decide +kernel
theorem off1 : ∀ t : Fin grid0.N, k0_off1 (grid0.coords t) 0 = t.val := by decide +kernel
theorem gridN : grid0.N = 40 := by decide
theorem point_lt (a : (pcfg0 (F := Ideal)).Adm) (t : Fin (cfg0 a).N) : t.val < 40 := lt_of_lt_of_eq t.isLt gridN

/-- The table's word for point t. -/
def word (pf : pre0.Contents (Elt Ideal)) (t : Fin 40) : BitVec 32 := pf 0 (ix1 t)

/-- The index map of the weights reads the table: point t takes block (word t, 0, 0). -/
theorem map1 (pf : pre0.Contents (Elt Ideal)) (t : Fin grid0.N) :
    cc0_transform_1 Facts₀.k0_off1_inb Facts₀.numel1_S1 pf (grid0.coords t) 0 = (word pf ⟨t.val, gridN ▸ t.isLt⟩).toNat
    ∧ cc0_transform_1 Facts₀.k0_off1_inb Facts₀.numel1_S1 pf (grid0.coords t) 1 = 0
    ∧ cc0_transform_1 Facts₀.k0_off1_inb Facts₀.numel1_S1 pf (grid0.coords t) 2 = 0 := by
  refine ⟨?_, rfl, rfl⟩
  unfold cc0_transform_1 word
  show (pf 0 _).toNat = (pf 0 _).toNat
  refine congrArg (fun j => (pf 0 j).toNat) (funext fun a => Fin.ext ?_)
  match a with
  | ⟨0, _⟩ =>
    show k0_off1 (grid0.coords t) 0 + 1 * 0 = t.val
    rw [off1 t]; omega

/-- Two [1024, 512] blocks that agree at every (p, q) are equal. -/
theorem block_ext (f g : S1024x512.Idx → EReal) (h : ∀ (p : Fin 1024) (q : Fin 512), f (ix2 p q) = g (ix2 p q)) : f = g :=
  funext fun j => by rw [eq_ix2 j]; exact h _ _

/-- An index lies under a unit-stride rectangle of the output array when each coordinate is in the rectangle's range. -/
theorem mem_block (off size : Fin main_v55.ty.shape.rank → Nat) (inb : ∀ b, off b + size b ≤ main_v55.ty.shape.size b)
    (i : main_v55.ty.shape.Idx) (h : ∀ b, off b ≤ (i b).val ∧ (i b).val < off b + size b) :
    i ∈ ((View.whole main_v55).slice (Rect.unit (s := main_v55.ty.shape) off size inb)).set := by
  rw [View.set_slice_whole, Rect.mem_set_unit]; exact h

section AnyTable

variable (a : (pcfg0 (F := Ideal)).Adm)

/-- The blocks of the three windows at point t, read off arrays of the windows' shapes. -/
abbrev rd0 (t : Fin (cfg0 a).N) (X : S40960x512.Idx → EReal) : S1024x512.Idx → EReal :=
  (((cfg0 a).win 0).blk t).view.read (Elt Ideal) X
abbrev rd1 (t : Fin (cfg0 a).N) (X : S8x512x512.Idx → EReal) : S1x512x512.Idx → EReal :=
  (((cfg0 a).win 1).blk t).view.read (Elt Ideal) X
abbrev rd2 (t : Fin (cfg0 a).N) (X : S40960x512.Idx → EReal) : S1024x512.Idx → EReal :=
  (((cfg0 a).win 2).blk t).view.read (Elt Ideal) X

/-- Under the side condition the word of every point is below 8. -/
theorem word_lt (t : Fin grid0.N) : (word a.1 ⟨t.val, gridN ▸ t.isLt⟩).toNat < 8 := by
  obtain ⟨h, -⟩ := a.2 (grid0.coords t)
  have h0 := h 0
  rw [(map1 a.1 t).1] at h0
  have e : S1x512x512.size 0 = 1 := rfl
  have e' : S8x512x512.size 0 = 8 := rfl
  rw [e, e'] at h0
  omega

/-- Entry (p, k) of the block of the padded rows at point t is entry (1024 t + p, k) of the array. -/
theorem blk0_read (t : Fin (cfg0 a).N) (X : S40960x512.Idx → EReal) (p : Fin 1024) (k : Fin 512) :
    rd0 a t X (ix2 p k)
      = X (ix2 (⟨t.val * 1024 + p.val, by have := point_lt a t; have := p.isLt; omega⟩ : Fin 40960) k) := by
  show X ((((cfg0 a).win 0).blk t).view.emb (ix2 p k)) = _
  refine congrArg X (funext fun b => Fin.ext ?_)
  match b with
  | ⟨0, _⟩ =>
    show cc0_transform_0 (grid0.coords t) 0 * 1024 + 1 * p.val = t.val * 1024 + p.val
    rw [(map0 t).1]; omega
  | ⟨1, _⟩ =>
    show cc0_transform_0 (grid0.coords t) 1 * 512 + 1 * k.val = k.val
    rw [(map0 t).2]; omega

/-- Entry (0, k, q) of the block of the weights at point t is entry (word t, k, q) of the array. -/
theorem blk1_read (t : Fin (cfg0 a).N) (X : S8x512x512.Idx → EReal) (k q : Fin 512) :
    rd1 a t X (ix3 (0 : Fin 1) k q)
      = X (ix3 (⟨(word a.1 ⟨t.val, point_lt a t⟩).toNat, word_lt a t⟩ : Fin 8) k q) := by
  show X ((((cfg0 a).win 1).blk t).view.emb (ix3 (0 : Fin 1) k q)) = _
  refine congrArg X (funext fun b => Fin.ext ?_)
  match b with
  | ⟨0, _⟩ =>
    show cc0_transform_1 Facts₀.k0_off1_inb Facts₀.numel1_S1 a.1 (grid0.coords t) 0 * 1 + 1 * 0 = (word a.1 ⟨t.val, point_lt a t⟩).toNat
    rw [(map1 a.1 t).1]; omega
  | ⟨1, _⟩ =>
    show cc0_transform_1 Facts₀.k0_off1_inb Facts₀.numel1_S1 a.1 (grid0.coords t) 1 * 512 + 1 * k.val = k.val
    rw [(map1 a.1 t).2.1]; omega
  | ⟨2, _⟩ =>
    show cc0_transform_1 Facts₀.k0_off1_inb Facts₀.numel1_S1 a.1 (grid0.coords t) 2 * 512 + 1 * q.val = q.val
    rw [(map1 a.1 t).2.2]; omega

/-- Entry (p, q) of the output's block at point t is entry (1024 t + p, q) of the array. -/
theorem blk2_read (t : Fin (cfg0 a).N) (X : S40960x512.Idx → EReal) (p : Fin 1024) (q : Fin 512) :
    rd2 a t X (ix2 p q)
      = X (ix2 (⟨t.val * 1024 + p.val, by have := point_lt a t; have := p.isLt; omega⟩ : Fin 40960) q) := by
  show X ((((cfg0 a).win 2).blk t).view.emb (ix2 p q)) = _
  refine congrArg X (funext fun b => Fin.ext ?_)
  match b with
  | ⟨0, _⟩ =>
    show cc0_transform_2 (grid0.coords t) 0 * 1024 + 1 * p.val = t.val * 1024 + p.val
    rw [(map2 t).1]; omega
  | ⟨1, _⟩ =>
    show cc0_transform_2 (grid0.coords t) 1 * 512 + 1 * q.val = q.val
    rw [(map2 t).2]; omega

/-- The label of the tile that row 1024 t + p lies in is the word of point t. -/
theorem tileLab_eq (tt : S40.Idx → BitVec 32) (htt : ∀ j : Fin 40, word a.1 j = tt (ix1 j))
    (t : Fin (cfg0 a).N) (p : Fin 1024) (h : (t.val * 1024 + p.val) / 1024 < 40) :
    Cert.Spec.tileLab tt ⟨(t.val * 1024 + p.val) / 1024, h⟩ = ⟨(word a.1 ⟨t.val, point_lt a t⟩).toNat, word_lt a t⟩ := by
  have e : (⟨(t.val * 1024 + p.val) / 1024, h⟩ : Fin 40) = ⟨t.val, point_lt a t⟩ := Fin.ext (by
    show (t.val * 1024 + p.val) / 1024 = t.val
    have := p.isLt; omega)
  rw [e]
  apply Fin.ext
  show (tt (ix1 _)).toNat % 8 = (word a.1 _).toNat
  rw [← htt]
  exact Nat.mod_eq_of_lt (word_lt a t)

/-- WHAT POINT t WRITES BACK is block t of the grouped product of the two arrays. -/
theorem flushed_eq (c : Dev nD) (dat : Dat τ (Elt Ideal) Unit ℕ (UR sig nD τ) ℕ (cfg0 a) c)
    (X0 : S40960x512.Idx → EReal) (X1 : S8x512x512.Idx → EReal)
    (tt : S40.Idx → BitVec 32) (htt : ∀ j : Fin 40, word a.1 j = tt (ix1 j))
    (hafter : ∀ (t : Fin (cfg0 a).N) (p : Fin 1024) (q : Fin 512), (dat.after 2 t : S1024x512.Idx → EReal) (ix2 p q)
      = ∑ k : Fin 512, rd0 a t X0 (ix2 p k) * rd1 a t X1 (ix3 (0 : Fin 1) k q))
    (t : Fin (cfg0 a).N) :
    dat.flushed 2 t = (((cfg0 a).win 2).blk t).view.read (Elt Ideal) (Cert.Spec.MM X0 X1 tt) := by
  refine block_ext (dat.after 2 t) (rd2 a t (Cert.Spec.MM X0 X1 tt)) fun p q => ?_
  rw [hafter, blk2_read, Cert.Spec.MM_apply]
  refine Finset.sum_congr rfl fun k _ => ?_
  rw [blk0_read, blk1_read, tileLab_eq a tt htt]

/-- Every row of the output lies in the block of the point (row / 1024), which is written back. -/
theorem cover (i : S40960x512.Idx) :
    ∃ t : Fin (cfg0 a).N, ((cfg0 a).win 2).flush t = true ∧ i ∈ (((cfg0 a).win 2).blk t).view.set := by
  have h0 : (i 0).val < 40960 := (i 0).isLt
  have h1 : (i 1).val < 512 := (i 1).isLt
  have hN : (i 0).val / 1024 < (cfg0 a).N := lt_of_lt_of_eq (by omega : (i 0).val / 1024 < 40) gridN.symm
  refine ⟨⟨(i 0).val / 1024, hN⟩, flush0_2 a _, ?_⟩
  refine mem_block _ _ _ i fun b => ?_
  match b with
  | ⟨0, _⟩ =>
    show cc0_transform_2 (grid0.coords ⟨(i 0).val / 1024, hN⟩) 0 * 1024 ≤ (i 0).val
      ∧ (i 0).val < cc0_transform_2 (grid0.coords ⟨(i 0).val / 1024, hN⟩) 0 * 1024 + 1024
    rw [(map2 ⟨(i 0).val / 1024, hN⟩).1]
    show (i 0).val / 1024 * 1024 ≤ (i 0).val ∧ (i 0).val < (i 0).val / 1024 * 1024 + 1024
    omega
  | ⟨1, _⟩ =>
    show cc0_transform_2 (grid0.coords ⟨(i 0).val / 1024, hN⟩) 1 * 512 ≤ (i 1).val
      ∧ (i 1).val < cc0_transform_2 (grid0.coords ⟨(i 0).val / 1024, hN⟩) 1 * 512 + 512
    rw [(map2 ⟨(i 0).val / 1024, hN⟩).2]
    omega

/-- THE OUTPUT ARRAY AFTER THE REGION, for any contents of the table that satisfy the side condition: the grouped
    product of the two arrays the region finds. -/
theorem arr_eq (c : Dev nD) (dat : Dat τ (Elt Ideal) Unit ℕ (UR sig nD τ) ℕ (cfg0 a) c)
    (X0 : S40960x512.Idx → EReal) (X1 : S8x512x512.Idx → EReal)
    (tt : S40.Idx → BitVec 32) (htt : ∀ j : Fin 40, word a.1 j = tt (ix1 j))
    (hafter : ∀ (t : Fin (cfg0 a).N) (p : Fin 1024) (q : Fin 512), (dat.after 2 t : S1024x512.Idx → EReal) (ix2 p q)
      = ∑ k : Fin 512, rd0 a t X0 (ix2 p k) * rd1 a t X1 (ix3 (0 : Fin 1) k q)) :
    dat.arrAt 2 (cfg0 a).N = Cert.Spec.MM X0 X1 tt :=
  dat.arrAt_eq_of_cover 2 (Cert.Spec.MM X0 X1 tt) (fun t _ => flushed_eq a c dat X0 X1 tt htt hafter t) (cover a)

end AnyTable

/-- THE OUTPUT ARRAY AFTER THE REGION: entry (r, o) is the sum over k of (padded rows)[r, k] times
    (weights)[word of tile r / 1024, k, o]. -/
theorem region_value (m : (ℓ : Loc nD τ sig) → Buf (Elt Ideal) ℓ) (hO : Gen.Ok m) (c : Dev nD) :
    ((Gen.dats m hO 0 c).arrAt 2 (Gen.cfgM m hO).N : S40960x512.Idx → EReal)
      = Cert.Spec.MM (Gen.V m c main_v54) (Gen.V m c main_v45) (Gen.tbl m 0) :=
  arr_eq (adm m hO) c (dats m hO 0 c) (V m c main_v54) (V m c main_v45) (tbl m 0) (fun _ => rfl) (fun t p q => by
    rw [after0_2]
    unfold outsAt0
    exact out_apply c (grid0.coords t) (ms0_0 m hO t) (hs0_0 m hO t) (ms0_1 m hO t) (hs0_1 m hO t) (ms0_2 m hO t) (hs0_2 m hO t)
      (iblk m hO c 0 t) (iblk m hO c 1 t) (tbl m 0) p q)

end Cert.KernelIdeal.Region
end
-- ==== Proof.OkOfTable.lean ====
/-
  The pipeline's side condition from a bound on the prefetched table. The second window's index map reads the table word
  w at the grid coordinate and names the block (w, 0, 0) of the [8, 512, 512] array in blocks of [1, 512, 512]: the block
  lies inside the array when w + 1 ≤ 8, and it is whole words at two elements a word because its 512 rows are an even
  number. The table's contents stay a variable throughout.
-/
import proofs.«123552_j1236950581828_2_alg».proof.Proof.Gen.KernelIdeal.Frame
import Idealize.ShloMosaic.Lib.ValueIdx

noncomputable section

namespace Cert.KernelIdeal.OkOfTable

open Cert.KernelIdeal Cert.KernelIdeal.Facts₀ Cert.KernelIdeal.Facts
open Idealize.ShloMosaic

variable [Cert.KernelIdeal.Facts] {F : FTy → Type} [FloatOps F]

/-- A bound at every row index of the [40] table is a bound at every index of it. -/
theorem bound_all (t : IVec S40 32) (h : ∀ j : Fin 40, (t (ValueIdx.ix1 j)).toNat < 8) (x : S40.Idx) : (t x).toNat < 8 := by
  rw [ValueIdx.eq_ix1 x]; exact h (x 0)

/-- The index map at a grid point: the table word, then zeros. -/
theorem transform_eq (pf : pre0.Contents (Elt F)) (h : ∀ x : S40.Idx, ((pf 0 : IVec S40 32) x).toNat < 8) (i : grid0.Coords) :
    ∃ w : BitVec 32, w.toNat < 8 ∧ cc0_transform_1 k0_off1_inb numel1_S1 pf i = ![w.toNat, 0, 0] :=
  ⟨_, h _, rfl⟩

/-- The block (w, 0, 0) with w < 8 lies inside the [8, 512, 512] array. -/
theorem block_inb (f : Fin 3 → Nat) (w : Nat) (hw : w < 8) (e : f = ![w, 0, 0]) :
    ∀ a, (f a + 1) * S1x512x512.size a ≤ S8x512x512.size a := by
  intro a
  subst e
  fin_cases a
  · show (w + 1) * 1 ≤ 8; omega
  · show (0 + 1) * 512 ≤ 512; omega
  · show (0 + 1) * 512 ≤ 512; omega

/-- THE SIDE CONDITION: every table word below 8 makes every table-indexed block lie inside its array, whole words. -/
theorem ok_of_table (pf : pre0.Contents (Elt F))
    (h : ∀ j : Fin 40, ((pf 0 : IVec S40 32) (ValueIdx.ix1 j)).toNat < 8) : ok0 (F := F) pf := by
  intro i
  obtain ⟨w, hw, e⟩ := transform_eq pf (bound_all (pf 0) h) i
  exact ⟨block_inb _ w.toNat hw e, Or.inr (Affine.block_words_dvd (by decide) (by decide))⟩

/-- The same at the launch memory's table. -/
theorem ok_of_tbl (m : (ℓ : Loc nD τ sig) → Buf (Elt F) ℓ)
    (h : ∀ j : Fin 40, ((Gen.tbl m 0 : IVec S40 32) (ValueIdx.ix1 j)).toNat < 8) : Gen.Ok m :=
  ok_of_table (Gen.tbl m) h

end Cert.KernelIdeal.OkOfTable

end
-- ==== Proof.KernelValue.lean ====
/-
  The kernel's value: under labels in 0..7 the program's result is the typed linear layer.

  The rows are routed to distinct padded rows dst r (a counting sort), tile dst r / 1024 carries r's label, the region
  multiplies every tile by its label's weight matrix, and the rows are gathered back from dst r: so row r of the result
  is row r of x times the weight matrix of r's label.
-/
import proofs.«123552_j1236950581828_2_alg».proof.Defs
import proofs.«123552_j1236950581828_2_alg».proof.Proof.Gen.KernelIdeal.Frame
import proofs.«123552_j1236950581828_2_alg».proof.Proof.Routing
import proofs.«123552_j1236950581828_2_alg».proof.Proof.Tail
import proofs.«123552_j1236950581828_2_alg».proof.Proof.HostRead2
import proofs.«123552_j1236950581828_2_alg».proof.Proof.RegionBlocks
import proofs.«123552_j1236950581828_2_alg».proof.Proof.OkOfTable

noncomputable section

namespace Cert.KernelIdeal.Value

open Idealize.ShloMosaic Idealize.ShloMosaic.TcCoe Idealize.ShloMosaic.ValueIdx Idealize.SL.Sem Cert.KernelIdeal

variable [Facts] (m : (ℓ : Loc nD τ sig) → Buf (Elt Ideal) ℓ) (ρ : Dev nD → PrngReg)

/-- With every label below 8 every entry of the prefetched table is a label, which is the side condition of the
    region's frame. -/
theorem ok_of_labels
    (hty : ∀ r : Fin 32768, ((m (((0 : Dev nD) : Thread nD τ).loc main_arg1) : IVec S32768 32) (ix1 r)).toNat < 8) :
    Gen.Ok m :=
  OkOfTable.ok_of_tbl m (fun j => by rw [HostRead2.tbl_eq m]; exact tileType_lt _ hty j)

/-- Every weakly fair execution of the idealized kernel ends with the typed linear layer in its result. -/
theorem kernel_run
    (hty : ∀ (c : Dev nD) (r : Fin 32768), ((m ((c.tc : Thread nD τ).loc main_arg1) : IVec S32768 32) (ix1 r)).toNat < 8) :
    θ_run (defs (F := Ideal)) (onTc (τ := τ) (main (F := Ideal))) ⟨m, fun _ => 0, ρ⟩ (fun r => ∀ c : Dev nD,
      r.2.mem ((c.tc : Thread nD τ).loc main_v62)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hO : Gen.Ok m := ok_of_labels m (hty 0)
  refine (θ_run defs _ _).mono (fun r h c => ⟨?_,
      (((h c).2 main_arg0 (by decide : main_arg0 ∈ Pipeline.restRefs sig spec0)).trans (Gen.W_main_arg0 m hO (Gen.dats m hO) c)),
      (((h c).2 main_arg1 (by decide : main_arg1 ∈ Pipeline.restRefs sig spec0)).trans (Gen.W_main_arg1 m hO (Gen.dats m hO) c)),
      (((h c).2 main_arg2 (by decide : main_arg2 ∈ Pipeline.restRefs sig spec0)).trans (Gen.W_main_arg2 m hO (Gen.dats m hO) c))⟩)
    (Gen.run_main m ρ hO)
  have h1 := (h c).2 main_v62 (by decide : main_v62 ∈ Pipeline.restRefs sig spec0)
  obtain rfl : c = 0 := Subsingleton.elim _ _
  refine h1.trans ?_
  rw [Tail.tail_v62 m hO 0, Region.region_value m hO 0, HostRead2.V_dest m 0, HostRead2.V_paddedX m 0, HostRead2.V_Wb m 0,
    HostRead2.tbl_eq m]
  exact routed _ (hty 0) _ _

end Cert.KernelIdeal.Value

end
-- ==== Proof.PreFacts.lean ====
/-
  The documented precondition, decoded. The predicate is the conjunction of three reductions by "and"; the third says
  that every label is at least 0 and below 8 as a signed word. A word in [0, 8) signed is below 8 unsigned. Only that
  conjunct is read back here: nothing downstream needs the two finiteness conjuncts.
-/
import proofs.«123552_j1236950581828_2_alg».proof.Pre_finite_inputs
import proofs.«123552_j1236950581828_2_alg».proof.Proof.Gen.Pre_finite_inputs
import Idealize.ShloMosaic.Lib.ReduceAll
import Idealize.ShloMosaic.Lib.ValueIdx

noncomputable section

namespace Cert.PreFacts

open Idealize.ShloMosaic

/-- The rank-0 shape has one index. -/
instance subsingleton_S_ : Subsingleton Cert.Pre_finite_inputs.S_.Idx := ⟨fun a b => funext fun d => d.elim0⟩

/-- A word in [0, n) signed is below n unsigned. -/
theorem toNat_lt_of_signed (w : BitVec 32) (n : Nat) (hn : n < 2 ^ 31) (h0 : IntOp.cmpi .sge w (0#32) = 1#1)
    (h8 : IntOp.cmpi .slt w (BitVec.ofNat 32 n) = 1#1) : w.toNat < n := by
  rw [IntOp.cmpi_sge] at h0
  rw [IntOp.cmpi_slt] at h8
  have z : (0#32 : BitVec 32).toInt = 0 := by decide
  rw [z] at h0
  have hw : 2 * w.toNat < 2 ^ 32 := BitVec.toInt_pos_iff.1 h0
  have hnN : (BitVec.ofNat 32 n).toNat = n := by rw [BitVec.toNat_ofNat]; omega
  rw [BitVec.toInt_eq_toNat_of_lt hw, BitVec.toInt_eq_toNat_of_lt (by rw [hnN]; omega), hnN] at h8
  omega

/-- THE PRECONDITION DECODED: every label is below 8 as an unsigned word. -/
theorem labels_of_pre [Cert.Pre_finite_inputs.Facts] {F : FTy → Type} [FloatOps F]
    (x : FVec F Cert.Pre_finite_inputs.S32768x512 .f32) (ty : IVec Cert.Pre_finite_inputs.S32768 32)
    (W : FVec F Cert.Pre_finite_inputs.S8x512x512 .f32)
    (h : Cert.Pre_finite_inputs.fn (F := F) x ty W = fun _ => 1#1) :
    ∀ r : Fin 32768, (ty (ValueIdx.ix1 r)).toNat < 8 := by
  intro r
  have e := congrFun h ValueIdx.ix0
  dsimp only [Cert.Pre_finite_inputs.fn] at e
  -- the outer conjunction: the third conjunct is the reduction over the labels
  have e3 := (IntOp.andi_eq_one.1 e).2
  have el := Host.reduce_andi_all _ _ _ _ _ e3 (ValueIdx.ix1 r)
  obtain ⟨h0, h8⟩ := IntOp.andi_eq_one.1 el
  exact toNat_lt_of_signed _ 8 (by decide) h0 h8

end Cert.PreFacts

end
-- ==== Proof.KOkOfTable.lean ====
/-
  The pipeline's side condition from a bound on the prefetched table. The second window's index map reads the table word
  w at the grid coordinate and names the block (w, 0, 0) of the [8, 512, 512] array in blocks of [1, 512, 512]: the block
  lies inside the array when w + 1 ≤ 8, and it is whole words at two elements a word because its 512 rows are an even
  number. The table's contents stay a variable throughout.
-/
import proofs.«123552_j1236950581828_2_alg».proof.Proof.Gen.Kernel.Frame
import Idealize.ShloMosaic.Lib.ValueIdx

noncomputable section

namespace Cert.Kernel.OkOfTable

open Cert.Kernel Cert.Kernel.Facts₀ Cert.Kernel.Facts
open Idealize.ShloMosaic

variable [Cert.Kernel.Facts] {F : FTy → Type} [FloatOps F]

/-- A bound at every row index of the [40] table is a bound at every index of it. -/
theorem bound_all (t : IVec S40 32) (h : ∀ j : Fin 40, (t (ValueIdx.ix1 j)).toNat < 8) (x : S40.Idx) : (t x).toNat < 8 := by
  rw [ValueIdx.eq_ix1 x]; exact h (x 0)

/-- The index map at a grid point: the table word, then zeros. -/
theorem transform_eq (pf : pre0.Contents (Elt F)) (h : ∀ x : S40.Idx, ((pf 0 : IVec S40 32) x).toNat < 8) (i : grid0.Coords) :
    ∃ w : BitVec 32, w.toNat < 8 ∧ cc0_transform_1 k0_off1_inb numel1_S1 pf i = ![w.toNat, 0, 0] :=
  ⟨_, h _, rfl⟩

/-- The block (w, 0, 0) with w < 8 lies inside the [8, 512, 512] array. -/
theorem block_inb (f : Fin 3 → Nat) (w : Nat) (hw : w < 8) (e : f = ![w, 0, 0]) :
    ∀ a, (f a + 1) * S1x512x512.size a ≤ S8x512x512.size a := by
  intro a
  subst e
  fin_cases a
  · show (w + 1) * 1 ≤ 8; omega
  · show (0 + 1) * 512 ≤ 512; omega
  · show (0 + 1) * 512 ≤ 512; omega

/-- THE SIDE CONDITION: every table word below 8 makes every table-indexed block lie inside its array, whole words. -/
theorem ok_of_table (pf : pre0.Contents (Elt F))
    (h : ∀ j : Fin 40, ((pf 0 : IVec S40 32) (ValueIdx.ix1 j)).toNat < 8) : ok0 (F := F) pf := by
  intro i
  obtain ⟨w, hw, e⟩ := transform_eq pf (bound_all (pf 0) h) i
  exact ⟨block_inb _ w.toNat hw e, Or.inr (Affine.block_words_dvd (by decide) (by decide))⟩

/-- The same at the launch memory's table. -/
theorem ok_of_tbl (m : (ℓ : Loc nD τ sig) → Buf (Elt F) ℓ)
    (h : ∀ j : Fin 40, ((Gen.tbl m 0 : IVec S40 32) (ValueIdx.ix1 j)).toNat < 8) : Gen.Ok m :=
  ok_of_table (Gen.tbl m) h

end Cert.Kernel.OkOfTable

end
-- ==== Proof.KChain.lean ====
/-
  The routing arithmetic of the grouped matrix product, as pure functions of the label vector.

  Every row i of x carries a label ty i in 0..7 (the "type" whose weight matrix multiplies it).  The rows are
  regrouped by label with a counting sort: cum[i,t] counts the rows j ≤ i with label t, counts[t] is the
  whole count, every group is padded up to a multiple of 1024 rows (pcount), pstart[t] is where group t starts
  in the padded array, and row i goes to  dest i = pstart[ty i] + (cum[i, ty i] − 1).  Tile j of the padded
  array (1024 rows) belongs to the group  tileType j = #{t | pstart[t]/1024 ≤ j} − 1.
  The functions below are those of the host program, operation by operation, so that the buffers' contents
  when the region is entered are these functions of the label argument.  This is the same chain over the program at the
  level of words, up to the table of tile labels.
-/
import proofs.«123552_j1236950581828_2_alg».proof.Kernel

noncomputable section

namespace Cert.Kernel.Chain

open Idealize.ShloMosaic Cert.Kernel

variable [Facts]
open Facts₀ Facts

/-- A label vector as a column, then along 8 columns: entry [i,t] is ty i. -/
def tyCols (ty : IVec S32768 32) : IVec S32768x8 32 :=
  broadcastInDim S32768x8 ![0, 1] bcast_S32768x1_S32768x8_0_1 (broadcastInDim S32768x1 ![0] bcast_S32768_S32768x1_0 ty)

/-- Entry [i,t] is t. -/
def iotaCols : IVec S32768x8 32 :=
  broadcastInDim S32768x8 ![0, 1] bcast_S1x8_S32768x8_0_1 (broadcastInDim S1x8 ![1] bcast_S8_S1x8_1 (iotaInDim S8 32 0))

/-- Entry [i,t] is 1 when ty i = t and 0 otherwise. -/
def onehot (ty : IVec S32768 32) : IVec S32768x8 32 :=
  extui 32 (cmpi .eq (tyCols ty) iotaCols) natLt_1_32

/-- Entry [i,t] is the number of rows j ≤ i with ty j = t (a running sum down the rows). -/
def cum (ty : IVec S32768 32) : IVec S32768x8 32 :=
  Host.reduceWindow IntOp.addi ![32768, 1] ![1, 1] ![32767, 0] ![0, 0] (onehot ty)
    (broadcastInDim S_ ![] bcast_S_S_ (constantI S_ 32 0#32))
    reduceWindows_S32768x8_S32768x8_w32768s1p32767_0_w1s1p0_0 h_S_

/-- Entry t is the number of rows with label t: the last row of cum. -/
def counts (ty : IVec S32768 32) : IVec S8 32 :=
  shapeCast S8 (extractStridedSlice S1x8 ![32767, 0] (cum ty) slices_S32768x8_S1x8_32767_0) shapeCasts_S1x8_S8

/-- The constant v along the 32768 rows, and along the 8 labels. -/
def splatN (v : BitVec 32) : IVec S32768 32 := broadcastInDim S32768 ![] bcast_S_S32768 (constantI S_ 32 v)
def splat8 (v : BitVec 32) : IVec S8 32 := broadcastInDim S8 ![] bcast_S_S8 (constantI S_ 32 v)

/-- The labels as a column, a negative label counted from the end (+8). -/
def normCol (ty : IVec S32768 32) : IVec S32768x1 32 :=
  select (cmpi .slt (broadcastInDim S32768x1 ![0] bcast_S32768_S32768x1_0 ty)
      (broadcastInDim S32768x1 ![] bcast_S_S32768x1 (constantI S_ 32 0#32)))
    (addi (broadcastInDim S32768x1 ![0] bcast_S32768_S32768x1_0 ty)
      (broadcastInDim S32768x1 ![] bcast_S_S32768x1 (constantI S_ 32 8#32)))
    (broadcastInDim S32768x1 ![0] bcast_S32768_S32768x1_0 ty)

/-- The column index each row takes from cum. -/
def takeIdx (ty : IVec S32768 32) : IVec S32768x1x1 32 :=
  shapeCast S32768x1x1 (normCol ty) shapeCasts_S32768x1_S32768x1x1

/-- Whether that column index lies in 0..7. -/
def takeInb (ty : IVec S32768 32) : IVec S32768x1 1 :=
  Host.reduce IntOp.andi
    (andi (cmpi .sge (takeIdx ty) (broadcastInDim S32768x1x1 ![] bcast_S_S32768x1x1 (constantI S_ 32 0#32)))
      (cmpi .sle (takeIdx ty) (broadcastInDim S32768x1x1 ![0, 1, 2] bcast_S1x1x1_S32768x1x1_0_1_2
        (broadcastInDim S1x1x1 ![2] bcast_S1_S1x1x1_2 (constantI S1 32 7#32)))))
    (constantI S_ 1 1#1) reducesTo_S32768x1x1_S32768x1_d2 h_S_

/-- cum[i, ty i] as a column (the smallest integer where the index is out of range). -/
def taken (ty : IVec S32768 32) : IVec S32768x1 32 :=
  select (takeInb ty) (Host.gather gather_S32768x8_S32768x1x1_S32768x1_n_1_0_0_1_2_11 (cum ty) (takeIdx ty))
    (broadcastInDim S32768x1 ![] bcast_S_S32768x1 (constantI S_ 32 2147483648#32))

/-- Entry i is cum[i, ty i] − 1: the position of row i among the rows of its label. -/
def rank (ty : IVec S32768 32) : IVec S32768 32 :=
  subi (shapeCast S32768 (taken ty) shapeCasts_S32768x1_S32768) (splatN 1#32)

/-- Floor division by 1024 of each of 8 integers, as the host computes it: the truncated quotient, less one when
    the signs of dividend and divisor differ and the remainder is not zero. -/
def floorDiv1024 (x : IVec S8 32) : IVec S8 32 :=
  select (andi (cmpi .ne (signi x) (broadcastInDim S8 ![] bcast_S_S8 (signi (constantI S_ 32 1024#32))))
      (cmpi .ne (Host.remsi x (splat8 1024#32)) (splat8 0#32)))
    (subi (Host.divsi x (splat8 1024#32)) (splat8 1#32)) (Host.divsi x (splat8 1024#32))

/-- Entry t is counts[t] rounded up to a multiple of 1024. -/
def pcount (ty : IVec S32768 32) : IVec S8 32 :=
  muli (floorDiv1024 (subi (addi (counts ty) (splat8 1024#32)) (splat8 1#32))) (splat8 1024#32)

/-- Running sums of pcount. -/
def pcum (ty : IVec S32768 32) : IVec S8 32 :=
  Host.reduceWindow IntOp.addi ![8] ![1] ![7] ![0] (pcount ty)
    (broadcastInDim S_ ![] bcast_S_S_ (constantI S_ 32 0#32)) reduceWindows_S8_S8_w8s1p7_0 h_S_

/-- Entry t is the sum of pcount over the labels below t: where group t starts in the padded array. -/
def pstart (ty : IVec S32768 32) : IVec S8 32 :=
  concatenate S8 0 [⟨S1, broadcastInDim S1 ![] bcast_S_S1 (constantI S_ 32 0#32)⟩,
    ⟨S7, extractStridedSlice S7 ![0] (pcum ty) slices_S8_S7_0⟩] concatenates_S1_S7_S8_d0

/-- The labels, a negative label counted from the end (+8). -/
def normTy (ty : IVec S32768 32) : IVec S32768 32 :=
  select (cmpi .slt ty (splatN 0#32)) (addi ty (splatN 8#32)) ty

/-- Entry i is pstart[ty i] + rank i: the row of the padded array that row i goes to. -/
def dest (ty : IVec S32768 32) : IVec S32768 32 :=
  addi (Host.gather gather_S8_S32768x1_S32768_n_0_n_n_0_1_1 (pstart ty)
    (broadcastInDim S32768x1 ![0] bcast_S32768_S32768x1_0 (normTy ty))) (rank ty)

/-- Entry t is pstart[t] / 1024: the first tile of group t. -/
def ctiles (ty : IVec S32768 32) : IVec S8 32 := floorDiv1024 (pstart ty)

/-- Entry j is the number of labels t with ctiles[t] ≤ j, less one: the label whose group tile j lies in. -/
def tileType (ty : IVec S32768 32) : IVec S40 32 :=
  subi (Host.reduce IntOp.addi
      (extui 32 (cmpi .sge
        (broadcastInDim S40x8 ![0, 1] bcast_S40x1_S40x8_0_1 (broadcastInDim S40x1 ![0] bcast_S40_S40x1_0 (iotaInDim S40 32 0)))
        (broadcastInDim S40x8 ![0, 1] bcast_S1x8_S40x8_0_1 (broadcastInDim S1x8 ![1] bcast_S8_S1x8_1 (ctiles ty)))) natLt_1_32)
      (constantI S_ 32 0#32) reducesTo_S40x8_S40_d1 h_S_)
    (broadcastInDim S40 ![] bcast_S_S40 (constantI S_ 32 1#32))

end Cert.Kernel.Chain

end
-- ==== Proof.KHostRead.lean ====
/-
  What the table of tile labels holds when the region is entered: the host program before the region, read one stretch
  of operations at a time. Each stretch takes the contents of the buffers it reads, given as functions of the label
  vector, to the contents of the buffers later stretches read, again as functions of the label vector; a buffer no
  operation of a stretch writes keeps its contents across it. Composed, the table is the routing chain's table of the
  label argument as launched.
-/
import proofs.«123552_j1236950581828_2_alg».proof.Proof.Gen.Kernel.Frame
import proofs.«123552_j1236950581828_2_alg».proof.Proof.KChain
import Idealize.ShloMosaic.Lib.StableHlo.Run

set_option maxRecDepth 16384

noncomputable section

namespace Cert.Kernel.HostRead

open Cert.Kernel Cert.Kernel.Facts₀ Cert.Kernel.Facts
open Idealize.ShloMosaic Idealize.ShloMosaic.TcCoe Idealize.ShloMosaic.StableHlo
open Idealize.SL.Sem

variable [Cert.Kernel.Facts] {F : FTy → Type} [FloatOps F]

/-! ## One stretch at a time -/

/-- The labels against the column numbers: entry [i,t] is 1 when row i carries label t. -/
theorem seg0 (W : Valuation τ sig (Elt F)) (ty : IVec S32768 32)
    (h : (W (Proc.devRef .tc main_arg1) : IVec S32768 32) = ty) :
    (StableHlo.after Gen.hostOps0 W (Proc.devRef .tc main_v6) : IVec S32768x8 32) = Chain.onehot ty := by
  subst h
  simp only [Gen.hostOps0]
  after_results
  rfl

/-- The running sum down the rows. -/
theorem seg1 (W : Valuation τ sig (Elt F)) (ty : IVec S32768 32)
    (h : (W (Proc.devRef .tc main_v6) : IVec S32768x8 32) = Chain.onehot ty) :
    (StableHlo.after Gen.hostOps0_1 W (Proc.devRef .tc main_v7) : IVec S32768x8 32) = Chain.cum ty := by
  simp only [Gen.hostOps0_1]
  after_results
  rw [h]
  dsimp only [TRef.toBuf, TRef.ofBuf, cast_eq]
  unfold Chain.cum
  rfl

/-- The last row of the running sums: the count of each label. -/
theorem seg2 (W : Valuation τ sig (Elt F)) (ty : IVec S32768 32)
    (h : (W (Proc.devRef .tc main_v7) : IVec S32768x8 32) = Chain.cum ty) :
    (StableHlo.after Gen.hostOps0_2 W (Proc.devRef .tc main_v9) : IVec S8 32) = Chain.counts ty := by
  simp only [Gen.hostOps0_2]
  after_results
  rw [h]
  dsimp only [TRef.toBuf, TRef.ofBuf, cast_eq]
  unfold Chain.counts
  rfl

/-- The stretch that takes each row's own running sum writes nothing the counts are read from. -/
theorem seg3_keeps (W : Valuation τ sig (Elt F)) :
    StableHlo.after Gen.hostOps0_3 W (Proc.devRef .tc main_v9) = W (Proc.devRef .tc main_v9) := by
  simp only [Gen.hostOps0_3]
  after_results

/-- The counts plus 1023, and the divisor 1024. -/
theorem seg4 (W : Valuation τ sig (Elt F)) (ty : IVec S32768 32)
    (h : (W (Proc.devRef .tc main_v9) : IVec S8 32) = Chain.counts ty) :
    (StableHlo.after Gen.hostOps0_4 W (Proc.devRef .tc main_v18) : IVec S8 32)
        = subi (addi (Chain.counts ty) (Chain.splat8 1024#32)) (Chain.splat8 1#32)
      ∧ (StableHlo.after Gen.hostOps0_4 W (Proc.devRef .tc main_c_2) : IVec S_ 32) = constantI S_ 32 1024#32 := by
  simp only [Gen.hostOps0_4]
  constructor
  · after_results
    rw [h]
    try dsimp only [TRef.toBuf, TRef.ofBuf, cast_eq]
    unfold Chain.splat8
    rfl
  · after_results

set_option maxHeartbeats 400000 in
/-- Floor division by 1024 of eight integers. -/
theorem seg5 (W : Valuation τ sig (Elt F)) (x : IVec S8 32)
    (h : (W (Proc.devRef .tc main_v18) : IVec S8 32) = x)
    (hc : (W (Proc.devRef .tc main_c_2) : IVec S_ 32) = constantI S_ 32 1024#32) :
    (StableHlo.after Gen.hostOps0_5 W (Proc.devRef .tc main_v19) : IVec S8 32) = Chain.floorDiv1024 x := by
  subst h
  simp only [Gen.hostOps0_5]
  after_results
  rw [hc]
  dsimp only [TRef.toBuf, TRef.ofBuf, cast_eq]
  unfold Chain.floorDiv1024 Chain.splat8
  rfl

/-- The padded counts, and the zero the group starts begin with. -/
theorem seg6 (W : Valuation τ sig (Elt F)) (ty : IVec S32768 32)
    (h : (W (Proc.devRef .tc main_v19) : IVec S8 32)
      = Chain.floorDiv1024 (subi (addi (Chain.counts ty) (Chain.splat8 1024#32)) (Chain.splat8 1#32))) :
    (StableHlo.after Gen.hostOps0_6 W (Proc.devRef .tc main_v21) : IVec S8 32) = Chain.pcount ty
      ∧ (StableHlo.after Gen.hostOps0_6 W (Proc.devRef .tc main_v22) : IVec S1 32)
        = broadcastInDim S1 ![] bcast_S_S1 (constantI S_ 32 0#32) := by
  simp only [Gen.hostOps0_6]
  constructor
  · after_results
    rw [h]
    try dsimp only [TRef.toBuf, TRef.ofBuf, cast_eq]
    unfold Chain.pcount Chain.splat8
    rfl
  · after_results

/-- The running sums of the padded counts; the zero is kept. -/
theorem seg7 (W : Valuation τ sig (Elt F)) (ty : IVec S32768 32)
    (h : (W (Proc.devRef .tc main_v21) : IVec S8 32) = Chain.pcount ty) :
    (StableHlo.after Gen.hostOps0_7 W (Proc.devRef .tc main_v23) : IVec S8 32) = Chain.pcum ty
      ∧ StableHlo.after Gen.hostOps0_7 W (Proc.devRef .tc main_v22) = W (Proc.devRef .tc main_v22) := by
  simp only [Gen.hostOps0_7]
  constructor
  · after_results
    rw [h]
    try dsimp only [TRef.toBuf, TRef.ofBuf, cast_eq]
    unfold Chain.pcum
    rfl
  · after_results

/-- The group starts, and the divisor 1024 again. -/
theorem seg8 (W : Valuation τ sig (Elt F)) (ty : IVec S32768 32)
    (h : (W (Proc.devRef .tc main_v23) : IVec S8 32) = Chain.pcum ty)
    (hz : (W (Proc.devRef .tc main_v22) : IVec S1 32) = broadcastInDim S1 ![] bcast_S_S1 (constantI S_ 32 0#32)) :
    (StableHlo.after Gen.hostOps0_8 W (Proc.devRef .tc main_v25) : IVec S8 32) = Chain.pstart ty
      ∧ (StableHlo.after Gen.hostOps0_8 W (Proc.devRef .tc main_c_7) : IVec S_ 32) = constantI S_ 32 1024#32 := by
  simp only [Gen.hostOps0_8]
  constructor
  · after_results
    rw [h, hz]
    try dsimp only [TRef.toBuf, TRef.ofBuf, cast_eq]
    unfold Chain.pstart
    rfl
  · after_results

set_option maxHeartbeats 400000 in
/-- Floor division by 1024 once more: the first tile of each group. -/
theorem seg9 (W : Valuation τ sig (Elt F)) (x : IVec S8 32)
    (h : (W (Proc.devRef .tc main_v25) : IVec S8 32) = x)
    (hc : (W (Proc.devRef .tc main_c_7) : IVec S_ 32) = constantI S_ 32 1024#32) :
    (StableHlo.after Gen.hostOps0_9 W (Proc.devRef .tc main_v34) : IVec S8 32) = Chain.floorDiv1024 x := by
  subst h
  simp only [Gen.hostOps0_9]
  after_results
  rw [hc]
  dsimp only [TRef.toBuf, TRef.ofBuf, cast_eq]
  unfold Chain.floorDiv1024 Chain.splat8
  rfl

/-- The table of tile labels. -/
theorem seg10 (W : Valuation τ sig (Elt F)) (ty : IVec S32768 32)
    (h : (W (Proc.devRef .tc main_v34) : IVec S8 32) = Chain.ctiles ty) :
    (StableHlo.after Gen.hostOps0_10 W (Proc.devRef .tc main_v44) : IVec S40 32) = Chain.tileType ty := by
  simp only [Gen.hostOps0_10]
  after_results
  rw [h]
  unfold Chain.tileType
  rfl

/-! ## The stretches composed -/

/-- Two lines run one after the other: the second folds over what the first leaves. -/
theorem after_append : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_append l₁ l₂]

variable (m : (ℓ : Loc nD τ sig) → Buf (Elt F) ℓ)

/-- The buffers' contents as launched, and after each stretch in turn. -/
def W0 (c : Dev nD) : Valuation τ sig (Elt F) := fun b => m (c, b)
def W1 (c : Dev nD) : Valuation τ sig (Elt F) := StableHlo.after Gen.hostOps0 (W0 m c)
def W2 (c : Dev nD) : Valuation τ sig (Elt F) := StableHlo.after Gen.hostOps0_1 (W1 m c)
def W3 (c : Dev nD) : Valuation τ sig (Elt F) := StableHlo.after Gen.hostOps0_2 (W2 m c)
def W4 (c : Dev nD) : Valuation τ sig (Elt F) := StableHlo.after Gen.hostOps0_3 (W3 m c)
def W5 (c : Dev nD) : Valuation τ sig (Elt F) := StableHlo.after Gen.hostOps0_4 (W4 m c)
def W6 (c : Dev nD) : Valuation τ sig (Elt F) := StableHlo.after Gen.hostOps0_5 (W5 m c)
def W7 (c : Dev nD) : Valuation τ sig (Elt F) := StableHlo.after Gen.hostOps0_6 (W6 m c)
def W8 (c : Dev nD) : Valuation τ sig (Elt F) := StableHlo.after Gen.hostOps0_7 (W7 m c)
def W9 (c : Dev nD) : Valuation τ sig (Elt F) := StableHlo.after Gen.hostOps0_8 (W8 m c)
def W10 (c : Dev nD) : Valuation τ sig (Elt F) := StableHlo.after Gen.hostOps0_9 (W9 m c)
def W11 (c : Dev nD) : Valuation τ sig (Elt F) := StableHlo.after Gen.hostOps0_10 (W10 m c)

/-- The contents when the region is entered are those after the last stretch. -/
theorem V0_eq (c : Dev nD) : Gen.V0 m c = W11 m c := by
  unfold W11 W10 W9 W8 W7 W6 W5 W4 W3 W2 W1 W0
  simp only [Gen.V0, List.flatten_cons, List.flatten_nil, List.append_nil, after_append]

/-- The table of tile labels when the region is entered is the routing chain's, of the label argument as launched. -/
theorem V_tileType (c : Dev nD) :
    (Gen.V m c main_v44 : IVec S40 32) = Chain.tileType (m ((c : Thread nD τ).loc main_arg1)) := by
  have h6 := seg0 (W0 m c) (m ((c : Thread nD τ).loc main_arg1)) rfl
  have h7 := seg1 (W1 m c) _ h6
  have h9 := seg2 (W2 m c) _ h7
  have h9' : (W4 m c (Proc.devRef .tc main_v9) : IVec S8 32) = Chain.counts (m ((c : Thread nD τ).loc main_arg1)) :=
    (seg3_keeps (W3 m c)).trans h9
  obtain ⟨h18, hc2⟩ := seg4 (W4 m c) _ h9'
  have h19 := seg5 (W5 m c) _ h18 hc2
  obtain ⟨h21, h22⟩ := seg6 (W6 m c) _ h19
  obtain ⟨h23, h22k⟩ := seg7 (W7 m c) _ h21
  obtain ⟨h25, hc7⟩ := seg8 (W8 m c) _ h23 (h22k.trans h22)
  have h34 := seg9 (W9 m c) _ h25 hc7
  have h44 := seg10 (W10 m c) _ h34
  show (Gen.V0 m c (Proc.devRef .tc main_v44) : IVec S40 32) = _
  rw [V0_eq]
  exact h44

/-- The same at the prefetched table as the frame reads it (on device 0). -/
theorem tbl_eq :
    (Gen.tbl m 0 : IVec S40 32) = Chain.tileType (m (((0 : Dev nD) : Thread nD τ).loc main_arg1)) :=
  V_tileType m 0

end Cert.Kernel.HostRead

end
-- ==== Proof.ChainBridge.lean ====
/-
  The routing chain read over the program at the level of words and over the idealized program is one chain: the two
  printed host programs are the same operations on the same integer shapes, so the two tables of tile labels are the
  same function of the label vector.
-/
import proofs.«123552_j1236950581828_2_alg».proof.Proof.Chain
import proofs.«123552_j1236950581828_2_alg».proof.Proof.KChain

noncomputable section

namespace Cert.ChainBridge

open Idealize.ShloMosaic

variable [Cert.Kernel.Facts] [Cert.KernelIdeal.Facts]

theorem tileType_bridge (ty : IVec Cert.KernelIdeal.S32768 32) :
    Cert.Kernel.Chain.tileType ty = Cert.KernelIdeal.Chain.tileType ty := rfl

end Cert.ChainBridge

end
-- ==== Proof.lean ====
/- The proof of `Cert.Claim`: the grouped matrix product against the typed linear layer.

   Both programs compute out[r, o] = Σ_k x[r, k] · W[label r, k, o], the label of row r a number in 0..7 by the
   precondition.  The reference adds, over the eight labels t, the product with W[t] masked to the rows of label t: on
   the extended reals the seven masked-out terms are 0 and 0 + a = a.  The kernel sorts the rows by label with a
   counting sort (each group padded to whole tiles of 1024 rows), multiplies every tile by the weight matrix of its
   group, which a table computed on the host names, and gathers the rows back.  The frames of the kernel's two readings
   hold once every entry of that table is a label, which the counting sort's arithmetic gives. -/
import proofs.«123552_j1236950581828_2_alg».proof.Defs
import proofs.«123552_j1236950581828_2_alg».proof.Proof.Gen.Kernel
import proofs.«123552_j1236950581828_2_alg».proof.Proof.Gen.Kernel.Skeleton
import proofs.«123552_j1236950581828_2_alg».proof.Proof.Gen.Kernel.Launch
import proofs.«123552_j1236950581828_2_alg».proof.Proof.Gen.Kernel.Points
import proofs.«123552_j1236950581828_2_alg».proof.Proof.Gen.Kernel.Frame
import proofs.«123552_j1236950581828_2_alg».proof.Proof.Gen.KernelIdeal
import proofs.«123552_j1236950581828_2_alg».proof.Proof.Gen.KernelIdeal.Skeleton
import proofs.«123552_j1236950581828_2_alg».proof.Proof.Gen.KernelIdeal.Launch
import proofs.«123552_j1236950581828_2_alg».proof.Proof.Gen.KernelIdeal.Points
import proofs.«123552_j1236950581828_2_alg».proof.Proof.Gen.KernelIdeal.Frame
import proofs.«123552_j1236950581828_2_alg».proof.Proof.Gen.ReferenceIdeal
import proofs.«123552_j1236950581828_2_alg».proof.Proof.Gen.Pre_finite_inputs
import proofs.«123552_j1236950581828_2_alg».proof.Proof.Gen.ReferenceIdeal.Read
import proofs.«123552_j1236950581828_2_alg».proof.Proof.RefValue
import proofs.«123552_j1236950581828_2_alg».proof.Proof.KernelValue
import proofs.«123552_j1236950581828_2_alg».proof.Proof.PreFacts
import proofs.«123552_j1236950581828_2_alg».proof.Proof.KOkOfTable
import proofs.«123552_j1236950581828_2_alg».proof.Proof.KHostRead
import proofs.«123552_j1236950581828_2_alg».proof.Proof.TileLabel
import proofs.«123552_j1236950581828_2_alg».proof.Proof.ChainBridge
import Idealize.ShloMosaic.Adequacy
import Idealize.ShloMosaic.Init

noncomputable section

namespace Cert.Proof

open Idealize.ShloMosaic Idealize.ShloMosaic.ValueIdx Idealize.SL.Sem

section
variable [Cert.Kernel.Facts] [Cert.KernelIdeal.Facts] [Cert.ReferenceIdeal.Facts] [Cert.Pre_finite_inputs.Facts]

/-- Under the precondition every label of the idealized kernel's label argument is below 8. -/
theorem labels_ki (m : (ℓ : Loc Cert.KernelIdeal.nD Cert.KernelIdeal.τ Cert.KernelIdeal.sig) → Buf (Elt Ideal) ℓ)
    (h : Cert.Pre_KernelIdeal m) (c : Dev Cert.KernelIdeal.nD) (r : Fin 32768) :
    ((m ((c.tc : Thread Cert.KernelIdeal.nD Cert.KernelIdeal.τ).loc Cert.KernelIdeal.main_arg1) : IVec Cert.KernelIdeal.S32768 32) (ix1 r)).toNat < 8 :=
  Cert.PreFacts.labels_of_pre _ _ _ (h c) r

/-- The word-level kernel's frame: its table's entries are labels. -/
theorem frame_k : Cert.frame_Kernel := fun m ρ h =>
  Cert.Kernel.Gen.frame m ρ (Cert.Kernel.OkOfTable.ok_of_tbl m (fun j => by
    rw [Cert.Kernel.HostRead.tbl_eq m, Cert.ChainBridge.tileType_bridge]
    exact Cert.KernelIdeal.Value.tileType_lt _ (Cert.PreFacts.labels_of_pre _ _ _ (h 0)) j))

/-- The idealized kernel's frame, likewise. -/
theorem frame_ki : Cert.frame_KernelIdeal := fun m ρ h =>
  Cert.KernelIdeal.Gen.frame m ρ (Cert.KernelIdeal.Value.ok_of_labels m (labels_ki m h 0))

/-- Both idealized programs end with the typed linear layer of arguments that agree. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.kernel_run m ρ (labels_ki m hpre), ?_⟩
  refine (θ_run Cert.ReferenceIdeal.defs _ _).mono (fun _ h c => ⟨?_, (h c).2⟩)
    (Cert.RefValue.ref_run m' ρ' (fun c r => by rw [(hagree c).2.1]; exact labels_ki m hpre c r))
  rw [(h c).1, (hagree c).1, (hagree c).2.1, (hagree c).2.2]

end

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
